-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S8192x128 .f32) (main_arg1 : FVec F S8192x128 .f32) (main_arg2 : FVec F S8192x8192 .f32) (main_arg3 : FVec F S128x128 .f32) (main_arg4 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S1024x1024 : Shape := ⟨2, ![1024, 1024]⟩
abbrev S1024x128 : Shape := ⟨2, ![1024, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩

abbrev nBuf : Space → Nat
  | .hbm => 37
  | .vmem => 36
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S8192x128, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S1x8192, .f32⟩
  | .hbm, ⟨36, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8192x128, .f32⟩
  | .local _ .vmem, ⟨7, _⟩ => ⟨S8192x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S8192x128, .f32⟩
  | .local _ .vmem, ⟨25, _⟩ => ⟨S8192x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x1, .f32⟩
  | .local _ .vmem, ⟨31, _⟩ => ⟨S1024x1, .f32⟩
  | .local _ .vmem, ⟨32, _⟩ => ⟨S1x1024, .f32⟩
  | .local _ .vmem, ⟨33, _⟩ => ⟨S1x1024, .f32⟩
  | .local _ .vmem, ⟨34, _⟩ => ⟨S1024x1024, .f32⟩
  | .local _ .vmem, ⟨35, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_call2_v2 : Ref sig .tc := ⟨.hbm, 28, rfl⟩
abbrev main_v10 : Ref sig .tc := ⟨.hbm, 29, rfl⟩
abbrev main_call3_v0 : Ref sig .tc := ⟨.hbm, 30, rfl⟩
abbrev main_call3_cst : Ref sig .tc := ⟨.hbm, 31, rfl⟩
abbrev main_call3_v1 : Ref sig .tc := ⟨.hbm, 32, rfl⟩
abbrev main_call3_v2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v15 : BitVec 32 := Scalar.muli arg0 c1024_i32
  v15
def k0_mult2 (i : grid0.Coords) : BitVec 32 :=
  let arg1 : BitVec 32 := BitVec.ofNat 32 (i 1).val
  let c1024_i32_8 : BitVec 32 := 1024#32
  let v17 : BitVec 32 := Scalar.muli arg1 c1024_i32_8
  v17
def k0_off1 (i : grid0.Coords) : Fin 2 → Nat :=
  let arg0 : BitVec 32 := BitVec.ofNat 32 (i 0).val
  let c1024_i32 : BitVec 32 := 1024#32
  let v15 : BitVec 32 := Scalar.muli arg0 c1024_i32
  let v16 : BitVec 32 := v15
  let v19 : Index := Scalar.indexCast v16
  let c0_9 : Index := 0#32
  ![v19.toNat, 0]
def k0_off2 (i : grid0.Coords) : Fin 2 → Nat :=
  let arg1 : BitVec 32 := BitVec.ofNat 32 (i 1).val
  let c1024_i32_8 : BitVec 32 := 1024#32
  let v17 : BitVec 32 := Scalar.muli arg1 c1024_i32_8
  let v18 : BitVec 32 := v17
  let v25 : Index := Scalar.indexCast v18
  let c0_11 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 8], ![false, false]⟩

def k2_mult1 (i : grid2.Coords) : BitVec 32 :=
  let arg0 : BitVec 32 := BitVec.ofNat 32 (i 0).val
  let c1024_i32 : BitVec 32 := 1024#32
  let v16 : BitVec 32 := Scalar.muli arg0 c1024_i32
  v16
def k2_mult2 (i : grid2.Coords) : BitVec 32 :=
  let arg1 : BitVec 32 := BitVec.ofNat 32 (i 1).val
  let c1024_i32_8 : BitVec 32 := 1024#32
  let v18 : BitVec 32 := Scalar.muli arg1 c1024_i32_8
  v18
def k2_off1 (i : grid2.Coords) : Fin 2 → Nat :=
  let arg0 : BitVec 32 := BitVec.ofNat 32 (i 0).val
  let c1024_i32 : BitVec 32 := 1024#32
  let v16 : BitVec 32 := Scalar.muli arg0 c1024_i32
  let v17 : BitVec 32 := v16
  let v20 : Index := Scalar.indexCast v17
  let c0_9 : Index := 0#32
  ![v20.toNat, 0]
def k2_off2 (i : grid2.Coords) : Fin 2 → Nat :=
  let arg1 : BitVec 32 := BitVec.ofNat 32 (i 1).val
  let c1024_i32_8 : BitVec 32 := 1024#32
  let v18 : BitVec 32 := Scalar.muli arg1 c1024_i32_8
  let v19 : BitVec 32 := v18
  let v26 : Index := Scalar.indexCast v19
  let c0_11 : Index := 0#32
  ![v26.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S8192x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S8192x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  inb_S8192x128_S8192x128_0_0 : ∀ a, (![0, 0] : Fin 2 → Nat) a + S8192x128.size a ≤ S8192x128.size a
  h_S8192x128 : 0 < S8192x128.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S8192x128 : S8192x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S1024x1024_S1024x1024 : S1024x1024.ShapeCasts S1024x1024
  dot_S8192x128_S128x128_S8192x128_1_0_0_1_n_n_wf : DotDims.WF S8192x128 S128x128 S8192x128 [1] [0] [0] [1] [] []
  dot_S1024x1024_S1024x128_S1024x128_1_0_0_1_n_n_wf : DotDims.WF S1024x1024 S1024x128 S1024x128 [1] [0] [0] [1] [] []
  dot_S1024x1024_S1024x128_S1024x128_0_0_1_1_n_n_wf : DotDims.WF S1024x1024 S1024x128 S1024x128 [0] [0] [1] [1] [] []
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x128.size a ≤ S8192x128.size a
  k0_off2_inb : ∀ i : grid0.Coords, ∀ a, (k0_off2 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S8192x128.size a
  hwx0_4 : ∀ i : grid0.Coords, EltTy.bits .f32 = 32 ∨ (Rect.block (s := S8192x128) S8192x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)
  hrank2 : 0 < grid2.rank
  k2_mult1_dvd : ∀ i : grid2.Coords, 1024 ∣ (k2_mult1 i).toNat
  k2_mult2_dvd : ∀ i : grid2.Coords, 1024 ∣ (k2_mult2 i).toNat
  k2_off1_inb : ∀ i : grid2.Coords, ∀ a, (k2_off1 i) a + S1024x128.size a ≤ S8192x128.size a
  k2_off2_inb : ∀ i : grid2.Coords, ∀ a, (k2_off2 i) a + S1024x128.size a ≤ S8192x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S8192x128.size a
  hwx2_3 : ∀ i : grid2.Coords, EltTy.bits .f32 = 32 ∨ (Rect.block (s := S8192x128) S8192x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8192x128.size a ≤ S8192x128.size a
  hwx2_4 : ∀ i : grid2.Coords, EltTy.bits .f32 = 32 ∨ (Rect.block (s := S8192x128) S8192x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x8192.size a
  hwx3_3 : ∀ i : grid3.Coords, EltTy.bits .f32 = 32 ∨ (Rect.block (s := S1x8192) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S8192x8192.size a
  hwx3_4 : ∀ i : grid3.Coords, EltTy.bits .f32 = 32 ∨ (Rect.block (s := S8192x8192) S1024x1024.size (cc3_transform_4 i) (hinb3_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S8192x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S8192x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9_0) S8192x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9_1) S8192x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9_0) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9_1) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S128x8192 : Shape := ⟨2, ![128, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x8192, .f32⟩
  | .hbm, ⟨9, _⟩ => ⟨S8192x128, .f32⟩
  | .hbm, ⟨10, _⟩ => ⟨S_, .f32⟩
  | .hbm, ⟨11, _⟩ => ⟨S8192x128, .f32⟩
  | .hbm, ⟨12, _⟩ => ⟨S8192x128, .i1⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .i1⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S128x8192, .f32⟩
  | .hbm, ⟨25, _⟩ => ⟨S8192x8192, .f32⟩
  | .hbm, ⟨26, _⟩ => ⟨S8192x128, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x128, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x8192, .f32⟩
  | .hbm, ⟨47, _⟩ => ⟨S8192x128, .f32⟩
  | .hbm, ⟨48, _⟩ => ⟨S_, .f32⟩
  | .hbm, ⟨49, _⟩ => ⟨S8192x128, .f32⟩
  | .hbm, ⟨50, _⟩ => ⟨S8192x128, .i1⟩
  | .hbm, ⟨51, _⟩ => ⟨S_, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .i1⟩
  | .hbm, ⟨58, _⟩ => ⟨S_, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S128x8192, .f32⟩
  | .hbm, ⟨63, _⟩ => ⟨S8192x8192, .f32⟩
  | .hbm, ⟨64, _⟩ => ⟨S8192x128, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x128, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1, .f32⟩
  | .hbm, ⟨73, _⟩ => ⟨S1x8192, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_v17 : Ref sig .tc := ⟨.hbm, 29, rfl⟩
abbrev main_call3_v0 : Ref sig .tc := ⟨.hbm, 30, rfl⟩
abbrev main_call3_cst : Ref sig .tc := ⟨.hbm, 31, rfl⟩
abbrev main_call3_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call6_v0 : Ref sig .tc := ⟨.hbm, 64, rfl⟩
abbrev main_call6_cst : Ref sig .tc := ⟨.hbm, 65, rfl⟩
abbrev main_call6_v1 : Ref sig .tc := ⟨.hbm, 66, rfl⟩
abbrev main_v44 : Ref sig .tc := ⟨.hbm, 67, rfl⟩
abbrev main_call7_v0 : Ref sig .tc := ⟨.hbm, 68, rfl⟩
abbrev main_call7_cst : Ref sig .tc := ⟨.hbm, 69, rfl⟩
abbrev main_call7_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x128 : S_.BroadcastsInDim S8192x128 (![] : Fin 0 → Fin S8192x128.rank)
  transposes_S8192x128_S128x8192_1_0 : S8192x128.Transposes [1, 0] S128x8192
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x128_S128x8192_S8192x8192_1_0_0_1_n_n_wf : DotDims.WF S8192x128 S128x8192 S8192x8192 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  What both programs compute, index by index, on the extended reals.

  One round of the graph convolution takes node features pre, cur (8192 x 128), an adjacency adj (8192 x 8192)
  and a weight W (128 x 128) to
      pre' = leaky (adj  * (cur * W)),      cur' = leaky (adj^T * (pre * W)),
  and the cosine similarity of two feature arrays P, Q is the 8192 x 8192 array
      (sum_k P(r,k) Q(s,k)) / max (|P_r| |Q_s|, eps),      |X_r| = sqrt (0 + sum_k X(r,k)^2).
  The result is the similarity after two rounds, the second round's adjacency being the first round's
  similarity. Sums are the extended reals' (a commutative monoid: any order and grouping of the terms gives
  the same sum), products and the quotient are the ideal instance's; no finiteness is assumed anywhere.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Feature arrays, adjacency-like arrays, weights, and the two arrangements of a vector of row norms. -/
abbrev Feat : Type := (⟨2, ![8192, 128]⟩ : Shape).Idx → EReal
abbrev Adj : Type := (⟨2, ![8192, 8192]⟩ : Shape).Idx → EReal
abbrev Wt : Type := (⟨2, ![128, 128]⟩ : Shape).Idx → EReal
abbrev Col : Type := (⟨2, ![8192, 1]⟩ : Shape).Idx → EReal
abbrev Row : Type := (⟨2, ![1, 8192]⟩ : Shape).Idx → EReal

/-- The leaky rectifier: x where x >= 0, the slope's f32 word times x elsewhere. -/
def leaky (x : EReal) : EReal :=
  Scalar.select (FloatOps.cmpf (F := Ideal) (φ := .f32) .oge x (Ideal.ofBits .f32 0x00000000#32)) x
    (Ideal.ofBits .f32 0x3C23D70A#32 * x)

/-- Features times a weight. -/
def mm (X : Feat) (W : Wt) : Feat :=
  fun i => ∑ k : Fin 128, X (ix2 (i 0 : Fin 8192) k) * W (ix2 k (i 1 : Fin 128))

/-- leaky (adj * cw). -/
def gcPre (adj : Adj) (cw : Feat) : Feat :=
  fun i => leaky (∑ k : Fin 8192, adj (ix2 (i 0 : Fin 8192) k) * cw (ix2 k (i 1 : Fin 128)))

/-- leaky (adj^T * pw). -/
def gcCur (adj : Adj) (pw : Feat) : Feat :=
  fun i => leaky (∑ k : Fin 8192, adj (ix2 k (i 0 : Fin 8192)) * pw (ix2 k (i 1 : Fin 128)))

/-- The norm of row r: the square root of the sum of squares taken from the f32 zero word. -/
def nrm (X : Feat) (r : Fin 8192) : EReal :=
  Ideal.sqrt (Ideal.ofBits .f32 0x00000000#32 + ∑ k : Fin 128, X (ix2 r k) * X (ix2 r k))

/-- The similarity from the two feature arrays and the two norm vectors as a column and as a row. -/
def cosArr (p q : Feat) (np : Col) (nq : Row) : Adj :=
  fun i => Ideal.div (∑ k : Fin 128, p (ix2 (i 0 : Fin 8192) k) * q (ix2 (i 1 : Fin 8192) k))
    (max (np (ix2 (i 0 : Fin 8192) (0 : Fin 1)) * nq (ix2 (0 : Fin 1) (i 1 : Fin 8192))) (Ideal.ofBits .f32 0x322BCC77#32))

/-- The similarity of P and Q. -/
def cosM (P Q : Feat) : Adj :=
  fun i => Ideal.div (∑ k : Fin 128, P (ix2 (i 0 : Fin 8192) k) * Q (ix2 (i 1 : Fin 8192) k))
    (max (nrm P (i 0 : Fin 8192) * nrm Q (i 1 : Fin 8192)) (Ideal.ofBits .f32 0x322BCC77#32))

/-- With the norms of P as the column and the norms of Q as the row, the similarity of P and Q. -/
theorem cosArr_eq_cosM (P Q : Feat) (np : Col) (nq : Row)
    (hp : ∀ r : Fin 8192, np (ix2 r (0 : Fin 1)) = nrm P r) (hq : ∀ s : Fin 8192, nq (ix2 (0 : Fin 1) s) = nrm Q s) :
    cosArr P Q np nq = cosM P Q := by
  funext i
  unfold cosArr cosM
  exact congrArg (Ideal.div _) (congrArg (max · _) (congrArg₂ (· * ·) (hp (i 0)) (hq (i 1))))

/-- The whole computation: two rounds, the similarity of the first round's features as the second round's adjacency. -/
def G (pre cur : Feat) (adj : Adj) (W1 W2 : Wt) : Adj :=
  let p1 := gcPre adj (mm cur W1)
  let c1 := gcCur adj (mm pre W1)
  let a1 := cosM p1 c1
  let p2 := gcPre a1 (mm c1 W2)
  let c2 := gcCur a1 (mm p1 W2)
  cosM p2 c2

end Cert.Spec

end
-- ==== Proof.K.Gc0Runs.lean ====
/-
  Region 0 (the first graph-convolution call): what its three control cases share.
  The body branches twice on the grid point (i, j) of the 8 x 8 grid: it clears both accumulators at the
  first point (i = 0 and j = 0) and applies the leaky rectifier to both at the last point (i = 7 and j = 7).
  Both conditions are decided here over the 64 points, in closed form.
-/
import proofs.«154085_j15066745274644_1_alg».proof.Proof.Gen.Kernel.Launch
import proofs.«154085_j15066745274644_1_alg».proof.Proof.Gen.Kernel.Skeleton
import proofs.«154085_j15066745274644_1_alg».proof.Proof.Gen.Kernel.Points
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the point is (0, 0). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It is taken at the first point only. -/
theorem hcond0_0 : ∀ t : Fin cfg0.N, cond0_0 (grid0.coords t) ↔ t.val = 0 :=
  (by decide +kernel : ∀ t : Fin grid0.N, cond0_0 (grid0.coords t) ↔ t.val = 0)

/-- The body's second branch is taken: the point is (7, 7). -/
abbrev cond0_1 (i : grid0.Coords) : Prop :=
  (Scalar.cmpi .ne (Scalar.extui (Scalar.andi (Scalar.cmpi .eq (BitVec.ofNat 32 (i 0).val) 7#32) (Scalar.cmpi .eq (BitVec.ofNat 32 (i 1).val) 7#32))) 0#32) = 1#1
/-- It is taken at the last point only. -/
theorem hcond0_1 : ∀ t : Fin cfg0.N, cond0_1 (grid0.coords t) ↔ t.val = 63 :=
  (by decide +kernel : ∀ t : Fin grid0.N, cond0_1 (grid0.coords t) ↔ t.val = 63)

/-- Each window's current staging memref at point t, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .f32 := win0_4.stage (cfg0.slots t 4)
abbrev hs0_4 (t : Fin cfg0.N) : (ms0_4 t).IsWhole := hstage0_4 ((cfg0.slots t 4).cast nbuf0_4)

end Cert.Kernel.Hand

end
-- ==== Proof.K.Gc0RunB.lean ====
/-
  Region 0, a middle point (neither the first nor the last): the body adds the tile's two products into one
  band of rows of each accumulator and leaves every other row of both accumulators as it found it.
-/
import proofs.«154085_j15066745274644_1_alg».proof.Proof.K.Gc0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at a point
    where neither branch is taken, with the proof that the body runs to a continuation holding the three
    input buffers as they were and each accumulator at its old contents overwritten by those pieces. -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : ¬cond0_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc0__gc_kernel i arg2 harg2 arg3 harg3 arg4 harg4 arg5 harg5 arg6 harg6) K } := by
  refine ⟨(?_, ?_), fun E K => ?run⟩
  case run =>
    simp only [cc0__gc_kernel_eq_skeleton]; unfold cc0__gc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.Kernel.Hand

end
-- ==== Proof.K.Gc0RunA.lean ====
/-
  Region 0, the first point (0, 0): the body clears both accumulators, then adds the tile's two products
  into the first band of rows of each. Nothing of what the accumulators held before is kept.
-/
import proofs.«154085_j15066745274644_1_alg».proof.Proof.K.Gc0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in each accumulator at the first point (the clearing store of the whole
    buffer, then the band), last store first, with the proof that the body runs from accumulators holding
    anything to a continuation holding the input buffers as they were and each accumulator with those pieces
    written. -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i)
    (x0 : Vec F S1024x1024 .f32) (x1 : Vec F S1024x128 .f32) (x2 : Vec F S1024x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__gc_kernel i arg2 harg2 arg3 harg3 arg4 harg4 arg5 harg5 arg6 harg6) K } := by
  refine ⟨(?_, ?_), fun E K => ?run⟩
  case run =>
    simp only [cc0__gc_kernel_eq_skeleton]; unfold cc0__gc_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Gc0RunC.lean ====
/-
  Region 0, the last point (7, 7): the body adds the tile's two products into the last band of rows of each
  accumulator and then replaces each accumulator, whole, by its leaky rectification.
-/
import proofs.«154085_j15066745274644_1_alg».proof.Proof.K.Gc0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at the last
    point (only the second branch is taken), with the proof that the body runs to a continuation holding the three
    input buffers as they were and each accumulator at its old contents overwritten by those pieces. -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : cond0_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc0__gc_kernel i arg2 harg2 arg3 harg3 arg4 harg4 arg5 harg5 arg6 harg6) K } := by
  refine ⟨(?_, ?_), fun E K => ?run⟩
  case run =>
    simp only [cc0__gc_kernel_eq_skeleton]; unfold cc0__gc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.Kernel.Hand

end
-- ==== Proof.K.Gc0.lean ====
/-
  Region 0 (the first graph-convolution call) at the contents V its arrays hold when it is entered.
  Its two outputs are accumulators resident in their staging buffers through all 64 grid points: the first
  point clears them and adds its two products into one band of rows of each; every later point adds into a
  band of what the point before left; the last point then rectifies both. What the two buffers hold after
  each point is therefore defined by recursion on the point, and the body's triple at a point is the run of
  the case the point is in, started from what the recursion gives for the point before.
-/
import proofs.«154085_j15066745274644_1_alg».proof.Proof.K.Gc0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a point that
    does not fetch it has the same block index as the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the two accumulators -/

abbrev VO0_3 : View sig .tc .vmem S8192x128 .f32 := (Memref.whole cc0_stg3_0 : Memref sig .tc .vmem S8192x128 .f32).view
abbrev VO0_4 : View sig .tc .vmem S8192x128 .f32 := (Memref.whole cc0_stg4_0 : Memref sig .tc .vmem S8192x128 .f32).view

/-- At the first point the clearing store covers each accumulator, so its pieces cover the buffer. -/
theorem cover0_A_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i) (x0 : Vec F S1024x1024 .f32) (x1 : Vec F S1024x128 .f32) (x2 : Vec F S1024x128 .f32) (y : S8192x128.Idx) :
    ∃ pc ∈ (kernelRun0_A c i arg2 harg2 arg3 harg3 arg4 harg4 arg5 harg5 arg6 harg6 hc0 hc1 x0 x1 x2).1.1, y ∈ pc.1.set :=
  View.cover_of_tiledL (kernelRun0_A c i arg2 harg2 arg3 harg3 arg4 harg4 arg5 harg5 arg6 harg6 hc0 hc1 x0 x1 x2).1.1 S8192x128.size (by sl_kernel_rfl) y
theorem cover0_A_4 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i) (x0 : Vec F S1024x1024 .f32) (x1 : Vec F S1024x128 .f32) (x2 : Vec F S1024x128 .f32) (y : S8192x128.Idx) :
    ∃ pc ∈ (kernelRun0_A c i arg2 harg2 arg3 harg3 arg4 harg4 arg5 harg5 arg6 harg6 hc0 hc1 x0 x1 x2).1.2, y ∈ pc.1.set :=
  View.cover_of_tiledL (kernelRun0_A c i arg2 harg2 arg3 harg3 arg4 harg4 arg5 harg5 arg6 harg6 hc0 hc1 x0 x1 x2).1.2 S8192x128.size (by sl_kernel_rfl) y

/-- The first point: the pieces read back (over anything: they cover). -/
def out0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i) (x0 : Vec F S1024x1024 .f32) (x1 : Vec F S1024x128 .f32) (x2 : Vec F S1024x128 .f32) :
    Vec F S8192x128 .f32 × Vec F S8192x128 .f32 :=
  (VO0_3.read (Elt F) (VO0_3.writes (Elt F) VO0_3.junk (kernelRun0_A c i arg2 harg2 arg3 harg3 arg4 harg4 arg5 harg5 arg6 harg6 hc0 hc1 x0 x1 x2).1.1),
   VO0_4.read (Elt F) (VO0_4.writes (Elt F) VO0_4.junk (kernelRun0_A c i arg2 harg2 arg3 harg3 arg4 harg4 arg5 harg5 arg6 harg6 hc0 hc1 x0 x1 x2).1.2))

/-- A middle point: the pieces written over what the accumulators held. -/
def out0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : ¬cond0_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun0_B c i arg2 harg2 arg3 harg3 arg4 harg4 arg5 harg5 arg6 harg6 hc0 hc1 x0 x1 x2 xo3 xo4).1.1),
   arg6.view.read (Elt F) (arg6.view.writes (Elt F) (harg6.unread xo4) (kernelRun0_B c i arg2 harg2 arg3 harg3 arg4 harg4 arg5 harg5 arg6 harg6 hc0 hc1 x0 x1 x2 xo3 xo4).1.2))

/-- The last point: the pieces written over what the accumulators held. -/
def out0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : cond0_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun0_C c i arg2 harg2 arg3 harg3 arg4 harg4 arg5 harg5 arg6 harg6 hc0 hc1 x0 x1 x2 xo3 xo4).1.1),
   arg6.view.read (Elt F) (arg6.view.writes (Elt F) (harg6.unread xo4) (kernelRun0_C c i arg2 harg2 arg3 harg3 arg4 harg4 arg5 harg5 arg6 harg6 hc0 hc1 x0 x1 x2 xo3 xo4).1.2))

/-! ## The accumulation -/

/-- What the two accumulators hold after the body at position n: the case the closed forms select at n, run at
    the point's buffers and input blocks, from what this gives at n - 1 (the buffers are not written back in
    between: only the last point writes them back). -/
def outsAt0 (c : Dev nD) : (n : ℕ) → n < cfg0.N → Vec F S8192x128 .f32 × Vec F S8192x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr rfl)
      (fun h => absurd (show (0 : ℕ) = 63 from (hcond0_1 ⟨0, hn⟩).mp h) (by decide)) (iblk0 V c 0 ⟨0, hn⟩) (iblk0 V c 1 ⟨0, hn⟩) (iblk0 V c 2 ⟨0, hn⟩)
  | n + 1, hn =>
    if h1 : n + 1 = 63 then
      out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0_0 ⟨n + 1, hn⟩).mp h))
        ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0_0 ⟨n + 1, hn⟩).mp h))
        (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) ((hcond0_0 t).mpr h0)
      (fun h => absurd (show (63 : ℕ) = 0 from ((hcond0_1 t).mp h).symm.trans h0) (by decide)) (iblk0 V c 0 t) (iblk0 V c 1 t) (iblk0 V c 2 t) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 63) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (fun h => h1 ((hcond0_1 t).mp h)) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2 := by
  obtain ⟨n, hn⟩ := t
  cases n with
  | zero => exact absurd rfl h0
  | succ n => exact (dif_neg h1).trans rfl

theorem outsAt0_C (c : Dev nD) (t : Fin cfg0.N) (h0 : t.val ≠ 0) (h1 : t.val = 63) :
    outsAt0 V c t.val t.isLt = out0_C c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      ((hcond0_1 t).mpr h1) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2 := by
  obtain ⟨n, hn⟩ := t
  cases n with
  | zero => exact absurd rfl h0
  | succ n => exact (dif_pos h1).trans rfl

/-! ## The proof data -/

/-- The proof data of region 0 on core c: the arrays as the region finds them; after the body at point t each
    input's buffer at its block and the two accumulators at the accumulation; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- After the first point an accumulator's buffer holds what the body left at the point before: it is written
    back at the last point only, the window is never idle and never clipped. -/
theorem before0_3_pos (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before0_4_pos (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; the closed forms say which case the point is
    in; after the first point the accumulators hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 64 := lt_of_lt_of_eq t.isLt (show cfg0.N = 64 from N_0)
  by_cases h0 : t.val = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => absurd (show (63 : ℕ) = 0 from ((hcond0_1 t).mp h).symm.trans h0) (by decide)) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      show _ = View.read (Elt F) VO0_3 (VO0_3.writes (Elt F) VO0_3.junk _)
      exact View.read_writes_of_cover _ _ _ _ _ (cover0_A_3 (F := F) c _ _ _ _ _ _ _ _ _ _ _ _ _ _ _ _)
    unfold owns; iexists _; isplitr
    swap; · iexact H4
    ipureintro
    show _ = View.read (Elt F) VO0_4 (VO0_4.writes (Elt F) VO0_4.junk _)
    exact View.read_writes_of_cover _ _ _ _ _ (cover0_A_4 (F := F) c _ _ _ _ _ _ _ _ _ _ _ _ _ _ _ _)
  · simp only [before0_3_pos V c t h0, before0_4_pos V c t h0]
    by_cases h1 : t.val = 63
    · rw [outsAt0_C V c t h0 h1]
      unfold out0_C
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl
    · rw [outsAt0_B V c t h0 h1]
      unfold out0_B
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Cos1.lean ====
import proofs.«154085_j15066745274644_1_alg».proof.Proof.Gen.Kernel.Launch
import proofs.«154085_j15066745274644_1_alg».proof.Proof.Gen.Kernel.Skeleton
import proofs.«154085_j15066745274644_1_alg».proof.Proof.Gen.Kernel.Points
import Idealize.ShloMosaic.Lib.Pipeline.FrameBody
import Idealize.ShloMosaic.Lib.Ring
import Idealize.ShloMosaic.Lib.Tactic

/-! # The cosine-similarity region 1: what one grid point leaves, and the body obligation

The pipeline of custom_call 1 walks an 8 x 8 grid. At point (i, j) its body reads four staged blocks — rows
`1024 i ..` of the two 8192 x 128 feature arrays' (window 0 at i, window 1 at j), the 1024 x 1 block of the
row norms at i, the 1 x 1024 block of the column norms at j — and stores ONE 1024 x 1024 block: the contraction
of the two feature blocks over the 128 features, divided entrywise by the larger of the product of the two
norms and a small positive constant. Nothing is carried from one point to the next, so everything below is
stated at an arbitrary content `V` of the TensorCore's buffers when the region is entered. -/

-- membership in a rectangle of 1024 x 1024 extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` has it) that the index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has `V`'s array and a body that leaves the staged block as it was, the
    current staging buffer holds the block of the point at EVERY point — where the pipeline fetches it, by the
    fetch; where it does not (the block index did not move since the last fetch), because nothing wrote it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: whatever proof data has `V`'s array and a body that leaves the staged block as it was, the
    current staging buffer holds the block of the point at EVERY point — where the pipeline fetches it, by the
    fetch; where it does not (the block index did not move since the last fetch), because nothing wrote it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: whatever proof data has `V`'s array and a body that leaves the staged block as it was, the
    current staging buffer holds the block of the point at EVERY point — where the pipeline fetches it, by the
    fetch; where it does not (the block index did not move since the last fetch), because nothing wrote it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: whatever proof data has `V`'s array and a body that leaves the staged block as it was, the
    current staging buffer holds the block of the point at EVERY point — where the pipeline fetches it, by the
    fetch; where it does not (the block index did not move since the last fetch), because nothing wrote it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is the whole staging buffer -/

abbrev r1_0 : Rect S1024x128 := Rect.unit (s := S1024x128) ![0, 0] S1024x128.size inb_S1024x128_S1024x128_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-! ## What the body leaves in the output window's buffer -/

/-- Window 4's staging buffer after the body, as a function of the four input blocks: its single store, of the
    quotient `k1_pay1` of the four loaded values, over the whole buffer. -/
def out1_4 (x0 : Vec F S1024x128 .f32) (x1 : Vec F S1024x128 .f32) (x2 : Vec F S1024x1 .f32) (x3 : Vec F S1x1024 .f32) : Vec F S1024x1024 .f32 :=
  View.canon [⟨r1_3, k1_pay1 (View.ld x0 r1_0) (View.ld x1 r1_0) (View.ld x2 r1_1) (View.ld x3 r1_2)⟩]

/-- The one store is over the whole buffer, so every position is written. -/
theorem cover1_4 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 1000000 in
/-- The kernel body on whole staging memrefs — the four inputs' holding `x0 .. x3`, the output's holding anything
    (the body loads it once before overwriting it, and the loaded value is never used) — runs to the continuation
    with the inputs' as they were and the output's at `out1_4 x0 x1 x2 x3`. -/
theorem sound_kernel1 (c : Dev nD) (E : Set ℕ) (i : grid1.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x128 .f32) (x1 : Vec F S1024x128 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__cos_kernel i arg2 harg2 arg3 harg3 arg4 harg4 arg5 harg5 arg6 harg6) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them; after the body at point `t`
    each input's buffer at its block and the output's at `out1_4` of the four input blocks; the invariant is
    "the scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Gc2Runs.lean ====
/-
  Region 2 (the second graph-convolution call): what its three control cases share.
  The body branches twice on the grid point (i, j) of the 8 x 8 grid: it clears both accumulators at the
  first point (i = 0 and j = 0) and applies the leaky rectifier to both at the last point (i = 7 and j = 7).
  Both conditions are decided here over the 64 points, in closed form.
-/
import proofs.«154085_j15066745274644_1_alg».proof.Proof.Gen.Kernel.Launch
import proofs.«154085_j15066745274644_1_alg».proof.Proof.Gen.Kernel.Skeleton
import proofs.«154085_j15066745274644_1_alg».proof.Proof.Gen.Kernel.Points
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the point is (0, 0). -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It is taken at the first point only. -/
theorem hcond2_0 : ∀ t : Fin cfg2.N, cond2_0 (grid2.coords t) ↔ t.val = 0 :=
  (by decide +kernel : ∀ t : Fin grid2.N, cond2_0 (grid2.coords t) ↔ t.val = 0)

/-- The body's second branch is taken: the point is (7, 7). -/
abbrev cond2_1 (i : grid2.Coords) : Prop :=
  (Scalar.cmpi .ne (Scalar.extui (Scalar.andi (Scalar.cmpi .eq (BitVec.ofNat 32 (i 0).val) 7#32) (Scalar.cmpi .eq (BitVec.ofNat 32 (i 1).val) 7#32))) 0#32) = 1#1
/-- It is taken at the last point only. -/
theorem hcond2_1 : ∀ t : Fin cfg2.N, cond2_1 (grid2.coords t) ↔ t.val = 63 :=
  (by decide +kernel : ∀ t : Fin grid2.N, cond2_1 (grid2.coords t) ↔ t.val = 63)

/-- Each window's current staging memref at point t, as the pipeline passes it, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8192x128 .f32 := win2_4.stage (cfg2.slots t 4)
abbrev hs2_4 (t : Fin cfg2.N) : (ms2_4 t).IsWhole := hstage2_4 ((cfg2.slots t 4).cast nbuf2_4)

end Cert.Kernel.Hand

end
-- ==== Proof.K.Gc2RunB.lean ====
/-
  Region 2, a middle point (neither the first nor the last): the body adds the tile's two products into one
  band of rows of each accumulator and leaves every other row of both accumulators as it found it.
-/
import proofs.«154085_j15066745274644_1_alg».proof.Proof.K.Gc2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at a point
    where neither branch is taken, with the proof that the body runs to a continuation holding the three
    input buffers as they were and each accumulator at its old contents overwritten by those pieces. -/
noncomputable def kernelRun2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : ¬cond2_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc2__gc_kernel i arg2 harg2 arg3 harg3 arg4 harg4 arg5 harg5 arg6 harg6) K } := by
  refine ⟨(?_, ?_), fun E K => ?run⟩
  case run =>
    simp only [cc2__gc_kernel_eq_skeleton]; unfold cc2__gc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.Kernel.Hand

end
-- ==== Proof.K.Gc2RunA.lean ====
/-
  Region 2, the first point (0, 0): the body clears both accumulators, then adds the tile's two products
  into the first band of rows of each. Nothing of what the accumulators held before is kept.
-/
import proofs.«154085_j15066745274644_1_alg».proof.Proof.K.Gc2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in each accumulator at the first point (the clearing store of the whole
    buffer, then the band), last store first, with the proof that the body runs from accumulators holding
    anything to a continuation holding the input buffers as they were and each accumulator with those pieces
    written. -/
noncomputable def kernelRun2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i)
    (x0 : Vec F S1024x1024 .f32) (x1 : Vec F S1024x128 .f32) (x2 : Vec F S1024x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc2__gc_kernel i arg2 harg2 arg3 harg3 arg4 harg4 arg5 harg5 arg6 harg6) K } := by
  refine ⟨(?_, ?_), fun E K => ?run⟩
  case run =>
    simp only [cc2__gc_kernel_eq_skeleton]; unfold cc2__gc_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.K.Gc2RunC.lean ====
/-
  Region 2, the last point (7, 7): the body adds the tile's two products into the last band of rows of each
  accumulator and then replaces each accumulator, whole, by its leaky rectification.
-/
import proofs.«154085_j15066745274644_1_alg».proof.Proof.K.Gc2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at the last
    point (only the second branch is taken), with the proof that the body runs to a continuation holding the three
    input buffers as they were and each accumulator at its old contents overwritten by those pieces. -/
noncomputable def kernelRun2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : cond2_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc2__gc_kernel i arg2 harg2 arg3 harg3 arg4 harg4 arg5 harg5 arg6 harg6) K } := by
  refine ⟨(?_, ?_), fun E K => ?run⟩
  case run =>
    simp only [cc2__gc_kernel_eq_skeleton]; unfold cc2__gc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.Kernel.Hand

end
-- ==== Proof.K.Gc2.lean ====
/-
  Region 2 (the second graph-convolution call) at the contents V its arrays hold when it is entered.
  Its two outputs are accumulators resident in their staging buffers through all 64 grid points: the first
  point clears them and adds its two products into one band of rows of each; every later point adds into a
  band of what the point before left; the last point then rectifies both. What the two buffers hold after
  each point is therefore defined by recursion on the point, and the body's triple at a point is the run of
  the case the point is in, started from what the recursion gives for the point before.
-/
import proofs.«154085_j15066745274644_1_alg».proof.Proof.K.Gc2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a point that
    does not fetch it has the same block index as the point before). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the two accumulators -/

abbrev VO2_3 : View sig .tc .vmem S8192x128 .f32 := (Memref.whole cc2_stg3_0 : Memref sig .tc .vmem S8192x128 .f32).view
abbrev VO2_4 : View sig .tc .vmem S8192x128 .f32 := (Memref.whole cc2_stg4_0 : Memref sig .tc .vmem S8192x128 .f32).view

/-- At the first point the clearing store covers each accumulator, so its pieces cover the buffer. -/
theorem cover2_A_3 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i) (x0 : Vec F S1024x1024 .f32) (x1 : Vec F S1024x128 .f32) (x2 : Vec F S1024x128 .f32) (y : S8192x128.Idx) :
    ∃ pc ∈ (kernelRun2_A c i arg2 harg2 arg3 harg3 arg4 harg4 arg5 harg5 arg6 harg6 hc0 hc1 x0 x1 x2).1.1, y ∈ pc.1.set :=
  View.cover_of_tiledL (kernelRun2_A c i arg2 harg2 arg3 harg3 arg4 harg4 arg5 harg5 arg6 harg6 hc0 hc1 x0 x1 x2).1.1 S8192x128.size (by sl_kernel_rfl) y
theorem cover2_A_4 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i) (x0 : Vec F S1024x1024 .f32) (x1 : Vec F S1024x128 .f32) (x2 : Vec F S1024x128 .f32) (y : S8192x128.Idx) :
    ∃ pc ∈ (kernelRun2_A c i arg2 harg2 arg3 harg3 arg4 harg4 arg5 harg5 arg6 harg6 hc0 hc1 x0 x1 x2).1.2, y ∈ pc.1.set :=
  View.cover_of_tiledL (kernelRun2_A c i arg2 harg2 arg3 harg3 arg4 harg4 arg5 harg5 arg6 harg6 hc0 hc1 x0 x1 x2).1.2 S8192x128.size (by sl_kernel_rfl) y

/-- The first point: the pieces read back (over anything: they cover). -/
def out2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i) (x0 : Vec F S1024x1024 .f32) (x1 : Vec F S1024x128 .f32) (x2 : Vec F S1024x128 .f32) :
    Vec F S8192x128 .f32 × Vec F S8192x128 .f32 :=
  (VO2_3.read (Elt F) (VO2_3.writes (Elt F) VO2_3.junk (kernelRun2_A c i arg2 harg2 arg3 harg3 arg4 harg4 arg5 harg5 arg6 harg6 hc0 hc1 x0 x1 x2).1.1),
   VO2_4.read (Elt F) (VO2_4.writes (Elt F) VO2_4.junk (kernelRun2_A c i arg2 harg2 arg3 harg3 arg4 harg4 arg5 harg5 arg6 harg6 hc0 hc1 x0 x1 x2).1.2))

/-- A middle point: the pieces written over what the accumulators held. -/
def out2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : ¬cond2_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun2_B c i arg2 harg2 arg3 harg3 arg4 harg4 arg5 harg5 arg6 harg6 hc0 hc1 x0 x1 x2 xo3 xo4).1.1),
   arg6.view.read (Elt F) (arg6.view.writes (Elt F) (harg6.unread xo4) (kernelRun2_B c i arg2 harg2 arg3 harg3 arg4 harg4 arg5 harg5 arg6 harg6 hc0 hc1 x0 x1 x2 xo3 xo4).1.2))

/-- The last point: the pieces written over what the accumulators held. -/
def out2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : cond2_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun2_C c i arg2 harg2 arg3 harg3 arg4 harg4 arg5 harg5 arg6 harg6 hc0 hc1 x0 x1 x2 xo3 xo4).1.1),
   arg6.view.read (Elt F) (arg6.view.writes (Elt F) (harg6.unread xo4) (kernelRun2_C c i arg2 harg2 arg3 harg3 arg4 harg4 arg5 harg5 arg6 harg6 hc0 hc1 x0 x1 x2 xo3 xo4).1.2))

/-! ## The accumulation -/

/-- What the two accumulators hold after the body at position n: the case the closed forms select at n, run at
    the point's buffers and input blocks, from what this gives at n - 1 (the buffers are not written back in
    between: only the last point writes them back). -/
def outsAt2 (c : Dev nD) : (n : ℕ) → n < cfg2.N → Vec F S8192x128 .f32 × Vec F S8192x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr rfl)
      (fun h => absurd (show (0 : ℕ) = 63 from (hcond2_1 ⟨0, hn⟩).mp h) (by decide)) (iblk2 V c 0 ⟨0, hn⟩) (iblk2 V c 1 ⟨0, hn⟩) (iblk2 V c 2 ⟨0, hn⟩)
  | n + 1, hn =>
    if h1 : n + 1 = 63 then
      out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2_0 ⟨n + 1, hn⟩).mp h))
        ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).1 (outsAt2 c n (Nat.lt_of_succ_lt hn)).2
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2_0 ⟨n + 1, hn⟩).mp h))
        (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).1 (outsAt2 c n (Nat.lt_of_succ_lt hn)).2

theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) ((hcond2_0 t).mpr h0)
      (fun h => absurd (show (63 : ℕ) = 0 from ((hcond2_1 t).mp h).symm.trans h0) (by decide)) (iblk2 V c 0 t) (iblk2 V c 1 t) (iblk2 V c 2 t) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 63) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (fun h => h0 ((hcond2_0 t).mp h))
      (fun h => h1 ((hcond2_1 t).mp h)) (iblk2 V c 0 t) (iblk2 V c 1 t) (iblk2 V c 2 t)
      (outsAt2 V c (t.val - 1) (Nat.lt_of_le_of_lt (Nat.sub_le _ _) t.isLt)).1 (outsAt2 V c (t.val - 1) (Nat.lt_of_le_of_lt (Nat.sub_le _ _) t.isLt)).2 := by
  obtain ⟨n, hn⟩ := t
  cases n with
  | zero => exact absurd rfl h0
  | succ n => exact (dif_neg h1).trans rfl

theorem outsAt2_C (c : Dev nD) (t : Fin cfg2.N) (h0 : t.val ≠ 0) (h1 : t.val = 63) :
    outsAt2 V c t.val t.isLt = out2_C c (grid2.coords t) (ms2_0 t) (hs2_0 t) (ms2_1 t) (hs2_1 t) (ms2_2 t) (hs2_2 t) (ms2_3 t) (hs2_3 t) (ms2_4 t) (hs2_4 t) (fun h => h0 ((hcond2_0 t).mp h))
      ((hcond2_1 t).mpr h1) (iblk2 V c 0 t) (iblk2 V c 1 t) (iblk2 V c 2 t)
      (outsAt2 V c (t.val - 1) (Nat.lt_of_le_of_lt (Nat.sub_le _ _) t.isLt)).1 (outsAt2 V c (t.val - 1) (Nat.lt_of_le_of_lt (Nat.sub_le _ _) t.isLt)).2 := by
  obtain ⟨n, hn⟩ := t
  cases n with
  | zero => exact absurd rfl h0
  | succ n => exact (dif_pos h1).trans rfl

/-! ## The proof data -/

/-- The proof data of region 2 on core c: the arrays as the region finds them; after the body at point t each
    input's buffer at its block and the two accumulators at the accumulation; the class invariant (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- After the first point an accumulator's buffer holds what the body left at the point before: it is written
    back at the last point only, the window is never idle and never clipped. -/
theorem before2_3_pos (c : Dev nD) (t : Fin cfg2.N) (h0 : t.val ≠ 0) (d) :
    (dat2 V c).before 3 t d = (outsAt2 V c (t.val - 1) (Nat.lt_of_le_of_lt (Nat.sub_le _ _) t.isLt)).1 := by
  have hN : t.val < 64 := lt_of_lt_of_eq t.isLt (show cfg2.N = 64 from N_2)
  rw [Dat.before_out_kept _ 3 rfl t h0 (Bool.eq_false_iff.mpr fun h => by have := (flush2_3 _).mp h; dsimp only at this; omega)
    (fun _ => rfl) (fun _ _ => rfl)]
  dsimp only [dat2]
theorem before2_4_pos (c : Dev nD) (t : Fin cfg2.N) (h0 : t.val ≠ 0) (d) :
    (dat2 V c).before 4 t d = (outsAt2 V c (t.val - 1) (Nat.lt_of_le_of_lt (Nat.sub_le _ _) t.isLt)).2 := by
  have hN : t.val < 64 := lt_of_lt_of_eq t.isLt (show cfg2.N = 64 from N_2)
  rw [Dat.before_out_kept _ 4 rfl t h0 (Bool.eq_false_iff.mpr fun h => by have := (flush2_4 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' buffers hold their blocks; the closed forms say which case the point is
    in; after the first point the accumulators hold what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 64 := lt_of_lt_of_eq t.isLt (show cfg2.N = 64 from N_2)
  by_cases h0 : t.val = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (fun h => absurd (show (63 : ℕ) = 0 from ((hcond2_1 t).mp h).symm.trans h0) (by decide)) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      show _ = View.read (Elt F) VO2_3 (VO2_3.writes (Elt F) VO2_3.junk _)
      exact View.read_writes_of_cover _ _ _ _ _ (cover2_A_3 (F := F) c _ _ _ _ _ _ _ _ _ _ _ _ _ _ _ _)
    unfold owns; iexists _; isplitr
    swap; · iexact H4
    ipureintro
    show _ = View.read (Elt F) VO2_4 (VO2_4.writes (Elt F) VO2_4.junk _)
    exact View.read_writes_of_cover _ _ _ _ _ (cover2_A_4 (F := F) c _ _ _ _ _ _ _ _ _ _ _ _ _ _ _ _)
  · simp only [before2_3_pos V c t h0, before2_4_pos V c t h0]
    by_cases h1 : t.val = 63
    · rw [outsAt2_C V c t h0 h1]
      unfold out2_C
      iintro ⟨HΦ, Ho, ⟨%d0, H0⟩, ⟨%d1, H1⟩, ⟨%d2, H2⟩, ⟨%d3, H3⟩, ⟨%d4, H4⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl
    · rw [outsAt2_B V c t h0 h1]
      unfold out2_B
      iintro ⟨HΦ, Ho, ⟨%d0, H0⟩, ⟨%d1, H1⟩, ⟨%d2, H2⟩, ⟨%d3, H3⟩, ⟨%d4, H4⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Cos3.lean ====
import proofs.«154085_j15066745274644_1_alg».proof.Proof.Gen.Kernel.Launch
import proofs.«154085_j15066745274644_1_alg».proof.Proof.Gen.Kernel.Skeleton
import proofs.«154085_j15066745274644_1_alg».proof.Proof.Gen.Kernel.Points
import Idealize.ShloMosaic.Lib.Pipeline.FrameBody
import Idealize.ShloMosaic.Lib.Ring
import Idealize.ShloMosaic.Lib.Tactic

/-! # The cosine-similarity region 3: what one grid point leaves, and the body obligation

The pipeline of custom_call 3 walks an 8 x 8 grid. At point (i, j) its body reads four staged blocks — rows
`1024 i ..` of the two 8192 x 128 feature arrays' (window 0 at i, window 1 at j), the 1024 x 1 block of the
row norms at i, the 1 x 1024 block of the column norms at j — and stores ONE 1024 x 1024 block: the contraction
of the two feature blocks over the 128 features, divided entrywise by the larger of the product of the two
norms and a small positive constant. Nothing is carried from one point to the next, so everything below is
stated at an arbitrary content `V` of the TensorCore's buffers when the region is entered. -/

-- membership in a rectangle of 1024 x 1024 extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` has it) that the index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has `V`'s array and a body that leaves the staged block as it was, the
    current staging buffer holds the block of the point at EVERY point — where the pipeline fetches it, by the
    fetch; where it does not (the block index did not move since the last fetch), because nothing wrote it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever proof data has `V`'s array and a body that leaves the staged block as it was, the
    current staging buffer holds the block of the point at EVERY point — where the pipeline fetches it, by the
    fetch; where it does not (the block index did not move since the last fetch), because nothing wrote it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever proof data has `V`'s array and a body that leaves the staged block as it was, the
    current staging buffer holds the block of the point at EVERY point — where the pipeline fetches it, by the
    fetch; where it does not (the block index did not move since the last fetch), because nothing wrote it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: whatever proof data has `V`'s array and a body that leaves the staged block as it was, the
    current staging buffer holds the block of the point at EVERY point — where the pipeline fetches it, by the
    fetch; where it does not (the block index did not move since the last fetch), because nothing wrote it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one is the whole staging buffer -/

abbrev r3_0 : Rect S1024x128 := Rect.unit (s := S1024x128) ![0, 0] S1024x128.size inb_S1024x128_S1024x128_0_0
abbrev r3_1 : Rect S1024x1 := Rect.unit (s := S1024x1) ![0, 0] S1024x1.size inb_S1024x1_S1024x1_0_0
abbrev r3_2 : Rect S1x1024 := Rect.unit (s := S1x1024) ![0, 0] S1x1024.size inb_S1x1024_S1x1024_0_0
abbrev r3_3 : Rect S1024x1024 := Rect.unit (s := S1024x1024) ![0, 0] S1024x1024.size inb_S1024x1024_S1024x1024_0_0

/-! ## What the body leaves in the output window's buffer -/

/-- Window 4's staging buffer after the body, as a function of the four input blocks: its single store, of the
    quotient `k3_pay1` of the four loaded values, over the whole buffer. -/
def out3_4 (x0 : Vec F S1024x128 .f32) (x1 : Vec F S1024x128 .f32) (x2 : Vec F S1024x1 .f32) (x3 : Vec F S1x1024 .f32) : Vec F S1024x1024 .f32 :=
  View.canon [⟨r3_3, k3_pay1 (View.ld x0 r3_0) (View.ld x1 r3_0) (View.ld x2 r3_1) (View.ld x3 r3_2)⟩]

/-- The one store is over the whole buffer, so every position is written. -/
theorem cover3_4 (p0 : Vec F S1024x1024 .f32) (y : S1024x1024.Idx) :
    ∃ pc ∈ ([⟨r3_3, p0⟩] : List (View.Piece (Elt F) S1024x1024 .f32)), y ∈ pc.1.set :=
  View.cover_of_tiled [⟨r3_3, p0⟩] S1024x1024.size (by rfl) y

/-! ## The body's triple -/

set_option maxHeartbeats 1000000 in
/-- The kernel body on whole staging memrefs — the four inputs' holding `x0 .. x3`, the output's holding anything
    (the body loads it once before overwriting it, and the loaded value is never used) — runs to the continuation
    with the inputs' as they were and the output's at `out3_4 x0 x1 x2 x3`. -/
theorem sound_kernel3 (c : Dev nD) (E : Set ℕ) (i : grid3.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x128 .f32) (x1 : Vec F S1024x128 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3__cos_kernel i arg2 harg2 arg3 harg3 arg4 harg4 arg5 harg5 arg6 harg6) K := by
  simp only [cc3__cos_kernel_eq_skeleton]; unfold cc3__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them; after the body at point `t`
    each input's buffer at its block and the output's at `out3_4` of the four input blocks; the invariant is
    "the scoped rest and the generator register, untouched"; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«154085_j15066745274644_1_alg».proof.Proof.Gen.Kernel.Launch
import proofs.«154085_j15066745274644_1_alg».proof.Proof.Gen.Kernel.Regions
import proofs.«154085_j15066745274644_1_alg».proof.Proof.K.Gc0
import proofs.«154085_j15066745274644_1_alg».proof.Proof.K.Cos1
import proofs.«154085_j15066745274644_1_alg».proof.Proof.K.Gc2
import proofs.«154085_j15066745274644_1_alg».proof.Proof.K.Cos3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: twelve segments from the launch to the return

@main alternates stretches of host operations with four kernel regions (two graph convolutions, two cosine
similarities). This file follows the TensorCore's buffer contents through the twelve segments: a host stretch
rewrites the buffers its operations write and leaves the others; a region leaves each of its windows' arrays at what
its write-backs fold to and every other buffer as it found it. From that fold it derives: every weakly fair
execution terminates with every unscoped buffer at the last contents of the fold, hence with the five argument
arrays as launched and the result array at what the last region's pipeline leaves.
-/

-- membership proofs over rectangles of these extents recurse once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary

`W0` is the launch memory read on core `c`. A host stretch takes `W` to `StableHlo.after ops W`. A region with
proof data `dat` takes `W` to `W` with each window's array replaced by `dat.arrAt w N`: an input window's array is
then what it was, an output window's array is its write-backs folded over the grid. `VJ` is `WJ` read at the
TensorCore's references, which is what a region's proof data is stated over. -/

/-- Core `c`'s buffers at launch. -/
abbrev W0 : Dev nD → Valuation τ sig (Elt F) := fun c b => (s₀ m ρ).mem ((c : Dev nD), b)

/-- After `hostOps0`: the two projections of the first layer (region 0's entry). -/
abbrev W1 : Dev nD → Valuation τ sig (Elt F) := fun c => StableHlo.after hostOps0 (W0 m ρ c)
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- `W1` read at the TensorCore's references (what region 0's proof data take). -/
abbrev V1 : (c : Dev nD) → (b : Ref sig .tc) → Buf (Elt F) ((c : Thread nD τ).loc b) := fun c b => W1 m ρ c b

/-- At region 0's exit: each window's array at what the pipeline leaves there (an input's as entered, an output's
    write-backs folded over the grid), every other buffer as entered. -/
def W2 (c : Dev nD) : Valuation τ sig (Elt F) :=
  Pipeline.withArrays spec0 c (W1 m ρ c) fun w => (dat0 (V1 m ρ) c).arrAt w cfg0.N
/-- Region 0's exit contents at a window's array. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Region 0's exit contents at a reference that is no window's array: the entry contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at an input window's array: the entry contents, since the pipeline only reads it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- `W2` read at the TensorCore's references (region 0's exit contents). -/
abbrev V2 : (c : Dev nD) → (b : Ref sig .tc) → Buf (Elt F) ((c : Thread nD τ).loc b) := fun c b => W2 m ρ c b
/-- The two facts that put region 0's arrays back among the unscoped buffers at its exit: each array holds what the
    pipeline leaves (`hF0`), every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: the row norms of the first layer's first output. -/
abbrev W3 : Dev nD → Valuation τ sig (Elt F) := fun c => StableHlo.after hostOps1 (W2 m ρ c)
/-- A reference `hostOps1` does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After `hostOps1_1`: the row norms of the first layer's second output. -/
abbrev W4 : Dev nD → Valuation τ sig (Elt F) := fun c => StableHlo.after hostOps1_1 (W3 m ρ c)
/-- A reference `hostOps1_1` does not write holds after it what it held before. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

/-- After `hostOps1_2`: those norms transposed to a row (region 1's entry). -/
abbrev W5 : Dev nD → Valuation τ sig (Elt F) := fun c => StableHlo.after hostOps1_2 (W4 m ρ c)
/-- A reference `hostOps1_2` does not write holds after it what it held before. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
/-- `W5` read at the TensorCore's references (what region 1's proof data take). -/
abbrev V5 : (c : Dev nD) → (b : Ref sig .tc) → Buf (Elt F) ((c : Thread nD τ).loc b) := fun c b => W5 m ρ c b

/-- At region 1's exit: each window's array at what the pipeline leaves there (an input's as entered, an output's
    write-backs folded over the grid), every other buffer as entered. -/
def W6 (c : Dev nD) : Valuation τ sig (Elt F) :=
  Pipeline.withArrays spec1 c (W5 m ρ c) fun w => (dat1 (V5 m ρ) c).arrAt w cfg1.N
/-- Region 1's exit contents at a window's array. -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- Region 1's exit contents at a reference that is no window's array: the entry contents. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Region 1's exit contents at an input window's array: the entry contents, since the pipeline only reads it. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- `W6` read at the TensorCore's references (region 1's exit contents). -/
abbrev V6 : (c : Dev nD) → (b : Ref sig .tc) → Buf (Elt F) ((c : Thread nD τ).loc b) := fun c b => W6 m ρ c b
/-- The two facts that put region 1's arrays back among the unscoped buffers at its exit: each array holds what the
    pipeline leaves (`hF1`), every other buffer what it held at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`: the two projections of the second layer (region 2's entry). -/
abbrev W7 : Dev nD → Valuation τ sig (Elt F) := fun c => StableHlo.after hostOps2 (W6 m ρ c)
/-- A reference `hostOps2` does not write holds after it what it held before. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- `W7` read at the TensorCore's references (what region 2's proof data take). -/
abbrev V7 : (c : Dev nD) → (b : Ref sig .tc) → Buf (Elt F) ((c : Thread nD τ).loc b) := fun c b => W7 m ρ c b

/-- At region 2's exit: each window's array at what the pipeline leaves there (an input's as entered, an output's
    write-backs folded over the grid), every other buffer as entered. -/
def W8 (c : Dev nD) : Valuation τ sig (Elt F) :=
  Pipeline.withArrays spec2 c (W7 m ρ c) fun w => (dat2 (V7 m ρ) c).arrAt w cfg2.N
/-- Region 2's exit contents at a window's array. -/
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
/-- Region 2's exit contents at a reference that is no window's array: the entry contents. -/
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents at an input window's array: the entry contents, since the pipeline only reads it. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
/-- `W8` read at the TensorCore's references (region 2's exit contents). -/
abbrev V8 : (c : Dev nD) → (b : Ref sig .tc) → Buf (Elt F) ((c : Thread nD τ).loc b) := fun c b => W8 m ρ c b
/-- The two facts that put region 2's arrays back among the unscoped buffers at its exit: each array holds what the
    pipeline leaves (`hF2`), every other buffer what it held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3`: the row norms of the second layer's first output. -/
abbrev W9 : Dev nD → Valuation τ sig (Elt F) := fun c => StableHlo.after hostOps3 (W8 m ρ c)
/-- A reference `hostOps3` does not write holds after it what it held before. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-- After `hostOps3_1`: the row norms of the second layer's second output. -/
abbrev W10 : Dev nD → Valuation τ sig (Elt F) := fun c => StableHlo.after hostOps3_1 (W9 m ρ c)
/-- A reference `hostOps3_1` does not write holds after it what it held before. -/
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h

/-- After `hostOps3_2`: those norms transposed to a row (region 3's entry). -/
abbrev W11 : Dev nD → Valuation τ sig (Elt F) := fun c => StableHlo.after hostOps3_2 (W10 m ρ c)
/-- A reference `hostOps3_2` does not write holds after it what it held before. -/
theorem W11_of (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h
/-- `W11` read at the TensorCore's references (what region 3's proof data take). -/
abbrev V11 : (c : Dev nD) → (b : Ref sig .tc) → Buf (Elt F) ((c : Thread nD τ).loc b) := fun c b => W11 m ρ c b

/-- At region 3's exit: each window's array at what the pipeline leaves there (an input's as entered, an output's
    write-backs folded over the grid), every other buffer as entered. -/
def W12 (c : Dev nD) : Valuation τ sig (Elt F) :=
  Pipeline.withArrays spec3 c (W11 m ρ c) fun w => (dat3 (V11 m ρ) c).arrAt w cfg3.N
/-- Region 3's exit contents at a window's array. -/
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
/-- Region 3's exit contents at a reference that is no window's array: the entry contents. -/
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- Region 3's exit contents at an input window's array: the entry contents, since the pipeline only reads it. -/
theorem W12_in (c : Dev nD) (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (V11 m ρ) c).arrAt_in w hin _).trans (A_eq3 (V11 m ρ) c w))
/-- `W12` read at the TensorCore's references (region 3's exit contents). -/
abbrev V12 : (c : Dev nD) → (b : Ref sig .tc) → Buf (Elt F) ((c : Thread nD τ).loc b) := fun c b => W12 m ρ c b
/-- The two facts that put region 3's arrays back among the unscoped buffers at its exit: each array holds what the
    pipeline leaves (`hF3`), every other buffer what it held at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- The result array is window 4's array of region 3: at the end it holds that pipeline's write-backs folded over
    the grid. -/
theorem W12_result (c : Dev nD) : W12 m ρ c (Proc.devRef .tc main_v13) = (dat3 (V11 m ρ) c).arrAt 4 cfg3.N :=
  W12_arr m ρ c 4

/-! ## The arguments end as launched

No host operation writes an argument and no region has one as an output window's array, so the fold at an argument
walks back to the launch memory one boundary at a time. The adjacency argument is region 0's window 0, an input:
there the step reads the region's exit contents at an input window's array, which are its entry contents. -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. A literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment: from every unscoped buffer at `W`, with `R` beside, to every unscoped buffer at
    `StableHlo.after ops W`, which is the next boundary's contents by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the
    generator register at some state. -/
abbrev Tₙ (c : Dev nD) : sProp 𝕄 := iprop(StableHlo.held (c : Thread nD τ) (Pipeline.ucRefs τ sig) (W12 m ρ c) ∗ ∃ r, prngReg c r)

/-! ## The regions as segments

Each region is entered from every unscoped buffer at its entry contents. At entry its windows' arrays are split out of
the unscoped buffers and the generator register goes into the region's invariant; at exit the arrays come back at
the exit contents and the register comes out. Nothing is owed at any point, and the kernels have no semaphore of
their own. -/

-- a library lemma stated over the pinned configuration unifies with the printed one only when unification may unfold
-- plain definitions in a metavariable's type
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W11`, left at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ) ]
/-- @main is the run of the segments: it is the chain of its items, and the segments' run is the same chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final state holds every unscoped buffer at the last contents of
    the fold, `W12`: the thread states chain through the twelve segments, and the last one is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- THE FRAME. Every weakly fair execution of @main terminates, nothing faulting, and every final state has the five
    argument arrays as launched: each is an unscoped buffer, which the run leaves at `W12`, and `W12` at an argument
    is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c)⟩) (run_all m ρ)

end Cert.Kernel.Hand

end
-- ==== Proof.KI.Gc0Runs.lean ====
/-
  Region 0 (the first graph-convolution call): what its three control cases share.
  The body branches twice on the grid point (i, j) of the 8 x 8 grid: it clears both accumulators at the
  first point (i = 0 and j = 0) and applies the leaky rectifier to both at the last point (i = 7 and j = 7).
  Both conditions are decided here over the 64 points, in closed form.
-/
import proofs.«154085_j15066745274644_1_alg».proof.Proof.Gen.KernelIdeal.Launch
import proofs.«154085_j15066745274644_1_alg».proof.Proof.Gen.KernelIdeal.Skeleton
import proofs.«154085_j15066745274644_1_alg».proof.Proof.Gen.KernelIdeal.Points
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the point is (0, 0). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It is taken at the first point only. -/
theorem hcond0_0 : ∀ t : Fin cfg0.N, cond0_0 (grid0.coords t) ↔ t.val = 0 :=
  (by decide +kernel : ∀ t : Fin grid0.N, cond0_0 (grid0.coords t) ↔ t.val = 0)

/-- The body's second branch is taken: the point is (7, 7). -/
abbrev cond0_1 (i : grid0.Coords) : Prop :=
  (Scalar.cmpi .ne (Scalar.extui (Scalar.andi (Scalar.cmpi .eq (BitVec.ofNat 32 (i 0).val) 7#32) (Scalar.cmpi .eq (BitVec.ofNat 32 (i 1).val) 7#32))) 0#32) = 1#1
/-- It is taken at the last point only. -/
theorem hcond0_1 : ∀ t : Fin cfg0.N, cond0_1 (grid0.coords t) ↔ t.val = 63 :=
  (by decide +kernel : ∀ t : Fin grid0.N, cond0_1 (grid0.coords t) ↔ t.val = 63)

/-- Each window's current staging memref at point t, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.Gc0RunB.lean ====
/-
  Region 0, a middle point (neither the first nor the last): the body adds the tile's two products into one
  band of rows of each accumulator and leaves every other row of both accumulators as it found it.
-/
import proofs.«154085_j15066745274644_1_alg».proof.Proof.KI.Gc0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at a point
    where neither branch is taken, with the proof that the body runs to a continuation holding the three
    input buffers as they were and each accumulator at its old contents overwritten by those pieces. -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : ¬cond0_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc0__gc_kernel i arg2 harg2 arg3 harg3 arg4 harg4 arg5 harg5 arg6 harg6) K } := by
  refine ⟨(?_, ?_), fun E K => ?run⟩
  case run =>
    simp only [cc0__gc_kernel_eq_skeleton]; unfold cc0__gc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.KernelIdeal.Hand

end
-- ==== Proof.KI.Gc0RunA.lean ====
/-
  Region 0, the first point (0, 0): the body clears both accumulators, then adds the tile's two products
  into the first band of rows of each. Nothing of what the accumulators held before is kept.
-/
import proofs.«154085_j15066745274644_1_alg».proof.Proof.KI.Gc0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in each accumulator at the first point (the clearing store of the whole
    buffer, then the band), last store first, with the proof that the body runs from accumulators holding
    anything to a continuation holding the input buffers as they were and each accumulator with those pieces
    written. -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i)
    (x0 : Vec F S1024x1024 .f32) (x1 : Vec F S1024x128 .f32) (x2 : Vec F S1024x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__gc_kernel i arg2 harg2 arg3 harg3 arg4 harg4 arg5 harg5 arg6 harg6) K } := by
  refine ⟨(?_, ?_), fun E K => ?run⟩
  case run =>
    simp only [cc0__gc_kernel_eq_skeleton]; unfold cc0__gc_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Gc0RunC.lean ====
/-
  Region 0, the last point (7, 7): the body adds the tile's two products into the last band of rows of each
  accumulator and then replaces each accumulator, whole, by its leaky rectification.
-/
import proofs.«154085_j15066745274644_1_alg».proof.Proof.KI.Gc0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at the last
    point (only the second branch is taken), with the proof that the body runs to a continuation holding the three
    input buffers as they were and each accumulator at its old contents overwritten by those pieces. -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : cond0_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc0__gc_kernel i arg2 harg2 arg3 harg3 arg4 harg4 arg5 harg5 arg6 harg6) K } := by
  refine ⟨(?_, ?_), fun E K => ?run⟩
  case run =>
    simp only [cc0__gc_kernel_eq_skeleton]; unfold cc0__gc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.KernelIdeal.Hand

end
-- ==== Proof.KI.Gc0.lean ====
/-
  Region 0 (the first graph-convolution call) at the contents V its arrays hold when it is entered.
  Its two outputs are accumulators resident in their staging buffers through all 64 grid points: the first
  point clears them and adds its two products into one band of rows of each; every later point adds into a
  band of what the point before left; the last point then rectifies both. What the two buffers hold after
  each point is therefore defined by recursion on the point, and the body's triple at a point is the run of
  the case the point is in, started from what the recursion gives for the point before.
-/
import proofs.«154085_j15066745274644_1_alg».proof.Proof.KI.Gc0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a point that
    does not fetch it has the same block index as the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the two accumulators -/

abbrev VO0_3 : View sig .tc .vmem S8192x128 .f32 := (Memref.whole cc0_stg3_0 : Memref sig .tc .vmem S8192x128 .f32).view
abbrev VO0_4 : View sig .tc .vmem S8192x128 .f32 := (Memref.whole cc0_stg4_0 : Memref sig .tc .vmem S8192x128 .f32).view

/-- At the first point the clearing store covers each accumulator, so its pieces cover the buffer. -/
theorem cover0_A_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i) (x0 : Vec F S1024x1024 .f32) (x1 : Vec F S1024x128 .f32) (x2 : Vec F S1024x128 .f32) (y : S8192x128.Idx) :
    ∃ pc ∈ (kernelRun0_A c i arg2 harg2 arg3 harg3 arg4 harg4 arg5 harg5 arg6 harg6 hc0 hc1 x0 x1 x2).1.1, y ∈ pc.1.set :=
  View.cover_of_tiledL (kernelRun0_A c i arg2 harg2 arg3 harg3 arg4 harg4 arg5 harg5 arg6 harg6 hc0 hc1 x0 x1 x2).1.1 S8192x128.size (by sl_kernel_rfl) y
theorem cover0_A_4 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i) (x0 : Vec F S1024x1024 .f32) (x1 : Vec F S1024x128 .f32) (x2 : Vec F S1024x128 .f32) (y : S8192x128.Idx) :
    ∃ pc ∈ (kernelRun0_A c i arg2 harg2 arg3 harg3 arg4 harg4 arg5 harg5 arg6 harg6 hc0 hc1 x0 x1 x2).1.2, y ∈ pc.1.set :=
  View.cover_of_tiledL (kernelRun0_A c i arg2 harg2 arg3 harg3 arg4 harg4 arg5 harg5 arg6 harg6 hc0 hc1 x0 x1 x2).1.2 S8192x128.size (by sl_kernel_rfl) y

/-- The first point: the pieces read back (over anything: they cover). -/
def out0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond0_0 i) (hc1 : ¬cond0_1 i) (x0 : Vec F S1024x1024 .f32) (x1 : Vec F S1024x128 .f32) (x2 : Vec F S1024x128 .f32) :
    Vec F S8192x128 .f32 × Vec F S8192x128 .f32 :=
  (VO0_3.read (Elt F) (VO0_3.writes (Elt F) VO0_3.junk (kernelRun0_A c i arg2 harg2 arg3 harg3 arg4 harg4 arg5 harg5 arg6 harg6 hc0 hc1 x0 x1 x2).1.1),
   VO0_4.read (Elt F) (VO0_4.writes (Elt F) VO0_4.junk (kernelRun0_A c i arg2 harg2 arg3 harg3 arg4 harg4 arg5 harg5 arg6 harg6 hc0 hc1 x0 x1 x2).1.2))

/-- A middle point: the pieces written over what the accumulators held. -/
def out0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : ¬cond0_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun0_B c i arg2 harg2 arg3 harg3 arg4 harg4 arg5 harg5 arg6 harg6 hc0 hc1 x0 x1 x2 xo3 xo4).1.1),
   arg6.view.read (Elt F) (arg6.view.writes (Elt F) (harg6.unread xo4) (kernelRun0_B c i arg2 harg2 arg3 harg3 arg4 harg4 arg5 harg5 arg6 harg6 hc0 hc1 x0 x1 x2 xo3 xo4).1.2))

/-- The last point: the pieces written over what the accumulators held. -/
def out0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond0_0 i) (hc1 : cond0_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun0_C c i arg2 harg2 arg3 harg3 arg4 harg4 arg5 harg5 arg6 harg6 hc0 hc1 x0 x1 x2 xo3 xo4).1.1),
   arg6.view.read (Elt F) (arg6.view.writes (Elt F) (harg6.unread xo4) (kernelRun0_C c i arg2 harg2 arg3 harg3 arg4 harg4 arg5 harg5 arg6 harg6 hc0 hc1 x0 x1 x2 xo3 xo4).1.2))

/-! ## The accumulation -/

/-- What the two accumulators hold after the body at position n: the case the closed forms select at n, run at
    the point's buffers and input blocks, from what this gives at n - 1 (the buffers are not written back in
    between: only the last point writes them back). -/
def outsAt0 (c : Dev nD) : (n : ℕ) → n < cfg0.N → Vec F S8192x128 .f32 × Vec F S8192x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr rfl)
      (fun h => absurd (show (0 : ℕ) = 63 from (hcond0_1 ⟨0, hn⟩).mp h) (by decide)) (iblk0 V c 0 ⟨0, hn⟩) (iblk0 V c 1 ⟨0, hn⟩) (iblk0 V c 2 ⟨0, hn⟩)
  | n + 1, hn =>
    if h1 : n + 1 = 63 then
      out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0_0 ⟨n + 1, hn⟩).mp h))
        ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0_0 ⟨n + 1, hn⟩).mp h))
        (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) ((hcond0_0 t).mpr h0)
      (fun h => absurd (show (63 : ℕ) = 0 from ((hcond0_1 t).mp h).symm.trans h0) (by decide)) (iblk0 V c 0 t) (iblk0 V c 1 t) (iblk0 V c 2 t) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 63) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (fun h => h1 ((hcond0_1 t).mp h)) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2 := by
  obtain ⟨n, hn⟩ := t
  cases n with
  | zero => exact absurd rfl h0
  | succ n => exact (dif_neg h1).trans rfl

theorem outsAt0_C (c : Dev nD) (t : Fin cfg0.N) (h0 : t.val ≠ 0) (h1 : t.val = 63) :
    outsAt0 V c t.val t.isLt = out0_C c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      ((hcond0_1 t).mpr h1) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2 := by
  obtain ⟨n, hn⟩ := t
  cases n with
  | zero => exact absurd rfl h0
  | succ n => exact (dif_pos h1).trans rfl

/-! ## The proof data -/

/-- The proof data of region 0 on core c: the arrays as the region finds them; after the body at point t each
    input's buffer at its block and the two accumulators at the accumulation; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- After the first point an accumulator's buffer holds what the body left at the point before: it is written
    back at the last point only, the window is never idle and never clipped. -/
theorem before0_3_pos (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before0_4_pos (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; the closed forms say which case the point is
    in; after the first point the accumulators hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 64 := lt_of_lt_of_eq t.isLt (show cfg0.N = 64 from N_0)
  by_cases h0 : t.val = 0
  · rw [outsAt0_A V c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => absurd (show (63 : ℕ) = 0 from ((hcond0_1 t).mp h).symm.trans h0) (by decide)) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      show _ = View.read (Elt F) VO0_3 (VO0_3.writes (Elt F) VO0_3.junk _)
      exact View.read_writes_of_cover _ _ _ _ _ (cover0_A_3 (F := F) c _ _ _ _ _ _ _ _ _ _ _ _ _ _ _ _)
    unfold owns; iexists _; isplitr
    swap; · iexact H4
    ipureintro
    show _ = View.read (Elt F) VO0_4 (VO0_4.writes (Elt F) VO0_4.junk _)
    exact View.read_writes_of_cover _ _ _ _ _ (cover0_A_4 (F := F) c _ _ _ _ _ _ _ _ _ _ _ _ _ _ _ _)
  · simp only [before0_3_pos V c t h0, before0_4_pos V c t h0]
    by_cases h1 : t.val = 63
    · rw [outsAt0_C V c t h0 h1]
      unfold out0_C
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl
    · rw [outsAt0_B V c t h0 h1]
      unfold out0_B
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Cos1.lean ====
import proofs.«154085_j15066745274644_1_alg».proof.Proof.Gen.KernelIdeal.Launch
import proofs.«154085_j15066745274644_1_alg».proof.Proof.Gen.KernelIdeal.Skeleton
import proofs.«154085_j15066745274644_1_alg».proof.Proof.Gen.KernelIdeal.Points
import Idealize.ShloMosaic.Lib.Pipeline.FrameBody
import Idealize.ShloMosaic.Lib.Ring
import Idealize.ShloMosaic.Lib.Tactic

/-! # The cosine-similarity region 1: what one grid point leaves, and the body obligation

The pipeline of custom_call 1 walks an 8 x 8 grid. At point (i, j) its body reads four staged blocks — rows
`1024 i ..` of the two 8192 x 128 feature arrays' (window 0 at i, window 1 at j), the 1024 x 1 block of the
row norms at i, the 1 x 1024 block of the column norms at j — and stores ONE 1024 x 1024 block: the contraction
of the two feature blocks over the 128 features, divided entrywise by the larger of the product of the two
norms and a small positive constant. Nothing is carried from one point to the next, so everything below is
stated at an arbitrary content `V` of the TensorCore's buffers when the region is entered. -/

-- membership in a rectangle of 1024 x 1024 extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` has it) that the index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has `V`'s array and a body that leaves the staged block as it was, the
    current staging buffer holds the block of the point at EVERY point — where the pipeline fetches it, by the
    fetch; where it does not (the block index did not move since the last fetch), because nothing wrote it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: whatever proof data has `V`'s array and a body that leaves the staged block as it was, the
    current staging buffer holds the block of the point at EVERY point — where the pipeline fetches it, by the
    fetch; where it does not (the block index did not move since the last fetch), because nothing wrote it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: whatever proof data has `V`'s array and a body that leaves the staged block as it was, the
    current staging buffer holds the block of the point at EVERY point — where the pipeline fetches it, by the
    fetch; where it does not (the block index did not move since the last fetch), because nothing wrote it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: whatever proof data has `V`'s array and a body that leaves the staged block as it was, the
    current staging buffer holds the block of the point at EVERY point — where the pipeline fetches it, by the
    fetch; where it does not (the block index did not move since the last fetch), because nothing wrote it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is the whole staging buffer -/

abbrev r1_0 : Rect S1024x128 := Rect.unit (s := S1024x128) ![0, 0] S1024x128.size inb_S1024x128_S1024x128_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-! ## What the body leaves in the output window's buffer -/

/-- Window 4's staging buffer after the body, as a function of the four input blocks: its single store, of the
    quotient `k1_pay1` of the four loaded values, over the whole buffer. -/
def out1_4 (x0 : Vec F S1024x128 .f32) (x1 : Vec F S1024x128 .f32) (x2 : Vec F S1024x1 .f32) (x3 : Vec F S1x1024 .f32) : Vec F S1024x1024 .f32 :=
  View.canon [⟨r1_3, k1_pay1 (View.ld x0 r1_0) (View.ld x1 r1_0) (View.ld x2 r1_1) (View.ld x3 r1_2)⟩]

/-- The one store is over the whole buffer, so every position is written. -/
theorem cover1_4 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 1000000 in
/-- The kernel body on whole staging memrefs — the four inputs' holding `x0 .. x3`, the output's holding anything
    (the body loads it once before overwriting it, and the loaded value is never used) — runs to the continuation
    with the inputs' as they were and the output's at `out1_4 x0 x1 x2 x3`. -/
theorem sound_kernel1 (c : Dev nD) (E : Set ℕ) (i : grid1.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x128 .f32) (x1 : Vec F S1024x128 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__cos_kernel i arg2 harg2 arg3 harg3 arg4 harg4 arg5 harg5 arg6 harg6) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them; after the body at point `t`
    each input's buffer at its block and the output's at `out1_4` of the four input blocks; the invariant is
    "the scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Gc2Runs.lean ====
/-
  Region 2 (the second graph-convolution call): what its three control cases share.
  The body branches twice on the grid point (i, j) of the 8 x 8 grid: it clears both accumulators at the
  first point (i = 0 and j = 0) and applies the leaky rectifier to both at the last point (i = 7 and j = 7).
  Both conditions are decided here over the 64 points, in closed form.
-/
import proofs.«154085_j15066745274644_1_alg».proof.Proof.Gen.KernelIdeal.Launch
import proofs.«154085_j15066745274644_1_alg».proof.Proof.Gen.KernelIdeal.Skeleton
import proofs.«154085_j15066745274644_1_alg».proof.Proof.Gen.KernelIdeal.Points
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the point is (0, 0). -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It is taken at the first point only. -/
theorem hcond2_0 : ∀ t : Fin cfg2.N, cond2_0 (grid2.coords t) ↔ t.val = 0 :=
  (by decide +kernel : ∀ t : Fin grid2.N, cond2_0 (grid2.coords t) ↔ t.val = 0)

/-- The body's second branch is taken: the point is (7, 7). -/
abbrev cond2_1 (i : grid2.Coords) : Prop :=
  (Scalar.cmpi .ne (Scalar.extui (Scalar.andi (Scalar.cmpi .eq (BitVec.ofNat 32 (i 0).val) 7#32) (Scalar.cmpi .eq (BitVec.ofNat 32 (i 1).val) 7#32))) 0#32) = 1#1
/-- It is taken at the last point only. -/
theorem hcond2_1 : ∀ t : Fin cfg2.N, cond2_1 (grid2.coords t) ↔ t.val = 63 :=
  (by decide +kernel : ∀ t : Fin grid2.N, cond2_1 (grid2.coords t) ↔ t.val = 63)

/-- Each window's current staging memref at point t, as the pipeline passes it, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8192x128 .f32 := win2_4.stage (cfg2.slots t 4)
abbrev hs2_4 (t : Fin cfg2.N) : (ms2_4 t).IsWhole := hstage2_4 ((cfg2.slots t 4).cast nbuf2_4)

end Cert.KernelIdeal.Hand

end
-- ==== Proof.KI.Gc2RunB.lean ====
/-
  Region 2, a middle point (neither the first nor the last): the body adds the tile's two products into one
  band of rows of each accumulator and leaves every other row of both accumulators as it found it.
-/
import proofs.«154085_j15066745274644_1_alg».proof.Proof.KI.Gc2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at a point
    where neither branch is taken, with the proof that the body runs to a continuation holding the three
    input buffers as they were and each accumulator at its old contents overwritten by those pieces. -/
noncomputable def kernelRun2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : ¬cond2_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc2__gc_kernel i arg2 harg2 arg3 harg3 arg4 harg4 arg5 harg5 arg6 harg6) K } := by
  refine ⟨(?_, ?_), fun E K => ?run⟩
  case run =>
    simp only [cc2__gc_kernel_eq_skeleton]; unfold cc2__gc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.KernelIdeal.Hand

end
-- ==== Proof.KI.Gc2RunA.lean ====
/-
  Region 2, the first point (0, 0): the body clears both accumulators, then adds the tile's two products
  into the first band of rows of each. Nothing of what the accumulators held before is kept.
-/
import proofs.«154085_j15066745274644_1_alg».proof.Proof.KI.Gc2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in each accumulator at the first point (the clearing store of the whole
    buffer, then the band), last store first, with the proof that the body runs from accumulators holding
    anything to a continuation holding the input buffers as they were and each accumulator with those pieces
    written. -/
noncomputable def kernelRun2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i)
    (x0 : Vec F S1024x1024 .f32) (x1 : Vec F S1024x128 .f32) (x2 : Vec F S1024x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc2__gc_kernel i arg2 harg2 arg3 harg3 arg4 harg4 arg5 harg5 arg6 harg6) K } := by
  refine ⟨(?_, ?_), fun E K => ?run⟩
  case run =>
    simp only [cc2__gc_kernel_eq_skeleton]; unfold cc2__gc_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.Gc2RunC.lean ====
/-
  Region 2, the last point (7, 7): the body adds the tile's two products into the last band of rows of each
  accumulator and then replaces each accumulator, whole, by its leaky rectification.
-/
import proofs.«154085_j15066745274644_1_alg».proof.Proof.KI.Gc2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave over what each accumulator held (xo3, xo4), last store first, at the last
    point (only the second branch is taken), with the proof that the body runs to a continuation holding the three
    input buffers as they were and each accumulator at its old contents overwritten by those pieces. -/
noncomputable def kernelRun2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : cond2_1 i)
    (x0 : Vec F S1024x1024 .f32) (x1 : Vec F S1024x128 .f32) (x2 : Vec F S1024x128 .f32) (xo3 : Vec F S8192x128 .f32) (xo4 : Vec F S8192x128 .f32) :
    { L : List (View.Piece (Elt F) S8192x128 .f32) × List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L.1)
                ∗ (arg6.view.loc (c : Thread nD τ) ↦[arg6.view.set]{fullShare} arg6.view.writes (Elt F) (harg6.unread xo4) L.2)) -∗ K ⟨⟩))
          ⊢ wp frame (wpE (defs₀ (F := F)) Variants.none c none) E (cc2__gc_kernel i arg2 harg2 arg3 harg3 arg4 harg4 arg5 harg5 arg6 harg6) K } := by
  refine ⟨(?_, ?_), fun E K => ?run⟩
  case run =>
    simp only [cc2__gc_kernel_eq_skeleton]; unfold cc2__gc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact H4

end Cert.KernelIdeal.Hand

end
-- ==== Proof.KI.Gc2.lean ====
/-
  Region 2 (the second graph-convolution call) at the contents V its arrays hold when it is entered.
  Its two outputs are accumulators resident in their staging buffers through all 64 grid points: the first
  point clears them and adds its two products into one band of rows of each; every later point adds into a
  band of what the point before left; the last point then rectifies both. What the two buffers hold after
  each point is therefore defined by recursion on the point, and the body's triple at a point is the run of
  the case the point is in, started from what the recursion gives for the point before.
-/
import proofs.«154085_j15066745274644_1_alg».proof.Proof.KI.Gc2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a point that
    does not fetch it has the same block index as the point before). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the two accumulators -/

abbrev VO2_3 : View sig .tc .vmem S8192x128 .f32 := (Memref.whole cc2_stg3_0 : Memref sig .tc .vmem S8192x128 .f32).view
abbrev VO2_4 : View sig .tc .vmem S8192x128 .f32 := (Memref.whole cc2_stg4_0 : Memref sig .tc .vmem S8192x128 .f32).view

/-- At the first point the clearing store covers each accumulator, so its pieces cover the buffer. -/
theorem cover2_A_3 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i) (x0 : Vec F S1024x1024 .f32) (x1 : Vec F S1024x128 .f32) (x2 : Vec F S1024x128 .f32) (y : S8192x128.Idx) :
    ∃ pc ∈ (kernelRun2_A c i arg2 harg2 arg3 harg3 arg4 harg4 arg5 harg5 arg6 harg6 hc0 hc1 x0 x1 x2).1.1, y ∈ pc.1.set :=
  View.cover_of_tiledL (kernelRun2_A c i arg2 harg2 arg3 harg3 arg4 harg4 arg5 harg5 arg6 harg6 hc0 hc1 x0 x1 x2).1.1 S8192x128.size (by sl_kernel_rfl) y
theorem cover2_A_4 (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i) (x0 : Vec F S1024x1024 .f32) (x1 : Vec F S1024x128 .f32) (x2 : Vec F S1024x128 .f32) (y : S8192x128.Idx) :
    ∃ pc ∈ (kernelRun2_A c i arg2 harg2 arg3 harg3 arg4 harg4 arg5 harg5 arg6 harg6 hc0 hc1 x0 x1 x2).1.2, y ∈ pc.1.set :=
  View.cover_of_tiledL (kernelRun2_A c i arg2 harg2 arg3 harg3 arg4 harg4 arg5 harg5 arg6 harg6 hc0 hc1 x0 x1 x2).1.2 S8192x128.size (by sl_kernel_rfl) y

/-- The first point: the pieces read back (over anything: they cover). -/
def out2_A (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : cond2_0 i) (hc1 : ¬cond2_1 i) (x0 : Vec F S1024x1024 .f32) (x1 : Vec F S1024x128 .f32) (x2 : Vec F S1024x128 .f32) :
    Vec F S8192x128 .f32 × Vec F S8192x128 .f32 :=
  (VO2_3.read (Elt F) (VO2_3.writes (Elt F) VO2_3.junk (kernelRun2_A c i arg2 harg2 arg3 harg3 arg4 harg4 arg5 harg5 arg6 harg6 hc0 hc1 x0 x1 x2).1.1),
   VO2_4.read (Elt F) (VO2_4.writes (Elt F) VO2_4.junk (kernelRun2_A c i arg2 harg2 arg3 harg3 arg4 harg4 arg5 harg5 arg6 harg6 hc0 hc1 x0 x1 x2).1.2))

/-- A middle point: the pieces written over what the accumulators held. -/
def out2_B (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : ¬cond2_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun2_B c i arg2 harg2 arg3 harg3 arg4 harg4 arg5 harg5 arg6 harg6 hc0 hc1 x0 x1 x2 xo3 xo4).1.1),
   arg6.view.read (Elt F) (arg6.view.writes (Elt F) (harg6.unread xo4) (kernelRun2_B c i arg2 harg2 arg3 harg3 arg4 harg4 arg5 harg5 arg6 harg6 hc0 hc1 x0 x1 x2 xo3 xo4).1.2))

/-- The last point: the pieces written over what the accumulators held. -/
def out2_C (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole) (hc0 : ¬cond2_0 i) (hc1 : cond2_1 i) (x0 : Vec F S1024x1024 .f32) (x1 : Vec F S1024x128 .f32) (x2 : Vec F S1024x128 .f32) (xo3 : Vec F S8192x128 .f32) (xo4 : Vec F S8192x128 .f32) :
    Vec F S8192x128 .f32 × Vec F S8192x128 .f32 :=
  (arg5.view.read (Elt F) (arg5.view.writes (Elt F) (harg5.unread xo3) (kernelRun2_C c i arg2 harg2 arg3 harg3 arg4 harg4 arg5 harg5 arg6 harg6 hc0 hc1 x0 x1 x2 xo3 xo4).1.1),
   arg6.view.read (Elt F) (arg6.view.writes (Elt F) (harg6.unread xo4) (kernelRun2_C c i arg2 harg2 arg3 harg3 arg4 harg4 arg5 harg5 arg6 harg6 hc0 hc1 x0 x1 x2 xo3 xo4).1.2))

/-! ## The accumulation -/

/-- What the two accumulators hold after the body at position n: the case the closed forms select at n, run at
    the point's buffers and input blocks, from what this gives at n - 1 (the buffers are not written back in
    between: only the last point writes them back). -/
def outsAt2 (c : Dev nD) : (n : ℕ) → n < cfg2.N → Vec F S8192x128 .f32 × Vec F S8192x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr rfl)
      (fun h => absurd (show (0 : ℕ) = 63 from (hcond2_1 ⟨0, hn⟩).mp h) (by decide)) (iblk2 V c 0 ⟨0, hn⟩) (iblk2 V c 1 ⟨0, hn⟩) (iblk2 V c 2 ⟨0, hn⟩)
  | n + 1, hn =>
    if h1 : n + 1 = 63 then
      out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2_0 ⟨n + 1, hn⟩).mp h))
        ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).1 (outsAt2 c n (Nat.lt_of_succ_lt hn)).2
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2_0 ⟨n + 1, hn⟩).mp h))
        (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).1 (outsAt2 c n (Nat.lt_of_succ_lt hn)).2

theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) ((hcond2_0 t).mpr h0)
      (fun h => absurd (show (63 : ℕ) = 0 from ((hcond2_1 t).mp h).symm.trans h0) (by decide)) (iblk2 V c 0 t) (iblk2 V c 1 t) (iblk2 V c 2 t) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 63) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (fun h => h0 ((hcond2_0 t).mp h))
      (fun h => h1 ((hcond2_1 t).mp h)) (iblk2 V c 0 t) (iblk2 V c 1 t) (iblk2 V c 2 t)
      (outsAt2 V c (t.val - 1) (Nat.lt_of_le_of_lt (Nat.sub_le _ _) t.isLt)).1 (outsAt2 V c (t.val - 1) (Nat.lt_of_le_of_lt (Nat.sub_le _ _) t.isLt)).2 := by
  obtain ⟨n, hn⟩ := t
  cases n with
  | zero => exact absurd rfl h0
  | succ n => exact (dif_neg h1).trans rfl

theorem outsAt2_C (c : Dev nD) (t : Fin cfg2.N) (h0 : t.val ≠ 0) (h1 : t.val = 63) :
    outsAt2 V c t.val t.isLt = out2_C c (grid2.coords t) (ms2_0 t) (hs2_0 t) (ms2_1 t) (hs2_1 t) (ms2_2 t) (hs2_2 t) (ms2_3 t) (hs2_3 t) (ms2_4 t) (hs2_4 t) (fun h => h0 ((hcond2_0 t).mp h))
      ((hcond2_1 t).mpr h1) (iblk2 V c 0 t) (iblk2 V c 1 t) (iblk2 V c 2 t)
      (outsAt2 V c (t.val - 1) (Nat.lt_of_le_of_lt (Nat.sub_le _ _) t.isLt)).1 (outsAt2 V c (t.val - 1) (Nat.lt_of_le_of_lt (Nat.sub_le _ _) t.isLt)).2 := by
  obtain ⟨n, hn⟩ := t
  cases n with
  | zero => exact absurd rfl h0
  | succ n => exact (dif_pos h1).trans rfl

/-! ## The proof data -/

/-- The proof data of region 2 on core c: the arrays as the region finds them; after the body at point t each
    input's buffer at its block and the two accumulators at the accumulation; the class invariant (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- After the first point an accumulator's buffer holds what the body left at the point before: it is written
    back at the last point only, the window is never idle and never clipped. -/
theorem before2_3_pos (c : Dev nD) (t : Fin cfg2.N) (h0 : t.val ≠ 0) (d) :
    (dat2 V c).before 3 t d = (outsAt2 V c (t.val - 1) (Nat.lt_of_le_of_lt (Nat.sub_le _ _) t.isLt)).1 := by
  have hN : t.val < 64 := lt_of_lt_of_eq t.isLt (show cfg2.N = 64 from N_2)
  rw [Dat.before_out_kept _ 3 rfl t h0 (Bool.eq_false_iff.mpr fun h => by have := (flush2_3 _).mp h; dsimp only at this; omega)
    (fun _ => rfl) (fun _ _ => rfl)]
  dsimp only [dat2]
theorem before2_4_pos (c : Dev nD) (t : Fin cfg2.N) (h0 : t.val ≠ 0) (d) :
    (dat2 V c).before 4 t d = (outsAt2 V c (t.val - 1) (Nat.lt_of_le_of_lt (Nat.sub_le _ _) t.isLt)).2 := by
  have hN : t.val < 64 := lt_of_lt_of_eq t.isLt (show cfg2.N = 64 from N_2)
  rw [Dat.before_out_kept _ 4 rfl t h0 (Bool.eq_false_iff.mpr fun h => by have := (flush2_4 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
/-- The body at any point: the inputs' buffers hold their blocks; the closed forms say which case the point is
    in; after the first point the accumulators hold what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 64 := lt_of_lt_of_eq t.isLt (show cfg2.N = 64 from N_2)
  by_cases h0 : t.val = 0
  · rw [outsAt2_A V c t h0]
    unfold out2_A
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (fun h => absurd (show (63 : ℕ) = 0 from ((hcond2_1 t).mp h).symm.trans h0) (by decide)) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      show _ = View.read (Elt F) VO2_3 (VO2_3.writes (Elt F) VO2_3.junk _)
      exact View.read_writes_of_cover _ _ _ _ _ (cover2_A_3 (F := F) c _ _ _ _ _ _ _ _ _ _ _ _ _ _ _ _)
    unfold owns; iexists _; isplitr
    swap; · iexact H4
    ipureintro
    show _ = View.read (Elt F) VO2_4 (VO2_4.writes (Elt F) VO2_4.junk _)
    exact View.read_writes_of_cover _ _ _ _ _ (cover2_A_4 (F := F) c _ _ _ _ _ _ _ _ _ _ _ _ _ _ _ _)
  · simp only [before2_3_pos V c t h0, before2_4_pos V c t h0]
    by_cases h1 : t.val = 63
    · rw [outsAt2_C V c t h0 h1]
      unfold out2_C
      iintro ⟨HΦ, Ho, ⟨%d0, H0⟩, ⟨%d1, H1⟩, ⟨%d2, H2⟩, ⟨%d3, H3⟩, ⟨%d4, H4⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl
    · rw [outsAt2_B V c t h0 h1]
      unfold out2_B
      iintro ⟨HΦ, Ho, ⟨%d0, H0⟩, ⟨%d1, H1⟩, ⟨%d2, H2⟩, ⟨%d3, H3⟩, ⟨%d4, H4⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _ _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; rfl
      unfold owns; iexists _; isplitr
      swap; · iexact H4
      ipureintro; rfl

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Cos3.lean ====
import proofs.«154085_j15066745274644_1_alg».proof.Proof.Gen.KernelIdeal.Launch
import proofs.«154085_j15066745274644_1_alg».proof.Proof.Gen.KernelIdeal.Skeleton
import proofs.«154085_j15066745274644_1_alg».proof.Proof.Gen.KernelIdeal.Points
import Idealize.ShloMosaic.Lib.Pipeline.FrameBody
import Idealize.ShloMosaic.Lib.Ring
import Idealize.ShloMosaic.Lib.Tactic

/-! # The cosine-similarity region 3: what one grid point leaves, and the body obligation

The pipeline of custom_call 3 walks an 8 x 8 grid. At point (i, j) its body reads four staged blocks — rows
`1024 i ..` of the two 8192 x 128 feature arrays' (window 0 at i, window 1 at j), the 1024 x 1 block of the
row norms at i, the 1 x 1024 block of the column norms at j — and stores ONE 1024 x 1024 block: the contraction
of the two feature blocks over the 128 features, divided entrywise by the larger of the product of the two
norms and a small positive constant. Nothing is carried from one point to the next, so everything below is
stated at an arbitrary content `V` of the TensorCore's buffers when the region is entered. -/

-- membership in a rectangle of 1024 x 1024 extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` has it) that the index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has `V`'s array and a body that leaves the staged block as it was, the
    current staging buffer holds the block of the point at EVERY point — where the pipeline fetches it, by the
    fetch; where it does not (the block index did not move since the last fetch), because nothing wrote it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever proof data has `V`'s array and a body that leaves the staged block as it was, the
    current staging buffer holds the block of the point at EVERY point — where the pipeline fetches it, by the
    fetch; where it does not (the block index did not move since the last fetch), because nothing wrote it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever proof data has `V`'s array and a body that leaves the staged block as it was, the
    current staging buffer holds the block of the point at EVERY point — where the pipeline fetches it, by the
    fetch; where it does not (the block index did not move since the last fetch), because nothing wrote it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3: whatever proof data has `V`'s array and a body that leaves the staged block as it was, the
    current staging buffer holds the block of the point at EVERY point — where the pipeline fetches it, by the
    fetch; where it does not (the block index did not move since the last fetch), because nothing wrote it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one is the whole staging buffer -/

abbrev r3_0 : Rect S1024x128 := Rect.unit (s := S1024x128) ![0, 0] S1024x128.size inb_S1024x128_S1024x128_0_0
abbrev r3_1 : Rect S1024x1 := Rect.unit (s := S1024x1) ![0, 0] S1024x1.size inb_S1024x1_S1024x1_0_0
abbrev r3_2 : Rect S1x1024 := Rect.unit (s := S1x1024) ![0, 0] S1x1024.size inb_S1x1024_S1x1024_0_0
abbrev r3_3 : Rect S1024x1024 := Rect.unit (s := S1024x1024) ![0, 0] S1024x1024.size inb_S1024x1024_S1024x1024_0_0

/-! ## What the body leaves in the output window's buffer -/

/-- Window 4's staging buffer after the body, as a function of the four input blocks: its single store, of the
    quotient `k3_pay1` of the four loaded values, over the whole buffer. -/
def out3_4 (x0 : Vec F S1024x128 .f32) (x1 : Vec F S1024x128 .f32) (x2 : Vec F S1024x1 .f32) (x3 : Vec F S1x1024 .f32) : Vec F S1024x1024 .f32 :=
  View.canon [⟨r3_3, k3_pay1 (View.ld x0 r3_0) (View.ld x1 r3_0) (View.ld x2 r3_1) (View.ld x3 r3_2)⟩]

/-- The one store is over the whole buffer, so every position is written. -/
theorem cover3_4 (p0 : Vec F S1024x1024 .f32) (y : S1024x1024.Idx) :
    ∃ pc ∈ ([⟨r3_3, p0⟩] : List (View.Piece (Elt F) S1024x1024 .f32)), y ∈ pc.1.set :=
  View.cover_of_tiled [⟨r3_3, p0⟩] S1024x1024.size (by rfl) y

/-! ## The body's triple -/

set_option maxHeartbeats 1000000 in
/-- The kernel body on whole staging memrefs — the four inputs' holding `x0 .. x3`, the output's holding anything
    (the body loads it once before overwriting it, and the loaded value is never used) — runs to the continuation
    with the inputs' as they were and the output's at `out3_4 x0 x1 x2 x3`. -/
theorem sound_kernel3 (c : Dev nD) (E : Set ℕ) (i : grid3.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x128 .f32) (x1 : Vec F S1024x128 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3__cos_kernel i arg2 harg2 arg3 harg3 arg4 harg4 arg5 harg5 arg6 harg6) K := by
  simp only [cc3__cos_kernel_eq_skeleton]; unfold cc3__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them; after the body at point `t`
    each input's buffer at its block and the output's at `out3_4` of the four input blocks; the invariant is
    "the scoped rest and the generator register, untouched"; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«154085_j15066745274644_1_alg».proof.Proof.Gen.KernelIdeal.Launch
import proofs.«154085_j15066745274644_1_alg».proof.Proof.Gen.KernelIdeal.Regions
import proofs.«154085_j15066745274644_1_alg».proof.Proof.KI.Gc0
import proofs.«154085_j15066745274644_1_alg».proof.Proof.KI.Cos1
import proofs.«154085_j15066745274644_1_alg».proof.Proof.KI.Gc2
import proofs.«154085_j15066745274644_1_alg».proof.Proof.KI.Cos3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: twelve segments from the launch to the return

@main alternates stretches of host operations with four kernel regions (two graph convolutions, two cosine
similarities). This file follows the TensorCore's buffer contents through the twelve segments: a host stretch
rewrites the buffers its operations write and leaves the others; a region leaves each of its windows' arrays at what
its write-backs fold to and every other buffer as it found it. From that fold it derives: every weakly fair
execution terminates with every unscoped buffer at the last contents of the fold, hence with the five argument
arrays as launched and the result array at what the last region's pipeline leaves.
-/

-- membership proofs over rectangles of these extents recurse once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary

`W0` is the launch memory read on core `c`. A host stretch takes `W` to `StableHlo.after ops W`. A region with
proof data `dat` takes `W` to `W` with each window's array replaced by `dat.arrAt w N`: an input window's array is
then what it was, an output window's array is its write-backs folded over the grid. `VJ` is `WJ` read at the
TensorCore's references, which is what a region's proof data is stated over. -/

/-- Core `c`'s buffers at launch. -/
abbrev W0 : Dev nD → Valuation τ sig (Elt F) := fun c b => (s₀ m ρ).mem ((c : Dev nD), b)

/-- After `hostOps0`: the two projections of the first layer (region 0's entry). -/
abbrev W1 : Dev nD → Valuation τ sig (Elt F) := fun c => StableHlo.after hostOps0 (W0 m ρ c)
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- `W1` read at the TensorCore's references (what region 0's proof data take). -/
abbrev V1 : (c : Dev nD) → (b : Ref sig .tc) → Buf (Elt F) ((c : Thread nD τ).loc b) := fun c b => W1 m ρ c b

/-- At region 0's exit: each window's array at what the pipeline leaves there (an input's as entered, an output's
    write-backs folded over the grid), every other buffer as entered. -/
def W2 (c : Dev nD) : Valuation τ sig (Elt F) :=
  Pipeline.withArrays spec0 c (W1 m ρ c) fun w => (dat0 (V1 m ρ) c).arrAt w cfg0.N
/-- Region 0's exit contents at a window's array. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Region 0's exit contents at a reference that is no window's array: the entry contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at an input window's array: the entry contents, since the pipeline only reads it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- `W2` read at the TensorCore's references (region 0's exit contents). -/
abbrev V2 : (c : Dev nD) → (b : Ref sig .tc) → Buf (Elt F) ((c : Thread nD τ).loc b) := fun c b => W2 m ρ c b
/-- The two facts that put region 0's arrays back among the unscoped buffers at its exit: each array holds what the
    pipeline leaves (`hF0`), every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: the row norms of the first layer's first output. -/
abbrev W3 : Dev nD → Valuation τ sig (Elt F) := fun c => StableHlo.after hostOps1 (W2 m ρ c)
/-- A reference `hostOps1` does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After `hostOps1_1`: the row norms of the first layer's second output. -/
abbrev W4 : Dev nD → Valuation τ sig (Elt F) := fun c => StableHlo.after hostOps1_1 (W3 m ρ c)
/-- A reference `hostOps1_1` does not write holds after it what it held before. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

/-- After `hostOps1_2`: those norms transposed to a row (region 1's entry). -/
abbrev W5 : Dev nD → Valuation τ sig (Elt F) := fun c => StableHlo.after hostOps1_2 (W4 m ρ c)
/-- A reference `hostOps1_2` does not write holds after it what it held before. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
/-- `W5` read at the TensorCore's references (what region 1's proof data take). -/
abbrev V5 : (c : Dev nD) → (b : Ref sig .tc) → Buf (Elt F) ((c : Thread nD τ).loc b) := fun c b => W5 m ρ c b

/-- At region 1's exit: each window's array at what the pipeline leaves there (an input's as entered, an output's
    write-backs folded over the grid), every other buffer as entered. -/
def W6 (c : Dev nD) : Valuation τ sig (Elt F) :=
  Pipeline.withArrays spec1 c (W5 m ρ c) fun w => (dat1 (V5 m ρ) c).arrAt w cfg1.N
/-- Region 1's exit contents at a window's array. -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- Region 1's exit contents at a reference that is no window's array: the entry contents. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Region 1's exit contents at an input window's array: the entry contents, since the pipeline only reads it. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- `W6` read at the TensorCore's references (region 1's exit contents). -/
abbrev V6 : (c : Dev nD) → (b : Ref sig .tc) → Buf (Elt F) ((c : Thread nD τ).loc b) := fun c b => W6 m ρ c b
/-- The two facts that put region 1's arrays back among the unscoped buffers at its exit: each array holds what the
    pipeline leaves (`hF1`), every other buffer what it held at entry (`hrest1`). -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`: the two projections of the second layer (region 2's entry). -/
abbrev W7 : Dev nD → Valuation τ sig (Elt F) := fun c => StableHlo.after hostOps2 (W6 m ρ c)
/-- A reference `hostOps2` does not write holds after it what it held before. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- `W7` read at the TensorCore's references (what region 2's proof data take). -/
abbrev V7 : (c : Dev nD) → (b : Ref sig .tc) → Buf (Elt F) ((c : Thread nD τ).loc b) := fun c b => W7 m ρ c b

/-- At region 2's exit: each window's array at what the pipeline leaves there (an input's as entered, an output's
    write-backs folded over the grid), every other buffer as entered. -/
def W8 (c : Dev nD) : Valuation τ sig (Elt F) :=
  Pipeline.withArrays spec2 c (W7 m ρ c) fun w => (dat2 (V7 m ρ) c).arrAt w cfg2.N
/-- Region 2's exit contents at a window's array. -/
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
/-- Region 2's exit contents at a reference that is no window's array: the entry contents. -/
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents at an input window's array: the entry contents, since the pipeline only reads it. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
/-- `W8` read at the TensorCore's references (region 2's exit contents). -/
abbrev V8 : (c : Dev nD) → (b : Ref sig .tc) → Buf (Elt F) ((c : Thread nD τ).loc b) := fun c b => W8 m ρ c b
/-- The two facts that put region 2's arrays back among the unscoped buffers at its exit: each array holds what the
    pipeline leaves (`hF2`), every other buffer what it held at entry (`hrest2`). -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3`: the row norms of the second layer's first output. -/
abbrev W9 : Dev nD → Valuation τ sig (Elt F) := fun c => StableHlo.after hostOps3 (W8 m ρ c)
/-- A reference `hostOps3` does not write holds after it what it held before. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-- After `hostOps3_1`: the row norms of the second layer's second output. -/
abbrev W10 : Dev nD → Valuation τ sig (Elt F) := fun c => StableHlo.after hostOps3_1 (W9 m ρ c)
/-- A reference `hostOps3_1` does not write holds after it what it held before. -/
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h

/-- After `hostOps3_2`: those norms transposed to a row (region 3's entry). -/
abbrev W11 : Dev nD → Valuation τ sig (Elt F) := fun c => StableHlo.after hostOps3_2 (W10 m ρ c)
/-- A reference `hostOps3_2` does not write holds after it what it held before. -/
theorem W11_of (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h
/-- `W11` read at the TensorCore's references (what region 3's proof data take). -/
abbrev V11 : (c : Dev nD) → (b : Ref sig .tc) → Buf (Elt F) ((c : Thread nD τ).loc b) := fun c b => W11 m ρ c b

/-- At region 3's exit: each window's array at what the pipeline leaves there (an input's as entered, an output's
    write-backs folded over the grid), every other buffer as entered. -/
def W12 (c : Dev nD) : Valuation τ sig (Elt F) :=
  Pipeline.withArrays spec3 c (W11 m ρ c) fun w => (dat3 (V11 m ρ) c).arrAt w cfg3.N
/-- Region 3's exit contents at a window's array. -/
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
/-- Region 3's exit contents at a reference that is no window's array: the entry contents. -/
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- Region 3's exit contents at an input window's array: the entry contents, since the pipeline only reads it. -/
theorem W12_in (c : Dev nD) (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (V11 m ρ) c).arrAt_in w hin _).trans (A_eq3 (V11 m ρ) c w))
/-- `W12` read at the TensorCore's references (region 3's exit contents). -/
abbrev V12 : (c : Dev nD) → (b : Ref sig .tc) → Buf (Elt F) ((c : Thread nD τ).loc b) := fun c b => W12 m ρ c b
/-- The two facts that put region 3's arrays back among the unscoped buffers at its exit: each array holds what the
    pipeline leaves (`hF3`), every other buffer what it held at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- The result array is window 4's array of region 3: at the end it holds that pipeline's write-backs folded over
    the grid. -/
theorem W12_result (c : Dev nD) : W12 m ρ c (Proc.devRef .tc main_v13) = (dat3 (V11 m ρ) c).arrAt 4 cfg3.N :=
  W12_arr m ρ c 4

/-! ## The arguments end as launched

No host operation writes an argument and no region has one as an output window's array, so the fold at an argument
walks back to the launch memory one boundary at a time. The adjacency argument is region 0's window 0, an input:
there the step reads the region's exit contents at an input window's array, which are its entry contents. -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. A literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment: from every unscoped buffer at `W`, with `R` beside, to every unscoped buffer at
    `StableHlo.after ops W`, which is the next boundary's contents by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the
    generator register at some state. -/
abbrev Tₙ (c : Dev nD) : sProp 𝕄 := iprop(StableHlo.held (c : Thread nD τ) (Pipeline.ucRefs τ sig) (W12 m ρ c) ∗ ∃ r, prngReg c r)

/-! ## The regions as segments

Each region is entered from every unscoped buffer at its entry contents. At entry its windows' arrays are split out of
the unscoped buffers and the generator register goes into the region's invariant; at exit the arrays come back at
the exit contents and the register comes out. Nothing is owed at any point, and the kernels have no semaphore of
their own. -/

-- a library lemma stated over the pinned configuration unifies with the printed one only when unification may unfold
-- plain definitions in a metavariable's type
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W11`, left at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ) ]
/-- @main is the run of the segments: it is the chain of its items, and the segments' run is the same chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final state holds every unscoped buffer at the last contents of
    the fold, `W12`: the thread states chain through the twelve segments, and the last one is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- THE FRAME. Every weakly fair execution of @main terminates, nothing faulting, and every final state has the five
    argument arrays as launched: each is an unscoped buffer, which the run leaves at `W12`, and `W12` at an argument
    is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c)⟩) (run_all m ρ)

end Cert.KernelIdeal.Hand

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.CosValue.lean ====
import proofs.«154085_j15066745274644_1_alg».proof.Proof.KI.Cos1
import proofs.«154085_j15066745274644_1_alg».proof.Proof.KI.Cos3
import proofs.«154085_j15066745274644_1_alg».proof.Proof.LibTransDot
import proofs.«154085_j15066745274644_1_alg».proof.Proof.Spec
import Idealize.ShloMosaic.Lib.Pipeline.Value
import Idealize.ShloMosaic.Lib.ValueIdx

/-! # The cosine-similarity regions over the extended reals: the whole output array, index by index

For feature arrays `p, q` of 8192 rows and 128 columns, a column `np` of 8192 row norms and a row `nq` of 8192
column norms, each of the two cosine regions leaves in its 8192 x 8192 output array, at row `r` and column `s`,

  (∑ k < 128, p (r, k) · q (s, k)) / max (np (r, 0) · nq (0, s)) ε,        ε the f32 constant 0x322BCC77 (about 1e-8)

(`Cert.Spec.cosArr`). The road: the stored value of one grid point at an index of its 1024 x 1024 block (rounding to bf16 is
the identity over the extended reals; the product against the transposed right operand into a zero accumulator is
the sum over the 128 features; the two broadcasts read the norm of the row and of the column); each staged block
as a rectangle of its array; so what point (i, j) writes back is block (i, j) of `cosArr`; the 64 blocks cover the
array (row `r`, column `s` lies in block (r / 1024, s / 1024)); hence the array after the region is `cosArr`. -/

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.TransDot
open Idealize.ShloMosaic.Pipeline (Dat)

/-! ## One grid point's stored value at an index -/

/-- The body's contraction keeps the rows of both operands and contracts their second axes: at output `(r, s)`
    and contraction index `k` the left operand is read at `(r, k)`, the right one at `(s, k)`. -/
theorem cosDot_trans : TransDot (M := 1024) (K := 128) (N := 1024) dot_S1024x128_S1024x128_S1024x1024_1_1_0_0_n_n where
  hr := rfl
  hs := rfl
  l0 := fun j q => rfl
  l1 := fun j q => DotDims.lhsIdx_val_of_single (d := dot_S1024x128_S1024x128_S1024x1024_1_1_0_0_n_n) (cl := 1) rfl j q
  r0 := fun j q => rfl
  r1 := fun j q => DotDims.rhsIdx_val_of_single (d := dot_S1024x128_S1024x128_S1024x1024_1_1_0_0_n_n) (cr := 1) rfl j q

/-- The value region 1's body stores, at row `p` and column `q` of the block: the 128-term inner product of row
    `p` of the first feature block with row `q` of the second, over the larger of the product of the two norms
    and ε. -/
theorem pay1_apply (x0 x1 : Vec Ideal S1024x128 .f32) (x2 : Vec Ideal S1024x1 .f32) (x3 : Vec Ideal S1x1024 .f32) (p q : Fin 1024) :
    k1_pay1 (F := Ideal) x0 x1 x2 x3 (ix2 p q)
      = Ideal.div (∑ k : Fin 128, x0 (ix2 p k) * x1 (ix2 q k)) (max (x2 (ix2 p 0) * x3 (ix2 0 q)) (Ideal.ofBits .f32 0x322BCC77#32)) := by
  unfold k1_pay1
  refine congrArg₂ Ideal.div ?_ (congrArg₂ max (congrArg₂ (· * ·) ?_ ?_) rfl)
  · -- the contraction into the zero accumulator; the roundings and the shape casts are identities
    refine (matmul_zero_trans_apply dot_S1024x128_S1024x128_S1024x1024_1_1_0_0_n_n cosDot_trans none _ _ p q).trans ?_
    refine Finset.sum_congr rfl fun k _ => ?_
    rw [shapeCast_self, shapeCast_self]
    rfl
  · -- the column of row norms broadcast along the columns reads row `p`
    refine (broadcastTo_apply _ _ (ix2 p q) (ix2 p 0) ?_).trans ?_
    · intro a
      match a with
      | ⟨0, _⟩ => rfl
      | ⟨1, _⟩ => rfl
    · rw [shapeCast_self]
  · -- the row of column norms broadcast along the rows reads column `q`
    refine (broadcastTo_apply _ _ (ix2 p q) (ix2 0 q) ?_).trans ?_
    · intro a
      match a with
      | ⟨0, _⟩ => rfl
      | ⟨1, _⟩ => rfl
    · rw [shapeCast_self]

/-- Region 3's body is the same function of its four blocks. -/
theorem pay3_apply (x0 x1 : Vec Ideal S1024x128 .f32) (x2 : Vec Ideal S1024x1 .f32) (x3 : Vec Ideal S1x1024 .f32) (p q : Fin 1024) :
    k3_pay1 (F := Ideal) x0 x1 x2 x3 (ix2 p q)
      = Ideal.div (∑ k : Fin 128, x0 (ix2 p k) * x1 (ix2 q k)) (max (x2 (ix2 p 0) * x3 (ix2 0 q)) (Ideal.ofBits .f32 0x322BCC77#32)) :=
  pay1_apply x0 x1 x2 x3 p q

theorem hz : (![0, 0] : Fin 2 → Nat) = fun _ => 0 := funext fun a => by fin_cases a <;> rfl

/-! ## The whole array -/

-- the cosine array of two feature arrays against a column and a row of norms is the shared specification's
open Cert.Spec (cosArr)

-- the TensorCore's buffer contents when the region is entered
variable (V : (c : Dev nD) → (b : Ref sig .tc) → Buf (Elt Ideal) ((c : Thread nD τ).loc b))

/-! ## Region 1 -/

/-- The index maps over the 64 points: the feature block of window 0 and the row norms of window 2 sit at the
    output's block row, the feature block of window 1 and the column norms of window 3 at the output's block
    column; every other block index is zero; the output's block indices stay below 8. -/
theorem idx_facts1 : ∀ t : Fin cfg1.N, win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = win1_4.index t (1 : Fin 2)
    ∧ win1_4.index t (0 : Fin 2) ≤ 7 ∧ win1_4.index t (1 : Fin 2) ≤ 7 :=
  (by decide +kernel : ∀ t : Fin grid1.N, _)

/-- Every one of the 8 x 8 output blocks is some point's. -/
theorem idx_onto1 : ∀ (q0 q1 : Fin 8), ∃ t : Fin cfg1.N, win1_4.index t = ![q0.val, q1.val] :=
  (by decide +kernel : ∀ (q0 q1 : Fin 8), ∃ t : Fin grid1.N, win1_4.index t = ![q0.val, q1.val])

/-- Window 0's block at point `t` (of the first feature array) read at `y` is the array at the index whose coordinate on each
    axis is the block index times the block's extent plus `y`'s. -/
theorem iblk1_0_apply (c : Dev nD) (t : Fin cfg1.N) (y : S1024x128.Idx) (i : S8192x128.Idx)
    (h0 : (i 0).val = win1_0.index t (0 : Fin 2) * 1024 + 1 * (y 0).val) (h1 : (i 1).val = win1_0.index t (1 : Fin 2) * 128 + 1 * (y 1).val) :
    (iblk1 V c 0 t : Vec Ideal S1024x128 .f32) y = (V c (Pipeline.arrRef spec1 0) : S8192x128.Idx → EReal) i := by
  show V c (Pipeline.arrRef spec1 0) (((cfg1.win 0).blk t).view.emb y) = V c (Pipeline.arrRef spec1 0) i
  refine congrArg _ (funext fun a => Fin.ext ?_)
  match a with
  | ⟨0, _⟩ => exact h0.symm
  | ⟨1, _⟩ => exact h1.symm

/-- Window 1's block at point `t` (of the second feature array) read at `y` is the array at the index whose coordinate on each
    axis is the block index times the block's extent plus `y`'s. -/
theorem iblk1_1_apply (c : Dev nD) (t : Fin cfg1.N) (y : S1024x128.Idx) (i : S8192x128.Idx)
    (h0 : (i 0).val = win1_1.index t (0 : Fin 2) * 1024 + 1 * (y 0).val) (h1 : (i 1).val = win1_1.index t (1 : Fin 2) * 128 + 1 * (y 1).val) :
    (iblk1 V c 1 t : Vec Ideal S1024x128 .f32) y = (V c (Pipeline.arrRef spec1 1) : S8192x128.Idx → EReal) i := by
  show V c (Pipeline.arrRef spec1 1) (((cfg1.win 1).blk t).view.emb y) = V c (Pipeline.arrRef spec1 1) i
  refine congrArg _ (funext fun a => Fin.ext ?_)
  match a with
  | ⟨0, _⟩ => exact h0.symm
  | ⟨1, _⟩ => exact h1.symm

/-- Window 2's block at point `t` (of the column of row norms) read at `y` is the array at the index whose coordinate on each
    axis is the block index times the block's extent plus `y`'s. -/
theorem iblk1_2_apply (c : Dev nD) (t : Fin cfg1.N) (y : S1024x1.Idx) (i : S8192x1.Idx)
    (h0 : (i 0).val = win1_2.index t (0 : Fin 2) * 1024 + 1 * (y 0).val) (h1 : (i 1).val = win1_2.index t (1 : Fin 2) * 1 + 1 * (y 1).val) :
    (iblk1 V c 2 t : Vec Ideal S1024x1 .f32) y = (V c (Pipeline.arrRef spec1 2) : S8192x1.Idx → EReal) i := by
  show V c (Pipeline.arrRef spec1 2) (((cfg1.win 2).blk t).view.emb y) = V c (Pipeline.arrRef spec1 2) i
  refine congrArg _ (funext fun a => Fin.ext ?_)
  match a with
  | ⟨0, _⟩ => exact h0.symm
  | ⟨1, _⟩ => exact h1.symm

/-- Window 3's block at point `t` (of the row of column norms) read at `y` is the array at the index whose coordinate on each
    axis is the block index times the block's extent plus `y`'s. -/
theorem iblk1_3_apply (c : Dev nD) (t : Fin cfg1.N) (y : S1x1024.Idx) (i : S1x8192.Idx)
    (h0 : (i 0).val = win1_3.index t (0 : Fin 2) * 1 + 1 * (y 0).val) (h1 : (i 1).val = win1_3.index t (1 : Fin 2) * 1024 + 1 * (y 1).val) :
    (iblk1 V c 3 t : Vec Ideal S1x1024 .f32) y = (V c (Pipeline.arrRef spec1 3) : S1x8192.Idx → EReal) i := by
  show V c (Pipeline.arrRef spec1 3) (((cfg1.win 3).blk t).view.emb y) = V c (Pipeline.arrRef spec1 3) i
  refine congrArg _ (funext fun a => Fin.ext ?_)
  match a with
  | ⟨0, _⟩ => exact h0.symm
  | ⟨1, _⟩ => exact h1.symm

/-- What point `t` writes back is block `t` of the cosine array of the four arrays as the region finds them. -/
theorem flushed1_eq (c : Dev nD) (t : Fin cfg1.N) :
    (dat1 V c).flushed 4 t = ((cfg1.win 4).blk t).view.read (Elt Ideal)
      (cosArr (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S1024x128) hz, View.ld_unit_zero (S := S1024x1) hz, View.ld_unit_zero (S := S1x1024) hz]
  obtain ⟨e00, e01, e10, e11, e20, e21, e30, e31, -, -⟩ := idx_facts1 t
  funext j
  obtain ⟨p, q, rfl⟩ : ∃ (p q : Fin 1024), j = ix2 p q := ⟨j 0, j 1, eq_ix2 j⟩
  show k1_pay1 (F := Ideal) (iblk1 V c 0 t) (iblk1 V c 1 t) (iblk1 V c 2 t) (iblk1 V c 3 t) (ix2 p q)
    = cosArr (V c (Pipeline.arrRef spec1 0)) (V c (Pipeline.arrRef spec1 1)) (V c (Pipeline.arrRef spec1 2)) (V c (Pipeline.arrRef spec1 3))
        (((cfg1.win 4).blk t).view.emb (ix2 p q))
  refine (pay1_apply _ _ _ _ p q).trans ?_
  unfold cosArr
  -- the array index of `(p, q)` of the output's block: block index times 1024 plus the coordinate inside
  have hr : ((((cfg1.win 4).blk t).view.emb (ix2 p q)) 0 : Fin 8192).val = win1_4.index t (0 : Fin 2) * 1024 + 1 * p.val := rfl
  have hc : ((((cfg1.win 4).blk t).view.emb (ix2 p q)) 1 : Fin 8192).val = win1_4.index t (1 : Fin 2) * 1024 + 1 * q.val := rfl
  refine congrArg₂ Ideal.div (Finset.sum_congr rfl fun k _ => congrArg₂ (· * ·) ?_ ?_) (congrArg₂ max (congrArg₂ (· * ·) ?_ ?_) rfl)
  · refine iblk1_0_apply V c t (ix2 p k) _ ?_ ?_
    · show _ = win1_0.index t (0 : Fin 2) * 1024 + 1 * p.val
      rw [e00]; exact hr
    · show k.val = win1_0.index t (1 : Fin 2) * 128 + 1 * k.val
      rw [e01]; omega
  · refine iblk1_1_apply V c t (ix2 q k) _ ?_ ?_
    · show _ = win1_1.index t (0 : Fin 2) * 1024 + 1 * q.val
      rw [e10]; exact hc
    · show k.val = win1_1.index t (1 : Fin 2) * 128 + 1 * k.val
      rw [e11]; omega
  · refine iblk1_2_apply V c t (ix2 p 0) _ ?_ ?_
    · show _ = win1_2.index t (0 : Fin 2) * 1024 + 1 * p.val
      rw [e20]; exact hr
    · show (0 : Fin 1).val = win1_2.index t (1 : Fin 2) * 1 + 1 * (0 : Fin 1).val
      rw [e21]; rfl
  · refine iblk1_3_apply V c t (ix2 0 q) _ ?_ ?_
    · show (0 : Fin 1).val = win1_3.index t (0 : Fin 2) * 1 + 1 * (0 : Fin 1).val
      rw [e30]; rfl
    · show _ = win1_3.index t (1 : Fin 2) * 1024 + 1 * q.val
      rw [e31]; exact hc

/-- An index of the output array is in point `t`'s block iff each coordinate is in the block's range on its axis. -/
theorem mem_blk1 (t : Fin cfg1.N) (i : S8192x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole (Pipeline.arrRef spec1 4)).slice (win1_4.rect t)).set ↔ _
  rw [View.set_slice_whole, Rect.mem_set_unit]
  exact Iff.rfl

/-- The blocks cover the array: row `r`, column `s` lies in block `(r / 1024, s / 1024)`, which some point writes back. -/
theorem cover1 (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 1024, by omega⟩
  have q0 : win1_4.index t (0 : Fin 2) = (i 0).val / 1024 := congrFun ht 0
  have q1 : win1_4.index t (1 : Fin 2) = (i 1).val / 1024 := congrFun ht 1
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- THE OUTPUT ARRAY AFTER REGION 1 is the cosine array of the four input arrays as the region finds them. -/
theorem arrAt_cos1 (c : Dev nD) : (dat1 (F := Ideal) V c).arrAt 4 cfg1.N
    = cosArr (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) (cover1)

/-- The four input arrays are as the region found them (an input window is never written back). -/
theorem arrAt_in1 (c : Dev nD) (w : Fin cfg1.W) (hw : (cfg1.win w).isOut = false) (n : Nat) :
    (dat1 (F := Ideal) V c).arrAt w n = V c (Pipeline.arrRef spec1 w) :=
  ((dat1 V c).arrAt_in w hw n).trans (A_eq1 V c w)

/-! ## Region 3 -/

/-- The index maps over the 64 points: the feature block of window 0 and the row norms of window 2 sit at the
    output's block row, the feature block of window 1 and the column norms of window 3 at the output's block
    column; every other block index is zero; the output's block indices stay below 8. -/
theorem idx_facts3 : ∀ t : Fin cfg3.N, win3_0.index t (0 : Fin 2) = win3_4.index t (0 : Fin 2) ∧ win3_0.index t (1 : Fin 2) = 0
    ∧ win3_1.index t (0 : Fin 2) = win3_4.index t (1 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = win3_4.index t (1 : Fin 2)
    ∧ win3_4.index t (0 : Fin 2) ≤ 7 ∧ win3_4.index t (1 : Fin 2) ≤ 7 :=
  (by decide +kernel : ∀ t : Fin grid3.N, _)

/-- Every one of the 8 x 8 output blocks is some point's. -/
theorem idx_onto3 : ∀ (q0 q1 : Fin 8), ∃ t : Fin cfg3.N, win3_4.index t = ![q0.val, q1.val] :=
  (by decide +kernel : ∀ (q0 q1 : Fin 8), ∃ t : Fin grid3.N, win3_4.index t = ![q0.val, q1.val])

/-- Window 0's block at point `t` (of the first feature array) read at `y` is the array at the index whose coordinate on each
    axis is the block index times the block's extent plus `y`'s. -/
theorem iblk3_0_apply (c : Dev nD) (t : Fin cfg3.N) (y : S1024x128.Idx) (i : S8192x128.Idx)
    (h0 : (i 0).val = win3_0.index t (0 : Fin 2) * 1024 + 1 * (y 0).val) (h1 : (i 1).val = win3_0.index t (1 : Fin 2) * 128 + 1 * (y 1).val) :
    (iblk3 V c 0 t : Vec Ideal S1024x128 .f32) y = (V c (Pipeline.arrRef spec3 0) : S8192x128.Idx → EReal) i := by
  show V c (Pipeline.arrRef spec3 0) (((cfg3.win 0).blk t).view.emb y) = V c (Pipeline.arrRef spec3 0) i
  refine congrArg _ (funext fun a => Fin.ext ?_)
  match a with
  | ⟨0, _⟩ => exact h0.symm
  | ⟨1, _⟩ => exact h1.symm

/-- Window 1's block at point `t` (of the second feature array) read at `y` is the array at the index whose coordinate on each
    axis is the block index times the block's extent plus `y`'s. -/
theorem iblk3_1_apply (c : Dev nD) (t : Fin cfg3.N) (y : S1024x128.Idx) (i : S8192x128.Idx)
    (h0 : (i 0).val = win3_1.index t (0 : Fin 2) * 1024 + 1 * (y 0).val) (h1 : (i 1).val = win3_1.index t (1 : Fin 2) * 128 + 1 * (y 1).val) :
    (iblk3 V c 1 t : Vec Ideal S1024x128 .f32) y = (V c (Pipeline.arrRef spec3 1) : S8192x128.Idx → EReal) i := by
  show V c (Pipeline.arrRef spec3 1) (((cfg3.win 1).blk t).view.emb y) = V c (Pipeline.arrRef spec3 1) i
  refine congrArg _ (funext fun a => Fin.ext ?_)
  match a with
  | ⟨0, _⟩ => exact h0.symm
  | ⟨1, _⟩ => exact h1.symm

/-- Window 2's block at point `t` (of the column of row norms) read at `y` is the array at the index whose coordinate on each
    axis is the block index times the block's extent plus `y`'s. -/
theorem iblk3_2_apply (c : Dev nD) (t : Fin cfg3.N) (y : S1024x1.Idx) (i : S8192x1.Idx)
    (h0 : (i 0).val = win3_2.index t (0 : Fin 2) * 1024 + 1 * (y 0).val) (h1 : (i 1).val = win3_2.index t (1 : Fin 2) * 1 + 1 * (y 1).val) :
    (iblk3 V c 2 t : Vec Ideal S1024x1 .f32) y = (V c (Pipeline.arrRef spec3 2) : S8192x1.Idx → EReal) i := by
  show V c (Pipeline.arrRef spec3 2) (((cfg3.win 2).blk t).view.emb y) = V c (Pipeline.arrRef spec3 2) i
  refine congrArg _ (funext fun a => Fin.ext ?_)
  match a with
  | ⟨0, _⟩ => exact h0.symm
  | ⟨1, _⟩ => exact h1.symm

/-- Window 3's block at point `t` (of the row of column norms) read at `y` is the array at the index whose coordinate on each
    axis is the block index times the block's extent plus `y`'s. -/
theorem iblk3_3_apply (c : Dev nD) (t : Fin cfg3.N) (y : S1x1024.Idx) (i : S1x8192.Idx)
    (h0 : (i 0).val = win3_3.index t (0 : Fin 2) * 1 + 1 * (y 0).val) (h1 : (i 1).val = win3_3.index t (1 : Fin 2) * 1024 + 1 * (y 1).val) :
    (iblk3 V c 3 t : Vec Ideal S1x1024 .f32) y = (V c (Pipeline.arrRef spec3 3) : S1x8192.Idx → EReal) i := by
  show V c (Pipeline.arrRef spec3 3) (((cfg3.win 3).blk t).view.emb y) = V c (Pipeline.arrRef spec3 3) i
  refine congrArg _ (funext fun a => Fin.ext ?_)
  match a with
  | ⟨0, _⟩ => exact h0.symm
  | ⟨1, _⟩ => exact h1.symm

/-- What point `t` writes back is block `t` of the cosine array of the four arrays as the region finds them. -/
theorem flushed3_eq (c : Dev nD) (t : Fin cfg3.N) :
    (dat3 V c).flushed 4 t = ((cfg3.win 4).blk t).view.read (Elt Ideal)
      (cosArr (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S1024x128) hz, View.ld_unit_zero (S := S1024x1) hz, View.ld_unit_zero (S := S1x1024) hz]
  obtain ⟨e00, e01, e10, e11, e20, e21, e30, e31, -, -⟩ := idx_facts3 t
  funext j
  obtain ⟨p, q, rfl⟩ : ∃ (p q : Fin 1024), j = ix2 p q := ⟨j 0, j 1, eq_ix2 j⟩
  show k3_pay1 (F := Ideal) (iblk3 V c 0 t) (iblk3 V c 1 t) (iblk3 V c 2 t) (iblk3 V c 3 t) (ix2 p q)
    = cosArr (V c (Pipeline.arrRef spec3 0)) (V c (Pipeline.arrRef spec3 1)) (V c (Pipeline.arrRef spec3 2)) (V c (Pipeline.arrRef spec3 3))
        (((cfg3.win 4).blk t).view.emb (ix2 p q))
  refine (pay3_apply _ _ _ _ p q).trans ?_
  unfold cosArr
  -- the array index of `(p, q)` of the output's block: block index times 1024 plus the coordinate inside
  have hr : ((((cfg3.win 4).blk t).view.emb (ix2 p q)) 0 : Fin 8192).val = win3_4.index t (0 : Fin 2) * 1024 + 1 * p.val := rfl
  have hc : ((((cfg3.win 4).blk t).view.emb (ix2 p q)) 1 : Fin 8192).val = win3_4.index t (1 : Fin 2) * 1024 + 1 * q.val := rfl
  refine congrArg₂ Ideal.div (Finset.sum_congr rfl fun k _ => congrArg₂ (· * ·) ?_ ?_) (congrArg₂ max (congrArg₂ (· * ·) ?_ ?_) rfl)
  · refine iblk3_0_apply V c t (ix2 p k) _ ?_ ?_
    · show _ = win3_0.index t (0 : Fin 2) * 1024 + 1 * p.val
      rw [e00]; exact hr
    · show k.val = win3_0.index t (1 : Fin 2) * 128 + 1 * k.val
      rw [e01]; omega
  · refine iblk3_1_apply V c t (ix2 q k) _ ?_ ?_
    · show _ = win3_1.index t (0 : Fin 2) * 1024 + 1 * q.val
      rw [e10]; exact hc
    · show k.val = win3_1.index t (1 : Fin 2) * 128 + 1 * k.val
      rw [e11]; omega
  · refine iblk3_2_apply V c t (ix2 p 0) _ ?_ ?_
    · show _ = win3_2.index t (0 : Fin 2) * 1024 + 1 * p.val
      rw [e20]; exact hr
    · show (0 : Fin 1).val = win3_2.index t (1 : Fin 2) * 1 + 1 * (0 : Fin 1).val
      rw [e21]; rfl
  · refine iblk3_3_apply V c t (ix2 0 q) _ ?_ ?_
    · show (0 : Fin 1).val = win3_3.index t (0 : Fin 2) * 1 + 1 * (0 : Fin 1).val
      rw [e30]; rfl
    · show _ = win3_3.index t (1 : Fin 2) * 1024 + 1 * q.val
      rw [e31]; exact hc

/-- An index of the output array is in point `t`'s block iff each coordinate is in the block's range on its axis. -/
theorem mem_blk3 (t : Fin cfg3.N) (i : S8192x8192.Idx) :
    i ∈ ((cfg3.win 4).blk t).view.set ↔ ∀ a : Fin 2, win3_4.index t a * S1024x1024.size a ≤ (i a).val ∧ (i a).val < win3_4.index t a * S1024x1024.size a + S1024x1024.size a := by
  show i ∈ ((View.whole (Pipeline.arrRef spec3 4)).slice (win3_4.rect t)).set ↔ _
  rw [View.set_slice_whole, Rect.mem_set_unit]
  exact Iff.rfl

/-- The blocks cover the array: row `r`, column `s` lies in block `(r / 1024, s / 1024)`, which some point writes back. -/
theorem cover3 (i : S8192x8192.Idx) : ∃ t : Fin cfg3.N, (cfg3.win 4).flush t = true ∧ i ∈ ((cfg3.win 4).blk t).view.set := by
  have hi0 : (i 0).val < 8192 := (i 0).isLt
  have hi1 : (i 1).val < 8192 := (i 1).isLt
  obtain ⟨t, ht⟩ := idx_onto3 ⟨(i 0).val / 1024, by omega⟩ ⟨(i 1).val / 1024, by omega⟩
  have q0 : win3_4.index t (0 : Fin 2) = (i 0).val / 1024 := congrFun ht 0
  have q1 : win3_4.index t (1 : Fin 2) = (i 1).val / 1024 := congrFun ht 1
  refine ⟨t, flush3_4 t, ?_⟩
  rw [mem_blk3]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 1024 ≤ (i 1).val ∧ (i 1).val < win3_4.index t (1 : Fin 2) * 1024 + 1024; omega

/-- THE OUTPUT ARRAY AFTER REGION 3 is the cosine array of the four input arrays as the region finds them. -/
theorem arrAt_cos3 (c : Dev nD) : (dat3 (F := Ideal) V c).arrAt 4 cfg3.N
    = cosArr (V c (Pipeline.arrRef spec3 0)) (V c (Pipeline.arrRef spec3 1)) (V c (Pipeline.arrRef spec3 2)) (V c (Pipeline.arrRef spec3 3)) :=
  (dat3 V c).arrAt_eq_of_cover 4 _ (fun t _ => flushed3_eq V c t) (cover3)

/-- The four input arrays are as the region found them (an input window is never written back). -/
theorem arrAt_in3 (c : Dev nD) (w : Fin cfg3.W) (hw : (cfg3.win w).isOut = false) (n : Nat) :
    (dat3 (F := Ideal) V c).arrAt w n = V c (Pipeline.arrRef spec3 w) :=
  ((dat3 V c).arrAt_in w hw n).trans (A_eq3 V c w)

end Cert.KernelIdeal.Hand

end
-- ==== Proof.LibTransLeftDot.lean ====
/-
  A matrix product against the TRANSPOSE of its left operand.

  For a two-axis contraction `[K, M] x [K, N] -> [M, N]` whose dimension numbers contract the FIRST axis of both
  operands (`TransLeftDot`), the sum over the contraction index at output `(r, c)` is
  `sum k : Fin K, x (k, r) * w (k, c)`: the product of the transpose of `x` with `w`. Only the commutative monoid
  of the extended reals' addition is used; nothing here needs a finite entry.
-/
import Idealize.ShloMosaic.Lib.ValueIdx
import Idealize.ShloMosaic.PureOps.Ideal.Laws

namespace Idealize.ShloMosaic.TransLeftDot

open Idealize.ShloMosaic Idealize.ShloMosaic.ValueIdx

/-- The dimension numbers of a product with the left operand transposed: one contracted axis of extent `K`; the
    left operand's index at output `j` and contraction index `q` is `(q, j 0)`, the right operand's `(q, j 1)`. -/
structure TransLeftDot {M K N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (k, j 0) * w (k, j 1)`. -/
theorem sum_contr_eq (d : DotDims (⟨2, ![K, M]⟩ : Shape) (⟨2, ![K, N]⟩ : Shape) (⟨2, ![M, N]⟩ : Shape)) (h : TransLeftDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

end Idealize.ShloMosaic.TransLeftDot
-- ==== Proof.GcPay.lean ====
/-
  The graph-convolution body's stored values over the extended reals, at an index.

  Rounding the operands to bf16 is the identity over the extended reals, a shape cast to the same shape is the
  identity, and a matrix product into the zero accumulator is the plain sum of products over the 1024
  contraction indices. So the band the body stores into the first accumulator is, at row p and column q of the
  band, what the band held plus sum_k a(p,k) cw(k,q); the band it stores into the second accumulator is what
  that band held plus sum_k a(k,p) pw(k,q) (the tile enters transposed); the last point's store is the leaky
  rectifier of what the accumulator held, entry by entry; the first point's clearing store is zero.
-/
import proofs.«154085_j15066745274644_1_alg».proof.Proof.Gen.KernelIdeal.Skeleton
import proofs.«154085_j15066745274644_1_alg».proof.Proof.Spec
import proofs.«154085_j15066745274644_1_alg».proof.Proof.LibRowBlockDot
import proofs.«154085_j15066745274644_1_alg».proof.Proof.LibTransLeftDot
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx

/-- The first product keeps the tile's rows and contracts its columns with the rows of the right operand. -/
theorem gcDot_plain : RowBlockDot.PlainDot (M := 1024) (K := 1024) (N := 128) dot_S1024x1024_S1024x128_S1024x128_1_0_0_1_n_n where
  hr := rfl
  hs := rfl
  l0 := fun j q => rfl
  l1 := fun j q => DotDims.lhsIdx_val_of_single (d := dot_S1024x1024_S1024x128_S1024x128_1_0_0_1_n_n) (cl := 1) rfl j q
  r0 := fun j q => DotDims.rhsIdx_val_of_single (d := dot_S1024x1024_S1024x128_S1024x128_1_0_0_1_n_n) (cr := 0) rfl j q
  r1 := fun j q => rfl

/-- The second product contracts the tile's ROWS with the rows of the right operand: the tile enters transposed. -/
theorem gcDot_transLeft : TransLeftDot.TransLeftDot (M := 1024) (K := 1024) (N := 128) dot_S1024x1024_S1024x128_S1024x128_0_0_1_1_n_n where
  hr := rfl
  hs := rfl
  l0 := fun j q => DotDims.lhsIdx_val_of_single (d := dot_S1024x1024_S1024x128_S1024x128_0_0_1_1_n_n) (cl := 0) rfl j q
  l1 := fun j q => rfl
  r0 := fun j q => DotDims.rhsIdx_val_of_single (d := dot_S1024x1024_S1024x128_S1024x128_0_0_1_1_n_n) (cr := 0) rfl j q
  r1 := fun j q => rfl

/-- The band stored into the first accumulator, at (p, q): what the band held plus the tile's row p times
    column q of the right operand's block. -/
theorem gcPay6_apply (x0 : Vec Ideal S1024x1024 .f32) (x1 v20 : Vec Ideal S1024x128 .f32) (p : Fin 1024) (q : Fin 128) :
    k0_pay6 (F := Ideal) x0 x1 v20 (ix2 p q) = v20 (ix2 p q) + ∑ k : Fin 1024, x0 (ix2 p k) * x1 (ix2 k q) := by
  unfold k0_pay6 k0_pay5
  refine congrArg₂ (· + ·) ?_ ?_
  · rw [shapeCast_self]
  · refine (Ideal.matmul_constant_zero_apply dot_S1024x1024_S1024x128_S1024x128_1_0_0_1_n_n none _ _ (ix2 p q)).trans ?_
    refine (RowBlockDot.sum_contr_eq dot_S1024x1024_S1024x128_S1024x128_1_0_0_1_n_n gcDot_plain _ _ (ix2 p q)).trans ?_
    refine Finset.sum_congr rfl fun k _ => ?_
    rw [shapeCast_self]
    rfl

/-- The band stored into the second accumulator, at (p, q): what the band held plus the tile's COLUMN p times
    column q of the right operand's block. -/
theorem gcPay7_apply (x0 : Vec Ideal S1024x1024 .f32) (x2 v26 : Vec Ideal S1024x128 .f32) (p : Fin 1024) (q : Fin 128) :
    k0_pay7 (F := Ideal) x0 x2 v26 (ix2 p q) = v26 (ix2 p q) + ∑ k : Fin 1024, x0 (ix2 k p) * x2 (ix2 k q) := by
  unfold k0_pay7 k0_pay5
  refine congrArg₂ (· + ·) ?_ ?_
  · rw [shapeCast_self]
  · refine (Ideal.matmul_constant_zero_apply dot_S1024x1024_S1024x128_S1024x128_0_0_1_1_n_n none _ _ (ix2 p q)).trans ?_
    refine (TransLeftDot.sum_contr_eq dot_S1024x1024_S1024x128_S1024x128_0_0_1_1_n_n gcDot_transLeft _ _ (ix2 p q)).trans ?_
    refine Finset.sum_congr rfl fun k _ => ?_
    rw [shapeCast_self]
    rfl

/-- The last point's store into the first accumulator is the leaky rectifier, entry by entry. -/
theorem gcPay1_apply (v36 : Vec Ideal S8192x128 .f32) (y : S8192x128.Idx) :
    k0_pay1 (F := Ideal) v36 y = Cert.Spec.leaky (v36 y) := by
  unfold k0_pay1 Cert.Spec.leaky
  rw [shapeCast_self]
  rfl

theorem gcPay2_apply (v44 : Vec Ideal S8192x128 .f32) (y : S8192x128.Idx) :
    k0_pay2 (F := Ideal) v44 y = Cert.Spec.leaky (v44 y) := by
  unfold k0_pay2 Cert.Spec.leaky
  rw [shapeCast_self]
  rfl

/-- The first point's clearing stores are zero. -/
theorem gcPay3_apply (y : S8192x128.Idx) : k0_pay3 (F := Ideal) y = 0 := by
  unfold k0_pay3
  exact Ideal.ofBits_zero_f32
theorem gcPay4_apply (y : S8192x128.Idx) : k0_pay4 (F := Ideal) y = 0 := by
  unfold k0_pay4
  exact Ideal.ofBits_zero_f32

/-! Region 2's body is the same text: the same lemmas, on its own names (its adjacency tile passes through one more shape cast to its own shape). -/

/-- The band stored into the first accumulator, at (p, q): what the band held plus the tile's row p times
    column q of the right operand's block. -/
theorem gcPay6_apply2 (x0 : Vec Ideal S1024x1024 .f32) (x1 v20 : Vec Ideal S1024x128 .f32) (p : Fin 1024) (q : Fin 128) :
    k2_pay6 (F := Ideal) x0 x1 v20 (ix2 p q) = v20 (ix2 p q) + ∑ k : Fin 1024, x0 (ix2 p k) * x1 (ix2 k q) := by
  unfold k2_pay6 k2_pay5
  refine congrArg₂ (· + ·) ?_ ?_
  · rw [shapeCast_self]
  · refine (Ideal.matmul_constant_zero_apply dot_S1024x1024_S1024x128_S1024x128_1_0_0_1_n_n none _ _ (ix2 p q)).trans ?_
    refine (RowBlockDot.sum_contr_eq dot_S1024x1024_S1024x128_S1024x128_1_0_0_1_n_n gcDot_plain _ _ (ix2 p q)).trans ?_
    refine Finset.sum_congr rfl fun k _ => ?_
    simp only [shapeCast_self]
    rfl

/-- The band stored into the second accumulator, at (p, q): what the band held plus the tile's COLUMN p times
    column q of the right operand's block. -/
theorem gcPay7_apply2 (x0 : Vec Ideal S1024x1024 .f32) (x2 v26 : Vec Ideal S1024x128 .f32) (p : Fin 1024) (q : Fin 128) :
    k2_pay7 (F := Ideal) x0 x2 v26 (ix2 p q) = v26 (ix2 p q) + ∑ k : Fin 1024, x0 (ix2 k p) * x2 (ix2 k q) := by
  unfold k2_pay7 k2_pay5
  refine congrArg₂ (· + ·) ?_ ?_
  · rw [shapeCast_self]
  · refine (Ideal.matmul_constant_zero_apply dot_S1024x1024_S1024x128_S1024x128_0_0_1_1_n_n none _ _ (ix2 p q)).trans ?_
    refine (TransLeftDot.sum_contr_eq dot_S1024x1024_S1024x128_S1024x128_0_0_1_1_n_n gcDot_transLeft _ _ (ix2 p q)).trans ?_
    refine Finset.sum_congr rfl fun k _ => ?_
    simp only [shapeCast_self]
    rfl

/-- The last point's store into the first accumulator is the leaky rectifier, entry by entry. -/
theorem gcPay1_apply2 (v36 : Vec Ideal S8192x128 .f32) (y : S8192x128.Idx) :
    k2_pay1 (F := Ideal) v36 y = Cert.Spec.leaky (v36 y) := by
  unfold k2_pay1 Cert.Spec.leaky
  rw [shapeCast_self]
  rfl

theorem gcPay2_apply2 (v44 : Vec Ideal S8192x128 .f32) (y : S8192x128.Idx) :
    k2_pay2 (F := Ideal) v44 y = Cert.Spec.leaky (v44 y) := by
  unfold k2_pay2 Cert.Spec.leaky
  rw [shapeCast_self]
  rfl

/-- The first point's clearing stores are zero. -/
theorem gcPay3_apply2 (y : S8192x128.Idx) : k2_pay3 (F := Ideal) y = 0 := by
  unfold k2_pay3
  exact Ideal.ofBits_zero_f32
theorem gcPay4_apply2 (y : S8192x128.Idx) : k2_pay4 (F := Ideal) y = 0 := by
  unfold k2_pay4
  exact Ideal.ofBits_zero_f32

end Cert.KernelIdeal.Hand

end
-- ==== Proof.GcRead0.lean ====
/-
  Region 0's accumulators after one grid point, entry by entry, over the extended reals.

  A band store of 1024 rows over what an accumulator held leaves, at row r and column q: in the band (r / 1024
  is the band's number), what was there plus the point's product at the row's position r mod 1024 within the
  band; outside the band, what was there. At the first point the accumulator was cleared first, so "what was
  there" is zero; at the last point the whole accumulator is then replaced by its leaky rectification.
-/
import proofs.«154085_j15066745274644_1_alg».proof.Proof.KI.Gc0
import proofs.«154085_j15066745274644_1_alg».proof.Proof.GcPay
import Idealize.ShloMosaic.Lib.Pipeline.Value
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem gc_hz : (![0, 0] : Fin 2 → Nat) = fun _ => 0 := funext fun a => by fin_cases a <;> rfl

/-- Row r mod 1024 as a row of a band. -/
abbrev bandRow (r : Fin 8192) : Fin 1024 := ⟨r.val % 1024, Nat.mod_lt _ (by decide)⟩

/-! ## A band written over what the first accumulator held -/

theorem bandP_in (arg2 : Memref sig .tc .vmem S1024x1024 .f32) (harg2 : arg2.IsWhole) (arg3 : Memref sig .tc .vmem S1024x128 .f32) (harg3 : arg3.IsWhole) (arg5 : Memref sig .tc .vmem S8192x128 .f32) (harg5 : arg5.IsWhole) (i : grid0.Coords)
    (x0 : Vec Ideal S1024x1024 .f32) (x1 : Vec Ideal S1024x128 .f32) (xo3 : Vec Ideal S8192x128 .f32) (I : ℕ) (hoff : k0_off1 i = ![I, 0])
    (y : S8192x128.Idx) (p : Fin 1024) (q : Fin 128) (h0 : (y 0).val = I + p.val) (h1 : (y 1).val = q.val) :
    arg5.view.read (Elt Ideal) (arg5.view.writes (Elt Ideal) (harg5.unread xo3) [⟨Rect.unit (s := S8192x128) (k0_off1 i) S1024x128.size (k0_off1_inb i),
        k0_pay6 (View.readAt (Elt Ideal) arg2.view (Rect.unit ![0, 0] S1024x1024.size inb_S1024x1024_S1024x1024_0_0).toLoadRect (harg2.unread x0))
          (View.readAt (Elt Ideal) arg3.view (Rect.unit ![0, 0] S1024x128.size inb_S1024x128_S1024x128_0_0).toLoadRect (harg3.unread x1))
          (View.readAt (Elt Ideal) arg5.view (Rect.unit (s := S8192x128) (k0_off1 i) S1024x128.size (k0_off1_inb i)).toLoadRect (harg5.unread xo3))⟩]) y
      = xo3 y + ∑ k : Fin 1024, x0 (ix2 p k) * x1 (ix2 k q) := by
  refine (View.read_writes_cons_unit_of_mem _ _ (k0_off1_inb i) _ [] y (ix2 p q) hoff (fun a => ?_)).trans ?_
  · match a with
    | ⟨0, _⟩ => exact h0
    | ⟨1, _⟩ => show (y 1).val = 0 + q.val; omega
  refine (gcPay6_apply _ _ _ p q).trans ?_
  refine congrArg₂ (· + ·) ?_ (Finset.sum_congr rfl fun k _ => congrArg₂ (· * ·) ?_ ?_)
  · rw [View.readAt_eq_ld, harg5.read_unread]
    refine congrArg xo3 (funext fun a => Fin.ext ?_)
    match a with
    | ⟨0, _⟩ => show k0_off1 i 0 + 1 * p.val = (y 0).val; rw [hoff]; show I + 1 * p.val = (y 0).val; omega
    | ⟨1, _⟩ => show k0_off1 i 1 + 1 * q.val = (y 1).val; rw [hoff]; show 0 + 1 * q.val = (y 1).val; omega
  · rw [View.readAt_eq_ld, harg2.read_unread]
    exact congrFun (View.ld_unit_zero (S := S1024x1024) gc_hz inb_S1024x1024_S1024x1024_0_0 x0) (ix2 p k)
  · rw [View.readAt_eq_ld, harg3.read_unread]
    exact congrFun (View.ld_unit_zero (S := S1024x128) gc_hz inb_S1024x128_S1024x128_0_0 x1) (ix2 k q)

theorem bandP_out (arg2 : Memref sig .tc .vmem S1024x1024 .f32) (harg2 : arg2.IsWhole) (arg3 : Memref sig .tc .vmem S1024x128 .f32) (harg3 : arg3.IsWhole) (arg5 : Memref sig .tc .vmem S8192x128 .f32) (harg5 : arg5.IsWhole) (i : grid0.Coords)
    (x0 : Vec Ideal S1024x1024 .f32) (x1 : Vec Ideal S1024x128 .f32) (xo3 : Vec Ideal S8192x128 .f32) (I : ℕ) (hoff : k0_off1 i = ![I, 0])
    (y : S8192x128.Idx) (hout : (y 0).val < I ∨ I + 1024 ≤ (y 0).val) :
    arg5.view.read (Elt Ideal) (arg5.view.writes (Elt Ideal) (harg5.unread xo3) [⟨Rect.unit (s := S8192x128) (k0_off1 i) S1024x128.size (k0_off1_inb i),
        k0_pay6 (View.readAt (Elt Ideal) arg2.view (Rect.unit ![0, 0] S1024x1024.size inb_S1024x1024_S1024x1024_0_0).toLoadRect (harg2.unread x0))
          (View.readAt (Elt Ideal) arg3.view (Rect.unit ![0, 0] S1024x128.size inb_S1024x128_S1024x128_0_0).toLoadRect (harg3.unread x1))
          (View.readAt (Elt Ideal) arg5.view (Rect.unit (s := S8192x128) (k0_off1 i) S1024x128.size (k0_off1_inb i)).toLoadRect (harg5.unread xo3))⟩]) y = xo3 y := by
  refine (View.read_writes_cons_unit_of_not_mem _ _ (k0_off1_inb i) _ [] y hoff 0 ?_).trans ?_
  · exact hout
  · rw [View.writes_nil, harg5.read_unread]

/-- The band over the first accumulator at row r, column q: the band's number is i0. -/
theorem bandP_val (arg2 : Memref sig .tc .vmem S1024x1024 .f32) (harg2 : arg2.IsWhole) (arg3 : Memref sig .tc .vmem S1024x128 .f32) (harg3 : arg3.IsWhole) (arg5 : Memref sig .tc .vmem S8192x128 .f32) (harg5 : arg5.IsWhole) (i : grid0.Coords)
    (x0 : Vec Ideal S1024x1024 .f32) (x1 : Vec Ideal S1024x128 .f32) (xo3 : Vec Ideal S8192x128 .f32) (i0 : ℕ) (hoff : k0_off1 i = ![i0 * 1024, 0])
    (r : Fin 8192) (q : Fin 128) :
    arg5.view.read (Elt Ideal) (arg5.view.writes (Elt Ideal) (harg5.unread xo3) [⟨Rect.unit (s := S8192x128) (k0_off1 i) S1024x128.size (k0_off1_inb i),
        k0_pay6 (View.readAt (Elt Ideal) arg2.view (Rect.unit ![0, 0] S1024x1024.size inb_S1024x1024_S1024x1024_0_0).toLoadRect (harg2.unread x0))
          (View.readAt (Elt Ideal) arg3.view (Rect.unit ![0, 0] S1024x128.size inb_S1024x128_S1024x128_0_0).toLoadRect (harg3.unread x1))
          (View.readAt (Elt Ideal) arg5.view (Rect.unit (s := S8192x128) (k0_off1 i) S1024x128.size (k0_off1_inb i)).toLoadRect (harg5.unread xo3))⟩]) (ix2 r q)
      = xo3 (ix2 r q) + (if r.val / 1024 = i0 then ∑ k : Fin 1024, x0 (ix2 (bandRow r) k) * x1 (ix2 k q) else 0) := by
  by_cases h : r.val / 1024 = i0
  · rw [if_pos h]
    exact bandP_in arg2 harg2 arg3 harg3 arg5 harg5 i x0 x1 xo3 (i0 * 1024) hoff (ix2 r q) (bandRow r) q
      (by show r.val = i0 * 1024 + r.val % 1024; omega) rfl
  · rw [if_neg h, add_zero]
    exact bandP_out arg2 harg2 arg3 harg3 arg5 harg5 i x0 x1 xo3 (i0 * 1024) hoff (ix2 r q)
      (by show r.val < i0 * 1024 ∨ i0 * 1024 + 1024 ≤ r.val; omega)

/-! ## A band written over what the second accumulator held -/

theorem bandC_in (arg2 : Memref sig .tc .vmem S1024x1024 .f32) (harg2 : arg2.IsWhole) (arg4 : Memref sig .tc .vmem S1024x128 .f32) (harg4 : arg4.IsWhole) (arg6 : Memref sig .tc .vmem S8192x128 .f32) (harg6 : arg6.IsWhole) (i : grid0.Coords)
    (x0 : Vec Ideal S1024x1024 .f32) (x2 : Vec Ideal S1024x128 .f32) (xo4 : Vec Ideal S8192x128 .f32) (J : ℕ) (hoff : k0_off2 i = ![J, 0])
    (y : S8192x128.Idx) (p : Fin 1024) (q : Fin 128) (h0 : (y 0).val = J + p.val) (h1 : (y 1).val = q.val) :
    arg6.view.read (Elt Ideal) (arg6.view.writes (Elt Ideal) (harg6.unread xo4) [⟨Rect.unit (s := S8192x128) (k0_off2 i) S1024x128.size (k0_off2_inb i),
        k0_pay7 (View.readAt (Elt Ideal) arg2.view (Rect.unit ![0, 0] S1024x1024.size inb_S1024x1024_S1024x1024_0_0).toLoadRect (harg2.unread x0))
          (View.readAt (Elt Ideal) arg4.view (Rect.unit ![0, 0] S1024x128.size inb_S1024x128_S1024x128_0_0).toLoadRect (harg4.unread x2))
          (View.readAt (Elt Ideal) arg6.view (Rect.unit (s := S8192x128) (k0_off2 i) S1024x128.size (k0_off2_inb i)).toLoadRect (harg6.unread xo4))⟩]) y
      = xo4 y + ∑ k : Fin 1024, x0 (ix2 k p) * x2 (ix2 k q) := by
  refine (View.read_writes_cons_unit_of_mem _ _ (k0_off2_inb i) _ [] y (ix2 p q) hoff (fun a => ?_)).trans ?_
  · match a with
    | ⟨0, _⟩ => exact h0
    | ⟨1, _⟩ => show (y 1).val = 0 + q.val; omega
  refine (gcPay7_apply _ _ _ p q).trans ?_
  refine congrArg₂ (· + ·) ?_ (Finset.sum_congr rfl fun k _ => congrArg₂ (· * ·) ?_ ?_)
  · rw [View.readAt_eq_ld, harg6.read_unread]
    refine congrArg xo4 (funext fun a => Fin.ext ?_)
    match a with
    | ⟨0, _⟩ => show k0_off2 i 0 + 1 * p.val = (y 0).val; rw [hoff]; show J + 1 * p.val = (y 0).val; omega
    | ⟨1, _⟩ => show k0_off2 i 1 + 1 * q.val = (y 1).val; rw [hoff]; show 0 + 1 * q.val = (y 1).val; omega
  · rw [View.readAt_eq_ld, harg2.read_unread]
    exact congrFun (View.ld_unit_zero (S := S1024x1024) gc_hz inb_S1024x1024_S1024x1024_0_0 x0) (ix2 k p)
  · rw [View.readAt_eq_ld, harg4.read_unread]
    exact congrFun (View.ld_unit_zero (S := S1024x128) gc_hz inb_S1024x128_S1024x128_0_0 x2) (ix2 k q)

theorem bandC_out (arg2 : Memref sig .tc .vmem S1024x1024 .f32) (harg2 : arg2.IsWhole) (arg4 : Memref sig .tc .vmem S1024x128 .f32) (harg4 : arg4.IsWhole) (arg6 : Memref sig .tc .vmem S8192x128 .f32) (harg6 : arg6.IsWhole) (i : grid0.Coords)
    (x0 : Vec Ideal S1024x1024 .f32) (x2 : Vec Ideal S1024x128 .f32) (xo4 : Vec Ideal S8192x128 .f32) (J : ℕ) (hoff : k0_off2 i = ![J, 0])
    (y : S8192x128.Idx) (hout : (y 0).val < J ∨ J + 1024 ≤ (y 0).val) :
    arg6.view.read (Elt Ideal) (arg6.view.writes (Elt Ideal) (harg6.unread xo4) [⟨Rect.unit (s := S8192x128) (k0_off2 i) S1024x128.size (k0_off2_inb i),
        k0_pay7 (View.readAt (Elt Ideal) arg2.view (Rect.unit ![0, 0] S1024x1024.size inb_S1024x1024_S1024x1024_0_0).toLoadRect (harg2.unread x0))
          (View.readAt (Elt Ideal) arg4.view (Rect.unit ![0, 0] S1024x128.size inb_S1024x128_S1024x128_0_0).toLoadRect (harg4.unread x2))
          (View.readAt (Elt Ideal) arg6.view (Rect.unit (s := S8192x128) (k0_off2 i) S1024x128.size (k0_off2_inb i)).toLoadRect (harg6.unread xo4))⟩]) y = xo4 y := by
  refine (View.read_writes_cons_unit_of_not_mem _ _ (k0_off2_inb i) _ [] y hoff 0 ?_).trans ?_
  · exact hout
  · rw [View.writes_nil, harg6.read_unread]

theorem bandC_val (arg2 : Memref sig .tc .vmem S1024x1024 .f32) (harg2 : arg2.IsWhole) (arg4 : Memref sig .tc .vmem S1024x128 .f32) (harg4 : arg4.IsWhole) (arg6 : Memref sig .tc .vmem S8192x128 .f32) (harg6 : arg6.IsWhole) (i : grid0.Coords)
    (x0 : Vec Ideal S1024x1024 .f32) (x2 : Vec Ideal S1024x128 .f32) (xo4 : Vec Ideal S8192x128 .f32) (j0 : ℕ) (hoff : k0_off2 i = ![j0 * 1024, 0])
    (s : Fin 8192) (q : Fin 128) :
    arg6.view.read (Elt Ideal) (arg6.view.writes (Elt Ideal) (harg6.unread xo4) [⟨Rect.unit (s := S8192x128) (k0_off2 i) S1024x128.size (k0_off2_inb i),
        k0_pay7 (View.readAt (Elt Ideal) arg2.view (Rect.unit ![0, 0] S1024x1024.size inb_S1024x1024_S1024x1024_0_0).toLoadRect (harg2.unread x0))
          (View.readAt (Elt Ideal) arg4.view (Rect.unit ![0, 0] S1024x128.size inb_S1024x128_S1024x128_0_0).toLoadRect (harg4.unread x2))
          (View.readAt (Elt Ideal) arg6.view (Rect.unit (s := S8192x128) (k0_off2 i) S1024x128.size (k0_off2_inb i)).toLoadRect (harg6.unread xo4))⟩]) (ix2 s q)
      = xo4 (ix2 s q) + (if s.val / 1024 = j0 then ∑ k : Fin 1024, x0 (ix2 k (bandRow s)) * x2 (ix2 k q) else 0) := by
  by_cases h : s.val / 1024 = j0
  · rw [if_pos h]
    exact bandC_in arg2 harg2 arg4 harg4 arg6 harg6 i x0 x2 xo4 (j0 * 1024) hoff (ix2 s q) (bandRow s) q
      (by show s.val = j0 * 1024 + s.val % 1024; omega) rfl
  · rw [if_neg h, add_zero]
    exact bandC_out arg2 harg2 arg4 harg4 arg6 harg6 i x0 x2 xo4 (j0 * 1024) hoff (ix2 s q)
      (by show s.val < j0 * 1024 ∨ j0 * 1024 + 1024 ≤ s.val; omega)

/-! ## The three cases -/

section Cases
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole)
variable (x0 : Vec Ideal S1024x1024 .f32) (x1 x2 : Vec Ideal S1024x128 .f32)

/-- A middle point. -/
theorem outB_fst (i0 : ℕ) (hoff1 : k0_off1 i = ![i0 * 1024, 0]) (hc0 : ¬cond0_0 i) (hc1 : ¬cond0_1 i) (xo3 xo4 : Vec Ideal S8192x128 .f32) (r : Fin 8192) (q : Fin 128) :
    (out0_B (F := Ideal) c i arg2 harg2 arg3 harg3 arg4 harg4 arg5 harg5 arg6 harg6 hc0 hc1 x0 x1 x2 xo3 xo4).1 (ix2 r q)
      = xo3 (ix2 r q) + (if r.val / 1024 = i0 then ∑ k : Fin 1024, x0 (ix2 (bandRow r) k) * x1 (ix2 k q) else 0) := by
  unfold out0_B kernelRun0_B
  exact bandP_val arg2 harg2 arg3 harg3 arg5 harg5 i x0 x1 xo3 i0 hoff1 r q

theorem outB_snd (j0 : ℕ) (hoff2 : k0_off2 i = ![j0 * 1024, 0]) (hc0 : ¬cond0_0 i) (hc1 : ¬cond0_1 i) (xo3 xo4 : Vec Ideal S8192x128 .f32) (s : Fin 8192) (q : Fin 128) :
    (out0_B (F := Ideal) c i arg2 harg2 arg3 harg3 arg4 harg4 arg5 harg5 arg6 harg6 hc0 hc1 x0 x1 x2 xo3 xo4).2 (ix2 s q)
      = xo4 (ix2 s q) + (if s.val / 1024 = j0 then ∑ k : Fin 1024, x0 (ix2 k (bandRow s)) * x2 (ix2 k q) else 0) := by
  unfold out0_B kernelRun0_B
  exact bandC_val arg2 harg2 arg4 harg4 arg6 harg6 i x0 x2 xo4 j0 hoff2 s q

/-- The last point: the band, then the rectifier over the whole accumulator. -/
theorem outC_fst (i0 : ℕ) (hoff1 : k0_off1 i = ![i0 * 1024, 0]) (hc0 : ¬cond0_0 i) (hc1 : cond0_1 i) (xo3 xo4 : Vec Ideal S8192x128 .f32) (r : Fin 8192) (q : Fin 128) :
    (out0_C (F := Ideal) c i arg2 harg2 arg3 harg3 arg4 harg4 arg5 harg5 arg6 harg6 hc0 hc1 x0 x1 x2 xo3 xo4).1 (ix2 r q)
      = Cert.Spec.leaky (xo3 (ix2 r q) + (if r.val / 1024 = i0 then ∑ k : Fin 1024, x0 (ix2 (bandRow r) k) * x1 (ix2 k q) else 0)) := by
  unfold out0_C kernelRun0_C
  refine (View.read_writes_cons_unit_of_mem _ _ inb_S8192x128_S8192x128_0_0 _ _ (ix2 r q) (ix2 r q) rfl (fun a => ?_)).trans ?_
  · match a with
    | ⟨0, _⟩ => show r.val = 0 + r.val; omega
    | ⟨1, _⟩ => show q.val = 0 + q.val; omega
  refine (gcPay1_apply _ _).trans (congrArg Cert.Spec.leaky ?_)
  unfold kernelRun0_C.sl.v36 kernelRun0_C.sl.H3_1
  rw [View.readAt_eq_ld]
  refine (congrFun (View.ld_unit_zero (S := S8192x128) gc_hz inb_S8192x128_S8192x128_0_0 _) (ix2 r q)).trans ?_
  exact bandP_val arg2 harg2 arg3 harg3 arg5 harg5 i x0 x1 xo3 i0 hoff1 r q

theorem outC_snd (j0 : ℕ) (hoff2 : k0_off2 i = ![j0 * 1024, 0]) (hc0 : ¬cond0_0 i) (hc1 : cond0_1 i) (xo3 xo4 : Vec Ideal S8192x128 .f32) (s : Fin 8192) (q : Fin 128) :
    (out0_C (F := Ideal) c i arg2 harg2 arg3 harg3 arg4 harg4 arg5 harg5 arg6 harg6 hc0 hc1 x0 x1 x2 xo3 xo4).2 (ix2 s q)
      = Cert.Spec.leaky (xo4 (ix2 s q) + (if s.val / 1024 = j0 then ∑ k : Fin 1024, x0 (ix2 k (bandRow s)) * x2 (ix2 k q) else 0)) := by
  unfold out0_C kernelRun0_C
  refine (View.read_writes_cons_unit_of_mem _ _ inb_S8192x128_S8192x128_0_0 _ _ (ix2 s q) (ix2 s q) rfl (fun a => ?_)).trans ?_
  · match a with
    | ⟨0, _⟩ => show s.val = 0 + s.val; omega
    | ⟨1, _⟩ => show q.val = 0 + q.val; omega
  refine (gcPay2_apply _ _).trans (congrArg Cert.Spec.leaky ?_)
  unfold kernelRun0_C.sl.v44 kernelRun0_C.sl.H4_1
  rw [View.readAt_eq_ld]
  refine (congrFun (View.ld_unit_zero (S := S8192x128) gc_hz inb_S8192x128_S8192x128_0_0 _) (ix2 s q)).trans ?_
  exact bandC_val arg2 harg2 arg4 harg4 arg6 harg6 i x0 x2 xo4 j0 hoff2 s q

end Cases

/-! ## The first point -/

/-- An accumulator just cleared reads zero everywhere, whatever it held. -/
theorem clearedP (v : View sig .tc .vmem S8192x128 .f32) (f : v.ty.Contents (Elt Ideal)) (y : S8192x128.Idx) :
    v.read (Elt Ideal) (v.writes (Elt Ideal) f (kernelRun0_A.sl.H3_1 (F := Ideal))) y = 0 := by
  unfold kernelRun0_A.sl.H3_1
  refine (View.read_writes_cons_unit_of_mem v f inb_S8192x128_S8192x128_0_0 _ [] y y rfl (fun a => ?_)).trans (gcPay3_apply y)
  match a with
  | ⟨0, _⟩ => show (y 0).val = 0 + (y 0).val; omega
  | ⟨1, _⟩ => show (y 1).val = 0 + (y 1).val; omega

theorem clearedC (v : View sig .tc .vmem S8192x128 .f32) (f : v.ty.Contents (Elt Ideal)) (y : S8192x128.Idx) :
    v.read (Elt Ideal) (v.writes (Elt Ideal) f (kernelRun0_A.sl.H4_1 (F := Ideal))) y = 0 := by
  unfold kernelRun0_A.sl.H4_1
  refine (View.read_writes_cons_unit_of_mem v f inb_S8192x128_S8192x128_0_0 _ [] y y rfl (fun a => ?_)).trans (gcPay4_apply y)
  match a with
  | ⟨0, _⟩ => show (y 0).val = 0 + (y 0).val; omega
  | ⟨1, _⟩ => show (y 1).val = 0 + (y 1).val; omega

section CaseA
variable (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole)
variable (x0 : Vec Ideal S1024x1024 .f32) (x1 x2 : Vec Ideal S1024x128 .f32)

/-- The first point: cleared, then the band. -/
theorem outA_fst (i0 : ℕ) (hoff1 : k0_off1 i = ![i0 * 1024, 0]) (hc0 : cond0_0 i) (hc1 : ¬cond0_1 i) (r : Fin 8192) (q : Fin 128) :
    (out0_A (F := Ideal) c i arg2 harg2 arg3 harg3 arg4 harg4 arg5 harg5 arg6 harg6 hc0 hc1 x0 x1 x2).1 (ix2 r q)
      = if r.val / 1024 = i0 then 0 + ∑ k : Fin 1024, x0 (ix2 (bandRow r) k) * x1 (ix2 k q) else 0 := by
  unfold out0_A kernelRun0_A
  dsimp only
  by_cases h : r.val / 1024 = i0
  · rw [if_pos h]
    refine (View.read_writes_cons_unit_of_mem _ _ (k0_off1_inb i) _ _ (ix2 r q) (ix2 (bandRow r) q) hoff1 (fun a => ?_)).trans ?_
    · match a with
      | ⟨0, _⟩ => show r.val = i0 * 1024 + r.val % 1024; omega
      | ⟨1, _⟩ => show q.val = 0 + q.val; omega
    refine (gcPay6_apply _ _ _ (bandRow r) q).trans (congrArg₂ (· + ·) ?_ ?_)
    · rw [View.readAt_eq_ld]
      exact clearedP _ _ _
    · refine Finset.sum_congr rfl fun k _ => congrArg₂ (· * ·) ?_ ?_
      · rw [View.readAt_eq_ld, harg2.read_unread]
        exact congrFun (View.ld_unit_zero (S := S1024x1024) gc_hz inb_S1024x1024_S1024x1024_0_0 x0) (ix2 (bandRow r) k)
      · rw [View.readAt_eq_ld, harg3.read_unread]
        exact congrFun (View.ld_unit_zero (S := S1024x128) gc_hz inb_S1024x128_S1024x128_0_0 x1) (ix2 k q)
  · rw [if_neg h]
    refine (View.read_writes_cons_unit_of_not_mem _ _ (k0_off1_inb i) _ _ (ix2 r q) hoff1 0 ?_).trans (clearedP _ _ _)
    show r.val < i0 * 1024 ∨ i0 * 1024 + 1024 ≤ r.val
    omega

theorem outA_snd (j0 : ℕ) (hoff2 : k0_off2 i = ![j0 * 1024, 0]) (hc0 : cond0_0 i) (hc1 : ¬cond0_1 i) (s : Fin 8192) (q : Fin 128) :
    (out0_A (F := Ideal) c i arg2 harg2 arg3 harg3 arg4 harg4 arg5 harg5 arg6 harg6 hc0 hc1 x0 x1 x2).2 (ix2 s q)
      = if s.val / 1024 = j0 then 0 + ∑ k : Fin 1024, x0 (ix2 k (bandRow s)) * x2 (ix2 k q) else 0 := by
  unfold out0_A kernelRun0_A
  dsimp only
  by_cases h : s.val / 1024 = j0
  · rw [if_pos h]
    refine (View.read_writes_cons_unit_of_mem _ _ (k0_off2_inb i) _ _ (ix2 s q) (ix2 (bandRow s) q) hoff2 (fun a => ?_)).trans ?_
    · match a with
      | ⟨0, _⟩ => show s.val = j0 * 1024 + s.val % 1024; omega
      | ⟨1, _⟩ => show q.val = 0 + q.val; omega
    refine (gcPay7_apply _ _ _ (bandRow s) q).trans (congrArg₂ (· + ·) ?_ ?_)
    · rw [View.readAt_eq_ld]
      exact clearedC _ _ _
    · refine Finset.sum_congr rfl fun k _ => congrArg₂ (· * ·) ?_ ?_
      · rw [View.readAt_eq_ld, harg2.read_unread]
        exact congrFun (View.ld_unit_zero (S := S1024x1024) gc_hz inb_S1024x1024_S1024x1024_0_0 x0) (ix2 k (bandRow s))
      · rw [View.readAt_eq_ld, harg4.read_unread]
        exact congrFun (View.ld_unit_zero (S := S1024x128) gc_hz inb_S1024x128_S1024x128_0_0 x2) (ix2 k q)
  · rw [if_neg h]
    refine (View.read_writes_cons_unit_of_not_mem _ _ (k0_off2_inb i) _ _ (ix2 s q) hoff2 0 ?_).trans (clearedC _ _ _)
    show s.val < j0 * 1024 ∨ j0 * 1024 + 1024 ≤ s.val
    omega

end CaseA

end Cert.KernelIdeal.Hand

end
-- ==== Proof.GcMath.lean ====
/-
  The arithmetic of the accumulation, apart from any program.

  The 8192 rows (and the 8192 contraction indices) split into 8 blocks of 1024. The grid's 64 points are visited
  in the order n = 8 i + j. After point n an accumulator's entry in row block b has received the block sums
  B j' of exactly the points (b, j') with 8 b + j' <= n (for the first accumulator), or (i', b) with
  8 i' + b <= n (for the second): an indicator sum. Point n + 1 = 8 i + j adds B j to the entries of row block i
  (resp. B i to those of row block j) and nothing elsewhere; after the last point every indicator holds, and the
  eight block sums together are the sum over all 8192 indices. Sums are the extended reals' (a commutative
  monoid); nothing here needs a finite entry.
-/
import Idealize.ShloMosaic.PureOps.Ideal
import Idealize.ShloMosaic.Lib.ValueIdx

namespace Cert.GcMath

/-- Index k of block j among 8192. -/
def blkIx (j : Fin 8) (k : Fin 1024) : Fin 8192 := ⟨j.val * 1024 + k.val, by have := j.isLt; have := k.isLt; omega⟩

theorem blkIx_val (j : Fin 8) (k : Fin 1024) : (blkIx j k).val = j.val * 1024 + k.val := rfl

/-- The eight blocks of 1024 tile the 8192 indices: a sum block by block is the sum over all. -/
theorem sum_blocks (f : Fin 8192 → EReal) : ∑ j : Fin 8, ∑ k : Fin 1024, f (blkIx j k) = ∑ K : Fin 8192, f K := by
  rw [← Fintype.sum_prod_type']
  refine Fintype.sum_equiv (finProdFinEquiv (m := 8) (n := 1024)) _ _ fun x => congrArg f (Fin.ext ?_)
  show x.1.val * 1024 + x.2.val = ((finProdFinEquiv (m := 8) (n := 1024)) x).val
  rw [finProdFinEquiv_apply_val]
  omega

/-- The points up to n + 1 are the points up to n and the point n + 1. -/
theorem ind_succ (a n : ℕ) (b : EReal) :
    (if a ≤ n + 1 then b else 0) = (if a ≤ n then b else 0) + (if a = n + 1 then b else 0) := by
  by_cases h1 : a ≤ n
  · rw [if_pos h1, if_pos (by omega), if_neg (by omega), add_zero]
  · by_cases h2 : a = n + 1
    · rw [if_neg h1, if_pos h2, if_pos (by omega), zero_add]
    · rw [if_neg h1, if_neg h2, if_neg (by omega), add_zero]

/-- First accumulator, row block b: point n + 1 = 8 i + j adds block sum j when b = i and nothing otherwise. -/
theorem pre_step (B : Fin 8 → EReal) (b n i : ℕ) (j : Fin 8) (hn : n + 1 = i * 8 + j.val) :
    (∑ j' : Fin 8, if b * 8 + j'.val ≤ n + 1 then B j' else 0)
      = (∑ j' : Fin 8, if b * 8 + j'.val ≤ n then B j' else 0) + (if b = i then B j else 0) := by
  simp only [ind_succ, Finset.sum_add_distrib]
  congr 1
  by_cases hbi : b = i
  · rw [if_pos hbi, Finset.sum_eq_single j]
    · rw [if_pos (by omega)]
    · intro j' _ hne
      rw [if_neg]
      intro h
      exact hne (Fin.ext (by omega))
    · intro h; exact absurd (Finset.mem_univ j) h
  · rw [if_neg hbi]
    refine Finset.sum_eq_zero fun j' _ => ?_
    rw [if_neg]
    have := j'.isLt; have := j.isLt
    omega

/-- Second accumulator, row block s: point n + 1 = 8 i + j adds block sum i when s = j and nothing otherwise. -/
theorem cur_step (B : Fin 8 → EReal) (s n j : ℕ) (i : Fin 8) (hs : s < 8) (hj : j < 8) (hn : n + 1 = i.val * 8 + j) :
    (∑ i' : Fin 8, if i'.val * 8 + s ≤ n + 1 then B i' else 0)
      = (∑ i' : Fin 8, if i'.val * 8 + s ≤ n then B i' else 0) + (if s = j then B i else 0) := by
  simp only [ind_succ, Finset.sum_add_distrib]
  congr 1
  by_cases hsj : s = j
  · rw [if_pos hsj, Finset.sum_eq_single i]
    · rw [if_pos (by omega)]
    · intro i' _ hne
      rw [if_neg]
      intro h
      exact hne (Fin.ext (by omega))
    · intro h; exact absurd (Finset.mem_univ i) h
  · rw [if_neg hsj]
    refine Finset.sum_eq_zero fun i' _ => ?_
    rw [if_neg]
    omega

/-- After the first point (n = 0) only row block 0 has received anything: block sum 0. -/
theorem pre_zero (B : Fin 8 → EReal) (b : ℕ) :
    (∑ j' : Fin 8, if b * 8 + j'.val ≤ 0 then B j' else 0) = if b = 0 then B 0 else 0 := by
  by_cases hb : b = 0
  · rw [if_pos hb, Finset.sum_eq_single (0 : Fin 8)]
    · rw [if_pos (by subst hb; simp)]
    · intro j' _ hne
      rw [if_neg]
      intro h
      have hv : j'.val = 0 := by omega
      exact hne (Fin.ext hv)
    · intro h; exact absurd (Finset.mem_univ _) h
  · rw [if_neg hb]
    refine Finset.sum_eq_zero fun j' _ => ?_
    rw [if_neg]
    omega

theorem cur_zero (B : Fin 8 → EReal) (s : ℕ) :
    (∑ i' : Fin 8, if i'.val * 8 + s ≤ 0 then B i' else 0) = if s = 0 then B 0 else 0 := by
  by_cases hs : s = 0
  · rw [if_pos hs, Finset.sum_eq_single (0 : Fin 8)]
    · rw [if_pos (by subst hs; simp)]
    · intro i' _ hne
      rw [if_neg]
      intro h
      have hv : i'.val = 0 := by omega
      exact hne (Fin.ext hv)
    · intro h; exact absurd (Finset.mem_univ _) h
  · rw [if_neg hs]
    refine Finset.sum_eq_zero fun i' _ => ?_
    rw [if_neg]
    omega

/-- After the last point (n = 63) every point has been visited. -/
theorem pre_full (B : Fin 8 → EReal) (b : ℕ) (hb : b < 8) :
    (∑ j' : Fin 8, if b * 8 + j'.val ≤ 63 then B j' else 0) = ∑ j' : Fin 8, B j' :=
  Finset.sum_congr rfl fun j' _ => if_pos (by have := j'.isLt; omega)

theorem cur_full (B : Fin 8 → EReal) (s : ℕ) (hs : s < 8) :
    (∑ i' : Fin 8, if i'.val * 8 + s ≤ 63 then B i' else 0) = ∑ i' : Fin 8, B i' :=
  Finset.sum_congr rfl fun i' _ => if_pos (by have := i'.isLt; omega)

end Cert.GcMath
-- ==== Proof.GcValue0.lean ====
/-
  Region 0 over the extended reals: after its 64 points the two accumulators hold
      leaky (adj * cw)      and      leaky (adj^T * pw),
  entry by entry, of the three arrays as the region finds them.

  The points are visited in the order n = 8 i + j. Write B r q j for the sum over the 1024 indices k of
  contraction block j of adj(r, k) cw(k, q). By induction on n < 63, after point n the first accumulator's
  entry (r, q) is the sum of B r q j' over the blocks j' with 8 (r / 1024) + j' <= n (and likewise for the
  second accumulator, whose row block is the point's second coordinate): point n + 1 adds one block sum to the
  rows of its band and nothing elsewhere. The last point adds the last block sum and rectifies; by then every
  block has been added, and the eight block sums are the sum over all 8192 indices. Only the last point
  writes the accumulators back, whole, so the arrays after the region are these.
-/
import proofs.«154085_j15066745274644_1_alg».proof.Proof.GcRead0
import proofs.«154085_j15066745274644_1_alg».proof.Proof.GcMath

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.GcMath

/-- The block sums of the two products: contraction block j of row r of adj against column q of cw; and
    contraction block i of column s of adj against column q of pw. -/
def blockP (A : Cert.Spec.Adj) (CW : Cert.Spec.Feat) (r : Fin 8192) (q : Fin 128) (j : Fin 8) : EReal :=
  ∑ k : Fin 1024, A (ix2 r (blkIx j k)) * CW (ix2 (blkIx j k) q)
def blockC (A : Cert.Spec.Adj) (PW : Cert.Spec.Feat) (s : Fin 8192) (q : Fin 128) (i : Fin 8) : EReal :=
  ∑ k : Fin 1024, A (ix2 (blkIx i k) s) * PW (ix2 (blkIx i k) q)

/-- All eight block sums together are the whole contraction. -/
theorem blockP_total (A : Cert.Spec.Adj) (CW : Cert.Spec.Feat) (r : Fin 8192) (q : Fin 128) :
    ∑ j : Fin 8, blockP A CW r q j = ∑ K : Fin 8192, A (ix2 r K) * CW (ix2 K q) :=
  sum_blocks fun K => A (ix2 r K) * CW (ix2 K q)
theorem blockC_total (A : Cert.Spec.Adj) (PW : Cert.Spec.Feat) (s : Fin 8192) (q : Fin 128) :
    ∑ i : Fin 8, blockC A PW s q i = ∑ K : Fin 8192, A (ix2 K s) * PW (ix2 K q) :=
  sum_blocks fun K => A (ix2 K s) * PW (ix2 K q)

/-! ## The schedule, decided over the 64 points -/

theorem gc0_facts : ∀ t : Fin cfg0.N,
    k0_off1 (grid0.coords t) 0 = t.val / 8 * 1024 ∧ k0_off1 (grid0.coords t) 1 = 0
    ∧ k0_off2 (grid0.coords t) 0 = t.val % 8 * 1024 ∧ k0_off2 (grid0.coords t) 1 = 0
    ∧ win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem gc0_off1 (t : Fin cfg0.N) : k0_off1 (grid0.coords t) = ![t.val / 8 * 1024, 0] := by
  obtain ⟨h0, h1, -⟩ := gc0_facts t
  funext a
  match a with
  | ⟨0, _⟩ => exact h0
  | ⟨1, _⟩ => exact h1
theorem gc0_off2 (t : Fin cfg0.N) : k0_off2 (grid0.coords t) = ![t.val % 8 * 1024, 0] := by
  obtain ⟨-, -, h0, h1, -⟩ := gc0_facts t
  funext a
  match a with
  | ⟨0, _⟩ => exact h0
  | ⟨1, _⟩ => exact h1

theorem gc0_N : cfg0.N = 64 := N_0

/-- The point's two coordinates as block numbers. -/
def ptI0 (t : Fin cfg0.N) : Fin 8 := ⟨t.val / 8, by have : t.val < 64 := lt_of_lt_of_eq t.isLt gc0_N; omega⟩
def ptJ0 (t : Fin cfg0.N) : Fin 8 := ⟨t.val % 8, Nat.mod_lt _ (by decide)⟩

variable (V : (c : Dev nD) → (b : Ref sig .tc) → Buf (Elt Ideal) ((c : Thread nD τ).loc b))

/-! ## The input blocks as rectangles of their arrays -/

theorem iblk0_0_apply (c : Dev nD) (t : Fin cfg0.N) (y : S1024x1024.Idx) (i : S8192x8192.Idx)
    (h0 : (i 0).val = win0_0.index t (0 : Fin 2) * 1024 + 1 * (y 0).val) (h1 : (i 1).val = win0_0.index t (1 : Fin 2) * 1024 + 1 * (y 1).val) :
    (iblk0 V c 0 t : Vec Ideal S1024x1024 .f32) y = (V c (Pipeline.arrRef spec0 0) : S8192x8192.Idx → EReal) i := by
  show V c (Pipeline.arrRef spec0 0) (((cfg0.win 0).blk t).view.emb y) = V c (Pipeline.arrRef spec0 0) i
  refine congrArg _ (funext fun a => Fin.ext ?_)
  match a with
  | ⟨0, _⟩ => exact h0.symm
  | ⟨1, _⟩ => exact h1.symm

theorem iblk0_1_apply (c : Dev nD) (t : Fin cfg0.N) (y : S1024x128.Idx) (i : S8192x128.Idx)
    (h0 : (i 0).val = win0_1.index t (0 : Fin 2) * 1024 + 1 * (y 0).val) (h1 : (i 1).val = win0_1.index t (1 : Fin 2) * 128 + 1 * (y 1).val) :
    (iblk0 V c 1 t : Vec Ideal S1024x128 .f32) y = (V c (Pipeline.arrRef spec0 1) : S8192x128.Idx → EReal) i := by
  show V c (Pipeline.arrRef spec0 1) (((cfg0.win 1).blk t).view.emb y) = V c (Pipeline.arrRef spec0 1) i
  refine congrArg _ (funext fun a => Fin.ext ?_)
  match a with
  | ⟨0, _⟩ => exact h0.symm
  | ⟨1, _⟩ => exact h1.symm

theorem iblk0_2_apply (c : Dev nD) (t : Fin cfg0.N) (y : S1024x128.Idx) (i : S8192x128.Idx)
    (h0 : (i 0).val = win0_2.index t (0 : Fin 2) * 1024 + 1 * (y 0).val) (h1 : (i 1).val = win0_2.index t (1 : Fin 2) * 128 + 1 * (y 1).val) :
    (iblk0 V c 2 t : Vec Ideal S1024x128 .f32) y = (V c (Pipeline.arrRef spec0 2) : S8192x128.Idx → EReal) i := by
  show V c (Pipeline.arrRef spec0 2) (((cfg0.win 2).blk t).view.emb y) = V c (Pipeline.arrRef spec0 2) i
  refine congrArg _ (funext fun a => Fin.ext ?_)
  match a with
  | ⟨0, _⟩ => exact h0.symm
  | ⟨1, _⟩ => exact h1.symm

/-- At point t the product the first band receives, at a row r of the band, is block sum t mod 8 of row r. -/
theorem ptP0 (c : Dev nD) (t : Fin cfg0.N) (x0 : Vec Ideal S1024x1024 .f32) (x1 : Vec Ideal S1024x128 .f32)
    (hx0 : x0 = iblk0 V c 0 t) (hx1 : x1 = iblk0 V c 1 t) (r : Fin 8192) (q : Fin 128) (h : r.val / 1024 = t.val / 8) :
    ∑ k : Fin 1024, x0 (ix2 (bandRow r) k) * x1 (ix2 k q)
      = blockP (V c (Pipeline.arrRef spec0 0)) (V c (Pipeline.arrRef spec0 1)) r q (ptJ0 t) := by
  subst hx0 hx1
  obtain ⟨-, -, -, -, e00, e01, e10, e11, -⟩ := gc0_facts t
  unfold blockP
  refine Finset.sum_congr rfl fun k _ => congrArg₂ (· * ·) ?_ ?_
  · refine iblk0_0_apply V c t (ix2 (bandRow r) k) (ix2 r (blkIx (ptJ0 t) k)) ?_ ?_
    · show r.val = win0_0.index t (0 : Fin 2) * 1024 + 1 * (r.val % 1024)
      rw [e00]; omega
    · show (ptJ0 t).val * 1024 + k.val = win0_0.index t (1 : Fin 2) * 1024 + 1 * k.val
      rw [e01]; show t.val % 8 * 1024 + k.val = _; omega
  · refine iblk0_1_apply V c t (ix2 k q) (ix2 (blkIx (ptJ0 t) k) q) ?_ ?_
    · show (ptJ0 t).val * 1024 + k.val = win0_1.index t (0 : Fin 2) * 1024 + 1 * k.val
      rw [e10]; show t.val % 8 * 1024 + k.val = _; omega
    · show q.val = win0_1.index t (1 : Fin 2) * 128 + 1 * q.val
      rw [e11]; omega

/-- At point t the product the second band receives, at a row s of the band, is block sum t / 8 of column s. -/
theorem ptC0 (c : Dev nD) (t : Fin cfg0.N) (x0 : Vec Ideal S1024x1024 .f32) (x2 : Vec Ideal S1024x128 .f32)
    (hx0 : x0 = iblk0 V c 0 t) (hx2 : x2 = iblk0 V c 2 t) (s : Fin 8192) (q : Fin 128) (h : s.val / 1024 = t.val % 8) :
    ∑ k : Fin 1024, x0 (ix2 k (bandRow s)) * x2 (ix2 k q)
      = blockC (V c (Pipeline.arrRef spec0 0)) (V c (Pipeline.arrRef spec0 2)) s q (ptI0 t) := by
  subst hx0 hx2
  obtain ⟨-, -, -, -, e00, e01, -, -, e20, e21, -⟩ := gc0_facts t
  unfold blockC
  refine Finset.sum_congr rfl fun k _ => congrArg₂ (· * ·) ?_ ?_
  · refine iblk0_0_apply V c t (ix2 k (bandRow s)) (ix2 (blkIx (ptI0 t) k) s) ?_ ?_
    · show (ptI0 t).val * 1024 + k.val = win0_0.index t (0 : Fin 2) * 1024 + 1 * k.val
      rw [e00]; show t.val / 8 * 1024 + k.val = _; omega
    · show s.val = win0_0.index t (1 : Fin 2) * 1024 + 1 * (s.val % 1024)
      rw [e01]; omega
  · refine iblk0_2_apply V c t (ix2 k q) (ix2 (blkIx (ptI0 t) k) q) ?_ ?_
    · show (ptI0 t).val * 1024 + k.val = win0_2.index t (0 : Fin 2) * 1024 + 1 * k.val
      rw [e20]; show t.val / 8 * 1024 + k.val = _; omega
    · show q.val = win0_2.index t (1 : Fin 2) * 128 + 1 * q.val
      rw [e21]; omega

/-- The band's contribution with the block sum named. -/
theorem ptP0_ite (c : Dev nD) (t : Fin cfg0.N) (x0 : Vec Ideal S1024x1024 .f32) (x1 : Vec Ideal S1024x128 .f32)
    (hx0 : x0 = iblk0 V c 0 t) (hx1 : x1 = iblk0 V c 1 t) (r : Fin 8192) (q : Fin 128) :
    (if r.val / 1024 = t.val / 8 then ∑ k : Fin 1024, x0 (ix2 (bandRow r) k) * x1 (ix2 k q) else 0)
      = if r.val / 1024 = t.val / 8 then blockP (V c (Pipeline.arrRef spec0 0)) (V c (Pipeline.arrRef spec0 1)) r q (ptJ0 t) else 0 := by
  by_cases h : r.val / 1024 = t.val / 8
  · rw [if_pos h, if_pos h, ptP0 V c t x0 x1 hx0 hx1 r q h]
  · rw [if_neg h, if_neg h]
theorem ptC0_ite (c : Dev nD) (t : Fin cfg0.N) (x0 : Vec Ideal S1024x1024 .f32) (x2 : Vec Ideal S1024x128 .f32)
    (hx0 : x0 = iblk0 V c 0 t) (hx2 : x2 = iblk0 V c 2 t) (s : Fin 8192) (q : Fin 128) :
    (if s.val / 1024 = t.val % 8 then ∑ k : Fin 1024, x0 (ix2 k (bandRow s)) * x2 (ix2 k q) else 0)
      = if s.val / 1024 = t.val % 8 then blockC (V c (Pipeline.arrRef spec0 0)) (V c (Pipeline.arrRef spec0 2)) s q (ptI0 t) else 0 := by
  by_cases h : s.val / 1024 = t.val % 8
  · rw [if_pos h, if_pos h, ptC0 V c t x0 x2 hx0 hx2 s q h]
  · rw [if_neg h, if_neg h]

-- the accumulation is used below only through its three case equations; it is never unfolded
attribute [local irreducible] outsAt0

/-! ## One point, at a symbolic point of the grid -/

set_option maxHeartbeats 1000000 in
theorem stepA_fst (c : Dev nD) (t : Fin cfg0.N) (h0 : t.val = 0) (r : Fin 8192) (q : Fin 128) :
    (outsAt0 (F := Ideal) V c t.val t.isLt).1 (ix2 r q)
      = if r.val / 1024 = 0 then blockP (V c (Pipeline.arrRef spec0 0)) (V c (Pipeline.arrRef spec0 1)) r q 0 else 0 := by
  have e8 : t.val / 8 = 0 := by rw [h0]
  have eJ : ptJ0 t = 0 := Fin.ext (by show t.val % 8 = 0; rw [h0])
  rw [outsAt0_A V c t h0]
  refine (outA_fst c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (t.val / 8) (gc0_off1 t) _ _ r q).trans ?_
  by_cases h : r.val / 1024 = 0
  · rw [if_pos (h.trans e8.symm), if_pos h, zero_add, ptP0 V c t (iblk0 V c 0 t) (iblk0 V c 1 t) rfl rfl r q (h.trans e8.symm), eJ]
  · rw [if_neg (fun h' => h (h'.trans e8)), if_neg h]

set_option maxHeartbeats 1000000 in
theorem stepA_snd (c : Dev nD) (t : Fin cfg0.N) (h0 : t.val = 0) (s : Fin 8192) (q : Fin 128) :
    (outsAt0 (F := Ideal) V c t.val t.isLt).2 (ix2 s q)
      = if s.val / 1024 = 0 then blockC (V c (Pipeline.arrRef spec0 0)) (V c (Pipeline.arrRef spec0 2)) s q 0 else 0 := by
  have e8 : t.val % 8 = 0 := by rw [h0]
  have eI : ptI0 t = 0 := Fin.ext (by show t.val / 8 = 0; rw [h0])
  rw [outsAt0_A V c t h0]
  refine (outA_snd c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (t.val % 8) (gc0_off2 t) _ _ s q).trans ?_
  by_cases h : s.val / 1024 = 0
  · rw [if_pos (h.trans e8.symm), if_pos h, zero_add, ptC0 V c t (iblk0 V c 0 t) (iblk0 V c 2 t) rfl rfl s q (h.trans e8.symm), eI]
  · rw [if_neg (fun h' => h (h'.trans e8)), if_neg h]

set_option maxHeartbeats 1000000 in
theorem stepB_fst (c : Dev nD) (t : Fin cfg0.N) (h0 : t.val ≠ 0) (h1 : t.val ≠ 63) (r : Fin 8192) (q : Fin 128) :
    (outsAt0 (F := Ideal) V c t.val t.isLt).1 (ix2 r q)
      = (outsAt0 (F := Ideal) V c (t.val - 1) (Nat.lt_of_le_of_lt (Nat.sub_le _ _) t.isLt)).1 (ix2 r q) + (if r.val / 1024 = t.val / 8 then blockP (V c (Pipeline.arrRef spec0 0)) (V c (Pipeline.arrRef spec0 1)) r q (ptJ0 t) else 0) := by
  rw [outsAt0_B V c t h0 h1]
  refine (outB_fst c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (t.val / 8) (gc0_off1 t) _ _ _ _ r q).trans ?_
  rw [ptP0_ite V c t (iblk0 V c 0 t) (iblk0 V c 1 t) rfl rfl r q]

set_option maxHeartbeats 1000000 in
theorem stepB_snd (c : Dev nD) (t : Fin cfg0.N) (h0 : t.val ≠ 0) (h1 : t.val ≠ 63) (s : Fin 8192) (q : Fin 128) :
    (outsAt0 (F := Ideal) V c t.val t.isLt).2 (ix2 s q)
      = (outsAt0 (F := Ideal) V c (t.val - 1) (Nat.lt_of_le_of_lt (Nat.sub_le _ _) t.isLt)).2 (ix2 s q) + (if s.val / 1024 = t.val % 8 then blockC (V c (Pipeline.arrRef spec0 0)) (V c (Pipeline.arrRef spec0 2)) s q (ptI0 t) else 0) := by
  rw [outsAt0_B V c t h0 h1]
  refine (outB_snd c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (t.val % 8) (gc0_off2 t) _ _ _ _ s q).trans ?_
  rw [ptC0_ite V c t (iblk0 V c 0 t) (iblk0 V c 2 t) rfl rfl s q]

set_option maxHeartbeats 1000000 in
theorem stepC_fst (c : Dev nD) (t : Fin cfg0.N) (h0 : t.val ≠ 0) (h1 : t.val = 63) (r : Fin 8192) (q : Fin 128) :
    (outsAt0 (F := Ideal) V c t.val t.isLt).1 (ix2 r q)
      = Cert.Spec.leaky ((outsAt0 (F := Ideal) V c (t.val - 1) (Nat.lt_of_le_of_lt (Nat.sub_le _ _) t.isLt)).1 (ix2 r q) + (if r.val / 1024 = t.val / 8 then blockP (V c (Pipeline.arrRef spec0 0)) (V c (Pipeline.arrRef spec0 1)) r q (ptJ0 t) else 0)) := by
  rw [outsAt0_C V c t h0 h1]
  refine (outC_fst c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (t.val / 8) (gc0_off1 t) _ _ _ _ r q).trans ?_
  rw [ptP0_ite V c t (iblk0 V c 0 t) (iblk0 V c 1 t) rfl rfl r q]

set_option maxHeartbeats 1000000 in
theorem stepC_snd (c : Dev nD) (t : Fin cfg0.N) (h0 : t.val ≠ 0) (h1 : t.val = 63) (s : Fin 8192) (q : Fin 128) :
    (outsAt0 (F := Ideal) V c t.val t.isLt).2 (ix2 s q)
      = Cert.Spec.leaky ((outsAt0 (F := Ideal) V c (t.val - 1) (Nat.lt_of_le_of_lt (Nat.sub_le _ _) t.isLt)).2 (ix2 s q) + (if s.val / 1024 = t.val % 8 then blockC (V c (Pipeline.arrRef spec0 0)) (V c (Pipeline.arrRef spec0 2)) s q (ptI0 t) else 0)) := by
  rw [outsAt0_C V c t h0 h1]
  refine (outC_snd c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (t.val % 8) (gc0_off2 t) _ _ _ _ s q).trans ?_
  rw [ptC0_ite V c t (iblk0 V c 0 t) (iblk0 V c 2 t) rfl rfl s q]

/-! ## The accumulation, by induction on the point -/

/-- After point n < 63 the accumulators hold the block sums of the points visited so far. -/
theorem acc0_inv (c : Dev nD) : ∀ (n : ℕ) (hn : n < cfg0.N), n < 63 → ∀ (r : Fin 8192) (q : Fin 128),
    (outsAt0 (F := Ideal) V c n hn).1 (ix2 r q)
        = (∑ j' : Fin 8, if r.val / 1024 * 8 + j'.val ≤ n then blockP (V c (Pipeline.arrRef spec0 0)) (V c (Pipeline.arrRef spec0 1)) r q j' else 0)
    ∧ (outsAt0 (F := Ideal) V c n hn).2 (ix2 r q)
        = (∑ i' : Fin 8, if i'.val * 8 + r.val / 1024 ≤ n then blockC (V c (Pipeline.arrRef spec0 0)) (V c (Pipeline.arrRef spec0 2)) r q i' else 0)
  | 0, hn, _, r, q => by
    constructor
    · exact (stepA_fst V c ⟨0, hn⟩ rfl r q).trans (pre_zero _ _).symm
    · exact (stepA_snd V c ⟨0, hn⟩ rfl r q).trans (cur_zero _ _).symm
  | n + 1, hn, h63, r, q => by
    have hN : n + 1 < 64 := lt_of_lt_of_eq hn gc0_N
    have ih := acc0_inv c n (Nat.lt_of_succ_lt hn) (by omega) r q
    constructor
    · refine (stepB_fst V c ⟨n + 1, hn⟩ (Nat.succ_ne_zero n) (by show n + 1 ≠ 63; omega) r q).trans ?_
      exact (congrArg₂ (· + ·) ih.1 rfl).trans
        (pre_step _ (r.val / 1024) n ((n + 1) / 8) (ptJ0 ⟨n + 1, hn⟩) (by show n + 1 = (n + 1) / 8 * 8 + (n + 1) % 8; omega)).symm
    · refine (stepB_snd V c ⟨n + 1, hn⟩ (Nat.succ_ne_zero n) (by show n + 1 ≠ 63; omega) r q).trans ?_
      exact (congrArg₂ (· + ·) ih.2 rfl).trans
        (cur_step _ (r.val / 1024) n ((n + 1) % 8) (ptI0 ⟨n + 1, hn⟩) (by have := r.isLt; omega) (by omega)
          (by show n + 1 = (n + 1) / 8 * 8 + (n + 1) % 8; omega)).symm

/-- After the last point: the rectified products. (Stated at a symbolic point t with t = 63.) -/
theorem acc0_last (c : Dev nD) (t : Fin cfg0.N) (h63 : t.val = 63) :
    (outsAt0 (F := Ideal) V c t.val t.isLt).1 = Cert.Spec.gcPre (V c (Pipeline.arrRef spec0 0)) (V c (Pipeline.arrRef spec0 1))
    ∧ (outsAt0 (F := Ideal) V c t.val t.isLt).2 = Cert.Spec.gcCur (V c (Pipeline.arrRef spec0 0)) (V c (Pipeline.arrRef spec0 2)) := by
  have hlt : t.val - 1 < cfg0.N := Nat.lt_of_le_of_lt (Nat.sub_le _ _) t.isLt
  have e1 : t.val - 1 + 1 = t.val / 8 * 8 + t.val % 8 := by omega
  have e63 : t.val - 1 + 1 = 63 := by omega
  constructor
  · funext y
    obtain ⟨r, q, rfl⟩ : ∃ (r : Fin 8192) (q : Fin 128), y = ix2 r q := ⟨y 0, y 1, eq_ix2 y⟩
    have hb : r.val / 1024 < 8 := by have := r.isLt; omega
    have ih := (acc0_inv V c (t.val - 1) hlt (by omega) r q).1
    have hstep := pre_step (blockP (V c (Pipeline.arrRef spec0 0)) (V c (Pipeline.arrRef spec0 1)) r q) (r.val / 1024) (t.val - 1) (t.val / 8) (ptJ0 t) e1
    rw [e63] at hstep
    have hfull := (pre_full (blockP (V c (Pipeline.arrRef spec0 0)) (V c (Pipeline.arrRef spec0 1)) r q) (r.val / 1024) hb).trans (blockP_total (V c (Pipeline.arrRef spec0 0)) (V c (Pipeline.arrRef spec0 1)) r q)
    refine (stepC_fst V c t (by omega) h63 r q).trans ?_
    show Cert.Spec.leaky _ = Cert.Spec.leaky _
    exact congrArg Cert.Spec.leaky (((congrArg₂ (· + ·) ih rfl).trans hstep.symm).trans hfull)
  · funext y
    obtain ⟨s, q, rfl⟩ : ∃ (s : Fin 8192) (q : Fin 128), y = ix2 s q := ⟨y 0, y 1, eq_ix2 y⟩
    have hb : s.val / 1024 < 8 := by have := s.isLt; omega
    have ih := (acc0_inv V c (t.val - 1) hlt (by omega) s q).2
    have hstep := cur_step (blockC (V c (Pipeline.arrRef spec0 0)) (V c (Pipeline.arrRef spec0 2)) s q) (s.val / 1024) (t.val - 1) (t.val % 8) (ptI0 t) hb (by omega) e1
    rw [e63] at hstep
    have hfull := (cur_full (blockC (V c (Pipeline.arrRef spec0 0)) (V c (Pipeline.arrRef spec0 2)) s q) (s.val / 1024) hb).trans (blockC_total (V c (Pipeline.arrRef spec0 0)) (V c (Pipeline.arrRef spec0 2)) s q)
    refine (stepC_snd V c t (by omega) h63 s q).trans ?_
    show Cert.Spec.leaky _ = Cert.Spec.leaky _
    exact congrArg Cert.Spec.leaky (((congrArg₂ (· + ·) ih rfl).trans hstep.symm).trans hfull)

/-! ## The arrays after the region -/

/-- An accumulator's block is its whole array: the block's index of (r, q) is (r, q). -/
theorem gc0_emb3 (t : Fin cfg0.N) (r : Fin 8192) (q : Fin 128) : ((cfg0.win 3).blk t).view.emb (ix2 r q) = ix2 r q := by
  obtain ⟨-, -, -, -, -, -, -, -, -, -, e30, e31, -⟩ := gc0_facts t
  refine funext fun a => Fin.ext ?_
  match a with
  | ⟨0, _⟩ => show win0_3.index t (0 : Fin 2) * 8192 + 1 * r.val = r.val; rw [e30]; omega
  | ⟨1, _⟩ => show win0_3.index t (1 : Fin 2) * 128 + 1 * q.val = q.val; rw [e31]; omega
theorem gc0_emb4 (t : Fin cfg0.N) (r : Fin 8192) (q : Fin 128) : ((cfg0.win 4).blk t).view.emb (ix2 r q) = ix2 r q := by
  obtain ⟨-, -, -, -, -, -, -, -, -, -, -, -, e40, e41⟩ := gc0_facts t
  refine funext fun a => Fin.ext ?_
  match a with
  | ⟨0, _⟩ => show win0_4.index t (0 : Fin 2) * 8192 + 1 * r.val = r.val; rw [e40]; omega
  | ⟨1, _⟩ => show win0_4.index t (1 : Fin 2) * 128 + 1 * q.val = q.val; rw [e41]; omega

/-- What the one write-back (at the last point) writes is the rectified product, whole. -/
theorem gc0_flushed3 (c : Dev nD) (t : Fin cfg0.N) (ht : (cfg0.win 3).flush t = true) :
    (dat0 V c).flushed 3 t = ((cfg0.win 3).blk t).view.read (Elt Ideal)
      (Cert.Spec.gcPre (V c (Pipeline.arrRef spec0 0)) (V c (Pipeline.arrRef spec0 1))) := by
  have hN : t.val < 64 := lt_of_lt_of_eq t.isLt gc0_N
  have h63 : t.val = 63 := by have := (flush0_3 t).mp ht; omega
  show (cfg0.win 3).cut (grid0.coords t) ((dat0 V c).after 3 t) = _
  rw [after0_3]
  funext j
  obtain ⟨r, q, rfl⟩ : ∃ (r : Fin 8192) (q : Fin 128), j = ix2 r q := ⟨j 0, j 1, eq_ix2 j⟩
  show (outsAt0 V c t.val t.isLt).1 (ix2 r q)
    = Cert.Spec.gcPre (V c (Pipeline.arrRef spec0 0)) (V c (Pipeline.arrRef spec0 1)) (((cfg0.win 3).blk t).view.emb (ix2 r q))
  rw [gc0_emb3 t r q]
  exact congrFun (acc0_last V c t h63).1 (ix2 r q)

theorem gc0_flushed4 (c : Dev nD) (t : Fin cfg0.N) (ht : (cfg0.win 4).flush t = true) :
    (dat0 V c).flushed 4 t = ((cfg0.win 4).blk t).view.read (Elt Ideal)
      (Cert.Spec.gcCur (V c (Pipeline.arrRef spec0 0)) (V c (Pipeline.arrRef spec0 2))) := by
  have hN : t.val < 64 := lt_of_lt_of_eq t.isLt gc0_N
  have h63 : t.val = 63 := by have := (flush0_4 t).mp ht; omega
  show (cfg0.win 4).cut (grid0.coords t) ((dat0 V c).after 4 t) = _
  rw [after0_4]
  funext j
  obtain ⟨r, q, rfl⟩ : ∃ (r : Fin 8192) (q : Fin 128), j = ix2 r q := ⟨j 0, j 1, eq_ix2 j⟩
  show (outsAt0 V c t.val t.isLt).2 (ix2 r q)
    = Cert.Spec.gcCur (V c (Pipeline.arrRef spec0 0)) (V c (Pipeline.arrRef spec0 2)) (((cfg0.win 4).blk t).view.emb (ix2 r q))
  rw [gc0_emb4 t r q]
  exact congrFun (acc0_last V c t h63).2 (ix2 r q)

theorem gc0_mem3 (t : Fin cfg0.N) (i : S8192x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole (Pipeline.arrRef spec0 3)).slice (win0_3.rect t)).set ↔ _
  rw [View.set_slice_whole, Rect.mem_set_unit]
  exact Iff.rfl
theorem gc0_mem4 (t : Fin cfg0.N) (i : S8192x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole (Pipeline.arrRef spec0 4)).slice (win0_4.rect t)).set ↔ _
  rw [View.set_slice_whole, Rect.mem_set_unit]
  exact Iff.rfl

/-- The last point's block is the whole array. -/
theorem gc0_cover3 (i : S8192x128.Idx) : ∃ t : Fin cfg0.N, (cfg0.win 3).flush t = true ∧ i ∈ ((cfg0.win 3).blk t).view.set := by
  have h63 : 63 < cfg0.N := by rw [gc0_N]; decide
  refine ⟨⟨63, h63⟩, (flush0_3 _).mpr (by show (63 : ℕ) % 64 = 63; decide), ?_⟩
  obtain ⟨-, -, -, -, -, -, -, -, -, -, e30, e31, -⟩ := gc0_facts ⟨63, h63⟩
  rw [gc0_mem3]
  intro a
  match a with
  | ⟨0, _⟩ => show win0_3.index ⟨63, h63⟩ (0 : Fin 2) * 8192 ≤ (i 0).val ∧ (i 0).val < win0_3.index ⟨63, h63⟩ (0 : Fin 2) * 8192 + 8192
              have hi : (i 0).val < 8192 := (i 0).isLt; rw [e30]; omega
  | ⟨1, _⟩ => show win0_3.index ⟨63, h63⟩ (1 : Fin 2) * 128 ≤ (i 1).val ∧ (i 1).val < win0_3.index ⟨63, h63⟩ (1 : Fin 2) * 128 + 128
              have hi : (i 1).val < 128 := (i 1).isLt; rw [e31]; omega
theorem gc0_cover4 (i : S8192x128.Idx) : ∃ t : Fin cfg0.N, (cfg0.win 4).flush t = true ∧ i ∈ ((cfg0.win 4).blk t).view.set := by
  have h63 : 63 < cfg0.N := by rw [gc0_N]; decide
  refine ⟨⟨63, h63⟩, (flush0_4 _).mpr (by show (63 : ℕ) % 64 = 63; decide), ?_⟩
  obtain ⟨-, -, -, -, -, -, -, -, -, -, -, -, e40, e41⟩ := gc0_facts ⟨63, h63⟩
  rw [gc0_mem4]
  intro a
  match a with
  | ⟨0, _⟩ => show win0_4.index ⟨63, h63⟩ (0 : Fin 2) * 8192 ≤ (i 0).val ∧ (i 0).val < win0_4.index ⟨63, h63⟩ (0 : Fin 2) * 8192 + 8192
              have hi : (i 0).val < 8192 := (i 0).isLt; rw [e40]; omega
  | ⟨1, _⟩ => show win0_4.index ⟨63, h63⟩ (1 : Fin 2) * 128 ≤ (i 1).val ∧ (i 1).val < win0_4.index ⟨63, h63⟩ (1 : Fin 2) * 128 + 128
              have hi : (i 1).val < 128 := (i 1).isLt; rw [e41]; omega

/-- THE FIRST OUTPUT ARRAY AFTER REGION 0: leaky (adj * cw). -/
theorem arrAt_gc0_3 (c : Dev nD) : (dat0 (F := Ideal) V c).arrAt 3 cfg0.N
    = Cert.Spec.gcPre (V c (Pipeline.arrRef spec0 0)) (V c (Pipeline.arrRef spec0 1)) :=
  (dat0 V c).arrAt_eq_of_cover 3 _ (fun t ht => gc0_flushed3 V c t ht) gc0_cover3

/-- THE SECOND OUTPUT ARRAY AFTER REGION 0: leaky (adj^T * pw). -/
theorem arrAt_gc0_4 (c : Dev nD) : (dat0 (F := Ideal) V c).arrAt 4 cfg0.N
    = Cert.Spec.gcCur (V c (Pipeline.arrRef spec0 0)) (V c (Pipeline.arrRef spec0 2)) :=
  (dat0 V c).arrAt_eq_of_cover 4 _ (fun t ht => gc0_flushed4 V c t ht) gc0_cover4

end Cert.KernelIdeal.Hand

end
-- ==== Proof.GcRead2.lean ====
/-
  Region 2's accumulators after one grid point, entry by entry, over the extended reals.

  A band store of 1024 rows over what an accumulator held leaves, at row r and column q: in the band (r / 1024
  is the band's number), what was there plus the point's product at the row's position r mod 1024 within the
  band; outside the band, what was there. At the first point the accumulator was cleared first, so "what was
  there" is zero; at the last point the whole accumulator is then replaced by its leaky rectification.
-/
import proofs.«154085_j15066745274644_1_alg».proof.Proof.KI.Gc2
import proofs.«154085_j15066745274644_1_alg».proof.Proof.GcRead0
import proofs.«154085_j15066745274644_1_alg».proof.Proof.GcPay
import Idealize.ShloMosaic.Lib.Pipeline.Value
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## A band written over what the first accumulator held -/

theorem bandP2_in (arg2 : Memref sig .tc .vmem S1024x1024 .f32) (harg2 : arg2.IsWhole) (arg3 : Memref sig .tc .vmem S1024x128 .f32) (harg3 : arg3.IsWhole) (arg5 : Memref sig .tc .vmem S8192x128 .f32) (harg5 : arg5.IsWhole) (i : grid2.Coords)
    (x0 : Vec Ideal S1024x1024 .f32) (x1 : Vec Ideal S1024x128 .f32) (xo3 : Vec Ideal S8192x128 .f32) (I : ℕ) (hoff : k2_off1 i = ![I, 0])
    (y : S8192x128.Idx) (p : Fin 1024) (q : Fin 128) (h0 : (y 0).val = I + p.val) (h1 : (y 1).val = q.val) :
    arg5.view.read (Elt Ideal) (arg5.view.writes (Elt Ideal) (harg5.unread xo3) [⟨Rect.unit (s := S8192x128) (k2_off1 i) S1024x128.size (k2_off1_inb i),
        k2_pay6 (View.readAt (Elt Ideal) arg2.view (Rect.unit ![0, 0] S1024x1024.size inb_S1024x1024_S1024x1024_0_0).toLoadRect (harg2.unread x0))
          (View.readAt (Elt Ideal) arg3.view (Rect.unit ![0, 0] S1024x128.size inb_S1024x128_S1024x128_0_0).toLoadRect (harg3.unread x1))
          (View.readAt (Elt Ideal) arg5.view (Rect.unit (s := S8192x128) (k2_off1 i) S1024x128.size (k2_off1_inb i)).toLoadRect (harg5.unread xo3))⟩]) y
      = xo3 y + ∑ k : Fin 1024, x0 (ix2 p k) * x1 (ix2 k q) := by
  refine (View.read_writes_cons_unit_of_mem _ _ (k2_off1_inb i) _ [] y (ix2 p q) hoff (fun a => ?_)).trans ?_
  · match a with
    | ⟨0, _⟩ => exact h0
    | ⟨1, _⟩ => show (y 1).val = 0 + q.val; omega
  refine (gcPay6_apply2 _ _ _ p q).trans ?_
  refine congrArg₂ (· + ·) ?_ (Finset.sum_congr rfl fun k _ => congrArg₂ (· * ·) ?_ ?_)
  · rw [View.readAt_eq_ld, harg5.read_unread]
    refine congrArg xo3 (funext fun a => Fin.ext ?_)
    match a with
    | ⟨0, _⟩ => show k2_off1 i 0 + 1 * p.val = (y 0).val; rw [hoff]; show I + 1 * p.val = (y 0).val; omega
    | ⟨1, _⟩ => show k2_off1 i 1 + 1 * q.val = (y 1).val; rw [hoff]; show 0 + 1 * q.val = (y 1).val; omega
  · rw [View.readAt_eq_ld, harg2.read_unread]
    exact congrFun (View.ld_unit_zero (S := S1024x1024) gc_hz inb_S1024x1024_S1024x1024_0_0 x0) (ix2 p k)
  · rw [View.readAt_eq_ld, harg3.read_unread]
    exact congrFun (View.ld_unit_zero (S := S1024x128) gc_hz inb_S1024x128_S1024x128_0_0 x1) (ix2 k q)

theorem bandP2_out (arg2 : Memref sig .tc .vmem S1024x1024 .f32) (harg2 : arg2.IsWhole) (arg3 : Memref sig .tc .vmem S1024x128 .f32) (harg3 : arg3.IsWhole) (arg5 : Memref sig .tc .vmem S8192x128 .f32) (harg5 : arg5.IsWhole) (i : grid2.Coords)
    (x0 : Vec Ideal S1024x1024 .f32) (x1 : Vec Ideal S1024x128 .f32) (xo3 : Vec Ideal S8192x128 .f32) (I : ℕ) (hoff : k2_off1 i = ![I, 0])
    (y : S8192x128.Idx) (hout : (y 0).val < I ∨ I + 1024 ≤ (y 0).val) :
    arg5.view.read (Elt Ideal) (arg5.view.writes (Elt Ideal) (harg5.unread xo3) [⟨Rect.unit (s := S8192x128) (k2_off1 i) S1024x128.size (k2_off1_inb i),
        k2_pay6 (View.readAt (Elt Ideal) arg2.view (Rect.unit ![0, 0] S1024x1024.size inb_S1024x1024_S1024x1024_0_0).toLoadRect (harg2.unread x0))
          (View.readAt (Elt Ideal) arg3.view (Rect.unit ![0, 0] S1024x128.size inb_S1024x128_S1024x128_0_0).toLoadRect (harg3.unread x1))
          (View.readAt (Elt Ideal) arg5.view (Rect.unit (s := S8192x128) (k2_off1 i) S1024x128.size (k2_off1_inb i)).toLoadRect (harg5.unread xo3))⟩]) y = xo3 y := by
  refine (View.read_writes_cons_unit_of_not_mem _ _ (k2_off1_inb i) _ [] y hoff 0 ?_).trans ?_
  · exact hout
  · rw [View.writes_nil, harg5.read_unread]

/-- The band over the first accumulator at row r, column q: the band's number is i0. -/
theorem bandP2_val (arg2 : Memref sig .tc .vmem S1024x1024 .f32) (harg2 : arg2.IsWhole) (arg3 : Memref sig .tc .vmem S1024x128 .f32) (harg3 : arg3.IsWhole) (arg5 : Memref sig .tc .vmem S8192x128 .f32) (harg5 : arg5.IsWhole) (i : grid2.Coords)
    (x0 : Vec Ideal S1024x1024 .f32) (x1 : Vec Ideal S1024x128 .f32) (xo3 : Vec Ideal S8192x128 .f32) (i0 : ℕ) (hoff : k2_off1 i = ![i0 * 1024, 0])
    (r : Fin 8192) (q : Fin 128) :
    arg5.view.read (Elt Ideal) (arg5.view.writes (Elt Ideal) (harg5.unread xo3) [⟨Rect.unit (s := S8192x128) (k2_off1 i) S1024x128.size (k2_off1_inb i),
        k2_pay6 (View.readAt (Elt Ideal) arg2.view (Rect.unit ![0, 0] S1024x1024.size inb_S1024x1024_S1024x1024_0_0).toLoadRect (harg2.unread x0))
          (View.readAt (Elt Ideal) arg3.view (Rect.unit ![0, 0] S1024x128.size inb_S1024x128_S1024x128_0_0).toLoadRect (harg3.unread x1))
          (View.readAt (Elt Ideal) arg5.view (Rect.unit (s := S8192x128) (k2_off1 i) S1024x128.size (k2_off1_inb i)).toLoadRect (harg5.unread xo3))⟩]) (ix2 r q)
      = xo3 (ix2 r q) + (if r.val / 1024 = i0 then ∑ k : Fin 1024, x0 (ix2 (bandRow r) k) * x1 (ix2 k q) else 0) := by
  by_cases h : r.val / 1024 = i0
  · rw [if_pos h]
    exact bandP2_in arg2 harg2 arg3 harg3 arg5 harg5 i x0 x1 xo3 (i0 * 1024) hoff (ix2 r q) (bandRow r) q
      (by show r.val = i0 * 1024 + r.val % 1024; omega) rfl
  · rw [if_neg h, add_zero]
    exact bandP2_out arg2 harg2 arg3 harg3 arg5 harg5 i x0 x1 xo3 (i0 * 1024) hoff (ix2 r q)
      (by show r.val < i0 * 1024 ∨ i0 * 1024 + 1024 ≤ r.val; omega)

/-! ## A band written over what the second accumulator held -/

theorem bandC2_in (arg2 : Memref sig .tc .vmem S1024x1024 .f32) (harg2 : arg2.IsWhole) (arg4 : Memref sig .tc .vmem S1024x128 .f32) (harg4 : arg4.IsWhole) (arg6 : Memref sig .tc .vmem S8192x128 .f32) (harg6 : arg6.IsWhole) (i : grid2.Coords)
    (x0 : Vec Ideal S1024x1024 .f32) (x2 : Vec Ideal S1024x128 .f32) (xo4 : Vec Ideal S8192x128 .f32) (J : ℕ) (hoff : k2_off2 i = ![J, 0])
    (y : S8192x128.Idx) (p : Fin 1024) (q : Fin 128) (h0 : (y 0).val = J + p.val) (h1 : (y 1).val = q.val) :
    arg6.view.read (Elt Ideal) (arg6.view.writes (Elt Ideal) (harg6.unread xo4) [⟨Rect.unit (s := S8192x128) (k2_off2 i) S1024x128.size (k2_off2_inb i),
        k2_pay7 (View.readAt (Elt Ideal) arg2.view (Rect.unit ![0, 0] S1024x1024.size inb_S1024x1024_S1024x1024_0_0).toLoadRect (harg2.unread x0))
          (View.readAt (Elt Ideal) arg4.view (Rect.unit ![0, 0] S1024x128.size inb_S1024x128_S1024x128_0_0).toLoadRect (harg4.unread x2))
          (View.readAt (Elt Ideal) arg6.view (Rect.unit (s := S8192x128) (k2_off2 i) S1024x128.size (k2_off2_inb i)).toLoadRect (harg6.unread xo4))⟩]) y
      = xo4 y + ∑ k : Fin 1024, x0 (ix2 k p) * x2 (ix2 k q) := by
  refine (View.read_writes_cons_unit_of_mem _ _ (k2_off2_inb i) _ [] y (ix2 p q) hoff (fun a => ?_)).trans ?_
  · match a with
    | ⟨0, _⟩ => exact h0
    | ⟨1, _⟩ => show (y 1).val = 0 + q.val; omega
  refine (gcPay7_apply2 _ _ _ p q).trans ?_
  refine congrArg₂ (· + ·) ?_ (Finset.sum_congr rfl fun k _ => congrArg₂ (· * ·) ?_ ?_)
  · rw [View.readAt_eq_ld, harg6.read_unread]
    refine congrArg xo4 (funext fun a => Fin.ext ?_)
    match a with
    | ⟨0, _⟩ => show k2_off2 i 0 + 1 * p.val = (y 0).val; rw [hoff]; show J + 1 * p.val = (y 0).val; omega
    | ⟨1, _⟩ => show k2_off2 i 1 + 1 * q.val = (y 1).val; rw [hoff]; show 0 + 1 * q.val = (y 1).val; omega
  · rw [View.readAt_eq_ld, harg2.read_unread]
    exact congrFun (View.ld_unit_zero (S := S1024x1024) gc_hz inb_S1024x1024_S1024x1024_0_0 x0) (ix2 k p)
  · rw [View.readAt_eq_ld, harg4.read_unread]
    exact congrFun (View.ld_unit_zero (S := S1024x128) gc_hz inb_S1024x128_S1024x128_0_0 x2) (ix2 k q)

theorem bandC2_out (arg2 : Memref sig .tc .vmem S1024x1024 .f32) (harg2 : arg2.IsWhole) (arg4 : Memref sig .tc .vmem S1024x128 .f32) (harg4 : arg4.IsWhole) (arg6 : Memref sig .tc .vmem S8192x128 .f32) (harg6 : arg6.IsWhole) (i : grid2.Coords)
    (x0 : Vec Ideal S1024x1024 .f32) (x2 : Vec Ideal S1024x128 .f32) (xo4 : Vec Ideal S8192x128 .f32) (J : ℕ) (hoff : k2_off2 i = ![J, 0])
    (y : S8192x128.Idx) (hout : (y 0).val < J ∨ J + 1024 ≤ (y 0).val) :
    arg6.view.read (Elt Ideal) (arg6.view.writes (Elt Ideal) (harg6.unread xo4) [⟨Rect.unit (s := S8192x128) (k2_off2 i) S1024x128.size (k2_off2_inb i),
        k2_pay7 (View.readAt (Elt Ideal) arg2.view (Rect.unit ![0, 0] S1024x1024.size inb_S1024x1024_S1024x1024_0_0).toLoadRect (harg2.unread x0))
          (View.readAt (Elt Ideal) arg4.view (Rect.unit ![0, 0] S1024x128.size inb_S1024x128_S1024x128_0_0).toLoadRect (harg4.unread x2))
          (View.readAt (Elt Ideal) arg6.view (Rect.unit (s := S8192x128) (k2_off2 i) S1024x128.size (k2_off2_inb i)).toLoadRect (harg6.unread xo4))⟩]) y = xo4 y := by
  refine (View.read_writes_cons_unit_of_not_mem _ _ (k2_off2_inb i) _ [] y hoff 0 ?_).trans ?_
  · exact hout
  · rw [View.writes_nil, harg6.read_unread]

theorem bandC2_val (arg2 : Memref sig .tc .vmem S1024x1024 .f32) (harg2 : arg2.IsWhole) (arg4 : Memref sig .tc .vmem S1024x128 .f32) (harg4 : arg4.IsWhole) (arg6 : Memref sig .tc .vmem S8192x128 .f32) (harg6 : arg6.IsWhole) (i : grid2.Coords)
    (x0 : Vec Ideal S1024x1024 .f32) (x2 : Vec Ideal S1024x128 .f32) (xo4 : Vec Ideal S8192x128 .f32) (j0 : ℕ) (hoff : k2_off2 i = ![j0 * 1024, 0])
    (s : Fin 8192) (q : Fin 128) :
    arg6.view.read (Elt Ideal) (arg6.view.writes (Elt Ideal) (harg6.unread xo4) [⟨Rect.unit (s := S8192x128) (k2_off2 i) S1024x128.size (k2_off2_inb i),
        k2_pay7 (View.readAt (Elt Ideal) arg2.view (Rect.unit ![0, 0] S1024x1024.size inb_S1024x1024_S1024x1024_0_0).toLoadRect (harg2.unread x0))
          (View.readAt (Elt Ideal) arg4.view (Rect.unit ![0, 0] S1024x128.size inb_S1024x128_S1024x128_0_0).toLoadRect (harg4.unread x2))
          (View.readAt (Elt Ideal) arg6.view (Rect.unit (s := S8192x128) (k2_off2 i) S1024x128.size (k2_off2_inb i)).toLoadRect (harg6.unread xo4))⟩]) (ix2 s q)
      = xo4 (ix2 s q) + (if s.val / 1024 = j0 then ∑ k : Fin 1024, x0 (ix2 k (bandRow s)) * x2 (ix2 k q) else 0) := by
  by_cases h : s.val / 1024 = j0
  · rw [if_pos h]
    exact bandC2_in arg2 harg2 arg4 harg4 arg6 harg6 i x0 x2 xo4 (j0 * 1024) hoff (ix2 s q) (bandRow s) q
      (by show s.val = j0 * 1024 + s.val % 1024; omega) rfl
  · rw [if_neg h, add_zero]
    exact bandC2_out arg2 harg2 arg4 harg4 arg6 harg6 i x0 x2 xo4 (j0 * 1024) hoff (ix2 s q)
      (by show s.val < j0 * 1024 ∨ j0 * 1024 + 1024 ≤ s.val; omega)

/-! ## The three cases -/

section Cases
variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole)
variable (x0 : Vec Ideal S1024x1024 .f32) (x1 x2 : Vec Ideal S1024x128 .f32)

/-- A middle point. -/
theorem outB2_fst (i0 : ℕ) (hoff1 : k2_off1 i = ![i0 * 1024, 0]) (hc0 : ¬cond2_0 i) (hc1 : ¬cond2_1 i) (xo3 xo4 : Vec Ideal S8192x128 .f32) (r : Fin 8192) (q : Fin 128) :
    (out2_B (F := Ideal) c i arg2 harg2 arg3 harg3 arg4 harg4 arg5 harg5 arg6 harg6 hc0 hc1 x0 x1 x2 xo3 xo4).1 (ix2 r q)
      = xo3 (ix2 r q) + (if r.val / 1024 = i0 then ∑ k : Fin 1024, x0 (ix2 (bandRow r) k) * x1 (ix2 k q) else 0) := by
  unfold out2_B kernelRun2_B
  exact bandP2_val arg2 harg2 arg3 harg3 arg5 harg5 i x0 x1 xo3 i0 hoff1 r q

theorem outB2_snd (j0 : ℕ) (hoff2 : k2_off2 i = ![j0 * 1024, 0]) (hc0 : ¬cond2_0 i) (hc1 : ¬cond2_1 i) (xo3 xo4 : Vec Ideal S8192x128 .f32) (s : Fin 8192) (q : Fin 128) :
    (out2_B (F := Ideal) c i arg2 harg2 arg3 harg3 arg4 harg4 arg5 harg5 arg6 harg6 hc0 hc1 x0 x1 x2 xo3 xo4).2 (ix2 s q)
      = xo4 (ix2 s q) + (if s.val / 1024 = j0 then ∑ k : Fin 1024, x0 (ix2 k (bandRow s)) * x2 (ix2 k q) else 0) := by
  unfold out2_B kernelRun2_B
  exact bandC2_val arg2 harg2 arg4 harg4 arg6 harg6 i x0 x2 xo4 j0 hoff2 s q

/-- The last point: the band, then the rectifier over the whole accumulator. -/
theorem outC2_fst (i0 : ℕ) (hoff1 : k2_off1 i = ![i0 * 1024, 0]) (hc0 : ¬cond2_0 i) (hc1 : cond2_1 i) (xo3 xo4 : Vec Ideal S8192x128 .f32) (r : Fin 8192) (q : Fin 128) :
    (out2_C (F := Ideal) c i arg2 harg2 arg3 harg3 arg4 harg4 arg5 harg5 arg6 harg6 hc0 hc1 x0 x1 x2 xo3 xo4).1 (ix2 r q)
      = Cert.Spec.leaky (xo3 (ix2 r q) + (if r.val / 1024 = i0 then ∑ k : Fin 1024, x0 (ix2 (bandRow r) k) * x1 (ix2 k q) else 0)) := by
  unfold out2_C kernelRun2_C
  refine (View.read_writes_cons_unit_of_mem _ _ inb_S8192x128_S8192x128_0_0 _ _ (ix2 r q) (ix2 r q) rfl (fun a => ?_)).trans ?_
  · match a with
    | ⟨0, _⟩ => show r.val = 0 + r.val; omega
    | ⟨1, _⟩ => show q.val = 0 + q.val; omega
  refine (gcPay1_apply2 _ _).trans (congrArg Cert.Spec.leaky ?_)
  unfold kernelRun2_C.sl.v37 kernelRun2_C.sl.H3_1
  rw [View.readAt_eq_ld]
  refine (congrFun (View.ld_unit_zero (S := S8192x128) gc_hz inb_S8192x128_S8192x128_0_0 _) (ix2 r q)).trans ?_
  exact bandP2_val arg2 harg2 arg3 harg3 arg5 harg5 i x0 x1 xo3 i0 hoff1 r q

theorem outC2_snd (j0 : ℕ) (hoff2 : k2_off2 i = ![j0 * 1024, 0]) (hc0 : ¬cond2_0 i) (hc1 : cond2_1 i) (xo3 xo4 : Vec Ideal S8192x128 .f32) (s : Fin 8192) (q : Fin 128) :
    (out2_C (F := Ideal) c i arg2 harg2 arg3 harg3 arg4 harg4 arg5 harg5 arg6 harg6 hc0 hc1 x0 x1 x2 xo3 xo4).2 (ix2 s q)
      = Cert.Spec.leaky (xo4 (ix2 s q) + (if s.val / 1024 = j0 then ∑ k : Fin 1024, x0 (ix2 k (bandRow s)) * x2 (ix2 k q) else 0)) := by
  unfold out2_C kernelRun2_C
  refine (View.read_writes_cons_unit_of_mem _ _ inb_S8192x128_S8192x128_0_0 _ _ (ix2 s q) (ix2 s q) rfl (fun a => ?_)).trans ?_
  · match a with
    | ⟨0, _⟩ => show s.val = 0 + s.val; omega
    | ⟨1, _⟩ => show q.val = 0 + q.val; omega
  refine (gcPay2_apply2 _ _).trans (congrArg Cert.Spec.leaky ?_)
  unfold kernelRun2_C.sl.v45 kernelRun2_C.sl.H4_1
  rw [View.readAt_eq_ld]
  refine (congrFun (View.ld_unit_zero (S := S8192x128) gc_hz inb_S8192x128_S8192x128_0_0 _) (ix2 s q)).trans ?_
  exact bandC2_val arg2 harg2 arg4 harg4 arg6 harg6 i x0 x2 xo4 j0 hoff2 s q

end Cases

/-! ## The first point -/

/-- An accumulator just cleared reads zero everywhere, whatever it held. -/
theorem clearedP2 (v : View sig .tc .vmem S8192x128 .f32) (f : v.ty.Contents (Elt Ideal)) (y : S8192x128.Idx) :
    v.read (Elt Ideal) (v.writes (Elt Ideal) f (kernelRun2_A.sl.H3_1 (F := Ideal))) y = 0 := by
  unfold kernelRun2_A.sl.H3_1
  refine (View.read_writes_cons_unit_of_mem v f inb_S8192x128_S8192x128_0_0 _ [] y y rfl (fun a => ?_)).trans (gcPay3_apply2 y)
  match a with
  | ⟨0, _⟩ => show (y 0).val = 0 + (y 0).val; omega
  | ⟨1, _⟩ => show (y 1).val = 0 + (y 1).val; omega

theorem clearedC2 (v : View sig .tc .vmem S8192x128 .f32) (f : v.ty.Contents (Elt Ideal)) (y : S8192x128.Idx) :
    v.read (Elt Ideal) (v.writes (Elt Ideal) f (kernelRun2_A.sl.H4_1 (F := Ideal))) y = 0 := by
  unfold kernelRun2_A.sl.H4_1
  refine (View.read_writes_cons_unit_of_mem v f inb_S8192x128_S8192x128_0_0 _ [] y y rfl (fun a => ?_)).trans (gcPay4_apply2 y)
  match a with
  | ⟨0, _⟩ => show (y 0).val = 0 + (y 0).val; omega
  | ⟨1, _⟩ => show (y 1).val = 0 + (y 1).val; omega

section CaseA
variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S8192x128 .f32) (harg5 : arg5.IsWhole) (arg6 : Memref sig .tc .vmem S8192x128 .f32) (harg6 : arg6.IsWhole)
variable (x0 : Vec Ideal S1024x1024 .f32) (x1 x2 : Vec Ideal S1024x128 .f32)

/-- The first point: cleared, then the band. -/
theorem outA2_fst (i0 : ℕ) (hoff1 : k2_off1 i = ![i0 * 1024, 0]) (hc0 : cond2_0 i) (hc1 : ¬cond2_1 i) (r : Fin 8192) (q : Fin 128) :
    (out2_A (F := Ideal) c i arg2 harg2 arg3 harg3 arg4 harg4 arg5 harg5 arg6 harg6 hc0 hc1 x0 x1 x2).1 (ix2 r q)
      = if r.val / 1024 = i0 then 0 + ∑ k : Fin 1024, x0 (ix2 (bandRow r) k) * x1 (ix2 k q) else 0 := by
  unfold out2_A kernelRun2_A
  dsimp only
  by_cases h : r.val / 1024 = i0
  · rw [if_pos h]
    refine (View.read_writes_cons_unit_of_mem _ _ (k2_off1_inb i) _ _ (ix2 r q) (ix2 (bandRow r) q) hoff1 (fun a => ?_)).trans ?_
    · match a with
      | ⟨0, _⟩ => show r.val = i0 * 1024 + r.val % 1024; omega
      | ⟨1, _⟩ => show q.val = 0 + q.val; omega
    refine (gcPay6_apply2 _ _ _ (bandRow r) q).trans (congrArg₂ (· + ·) ?_ ?_)
    · rw [View.readAt_eq_ld]
      exact clearedP2 _ _ _
    · refine Finset.sum_congr rfl fun k _ => congrArg₂ (· * ·) ?_ ?_
      · rw [View.readAt_eq_ld, harg2.read_unread]
        exact congrFun (View.ld_unit_zero (S := S1024x1024) gc_hz inb_S1024x1024_S1024x1024_0_0 x0) (ix2 (bandRow r) k)
      · rw [View.readAt_eq_ld, harg3.read_unread]
        exact congrFun (View.ld_unit_zero (S := S1024x128) gc_hz inb_S1024x128_S1024x128_0_0 x1) (ix2 k q)
  · rw [if_neg h]
    refine (View.read_writes_cons_unit_of_not_mem _ _ (k2_off1_inb i) _ _ (ix2 r q) hoff1 0 ?_).trans (clearedP2 _ _ _)
    show r.val < i0 * 1024 ∨ i0 * 1024 + 1024 ≤ r.val
    omega

theorem outA2_snd (j0 : ℕ) (hoff2 : k2_off2 i = ![j0 * 1024, 0]) (hc0 : cond2_0 i) (hc1 : ¬cond2_1 i) (s : Fin 8192) (q : Fin 128) :
    (out2_A (F := Ideal) c i arg2 harg2 arg3 harg3 arg4 harg4 arg5 harg5 arg6 harg6 hc0 hc1 x0 x1 x2).2 (ix2 s q)
      = if s.val / 1024 = j0 then 0 + ∑ k : Fin 1024, x0 (ix2 k (bandRow s)) * x2 (ix2 k q) else 0 := by
  unfold out2_A kernelRun2_A
  dsimp only
  by_cases h : s.val / 1024 = j0
  · rw [if_pos h]
    refine (View.read_writes_cons_unit_of_mem _ _ (k2_off2_inb i) _ _ (ix2 s q) (ix2 (bandRow s) q) hoff2 (fun a => ?_)).trans ?_
    · match a with
      | ⟨0, _⟩ => show s.val = j0 * 1024 + s.val % 1024; omega
      | ⟨1, _⟩ => show q.val = 0 + q.val; omega
    refine (gcPay7_apply2 _ _ _ (bandRow s) q).trans (congrArg₂ (· + ·) ?_ ?_)
    · rw [View.readAt_eq_ld]
      exact clearedC2 _ _ _
    · refine Finset.sum_congr rfl fun k _ => congrArg₂ (· * ·) ?_ ?_
      · rw [View.readAt_eq_ld, harg2.read_unread]
        exact congrFun (View.ld_unit_zero (S := S1024x1024) gc_hz inb_S1024x1024_S1024x1024_0_0 x0) (ix2 k (bandRow s))
      · rw [View.readAt_eq_ld, harg4.read_unread]
        exact congrFun (View.ld_unit_zero (S := S1024x128) gc_hz inb_S1024x128_S1024x128_0_0 x2) (ix2 k q)
  · rw [if_neg h]
    refine (View.read_writes_cons_unit_of_not_mem _ _ (k2_off2_inb i) _ _ (ix2 s q) hoff2 0 ?_).trans (clearedC2 _ _ _)
    show s.val < j0 * 1024 ∨ j0 * 1024 + 1024 ≤ s.val
    omega

end CaseA

end Cert.KernelIdeal.Hand

end
-- ==== Proof.GcValue2.lean ====
/-
  Region 2 over the extended reals: after its 64 points the two accumulators hold
      leaky (adj * cw)      and      leaky (adj^T * pw),
  entry by entry, of the three arrays as the region finds them.

  The points are visited in the order n = 8 i + j. Write B r q j for the sum over the 1024 indices k of
  contraction block j of adj(r, k) cw(k, q). By induction on n < 63, after point n the first accumulator's
  entry (r, q) is the sum of B r q j' over the blocks j' with 8 (r / 1024) + j' <= n (and likewise for the
  second accumulator, whose row block is the point's second coordinate): point n + 1 adds one block sum to the
  rows of its band and nothing elsewhere. The last point adds the last block sum and rectifies; by then every
  block has been added, and the eight block sums are the sum over all 8192 indices. Only the last point
  writes the accumulators back, whole, so the arrays after the region are these.
-/
import proofs.«154085_j15066745274644_1_alg».proof.Proof.GcRead2
import proofs.«154085_j15066745274644_1_alg».proof.Proof.GcValue0
import proofs.«154085_j15066745274644_1_alg».proof.Proof.GcMath

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.GcMath

/-! ## The schedule, decided over the 64 points -/

theorem gc2_facts : ∀ t : Fin cfg2.N,
    k2_off1 (grid2.coords t) 0 = t.val / 8 * 1024 ∧ k2_off1 (grid2.coords t) 1 = 0
    ∧ k2_off2 (grid2.coords t) 0 = t.val % 8 * 1024 ∧ k2_off2 (grid2.coords t) 1 = 0
    ∧ win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem gc2_off1 (t : Fin cfg2.N) : k2_off1 (grid2.coords t) = ![t.val / 8 * 1024, 0] := by
  obtain ⟨h0, h1, -⟩ := gc2_facts t
  funext a
  match a with
  | ⟨0, _⟩ => exact h0
  | ⟨1, _⟩ => exact h1
theorem gc2_off2 (t : Fin cfg2.N) : k2_off2 (grid2.coords t) = ![t.val % 8 * 1024, 0] := by
  obtain ⟨-, -, h0, h1, -⟩ := gc2_facts t
  funext a
  match a with
  | ⟨0, _⟩ => exact h0
  | ⟨1, _⟩ => exact h1

theorem gc2_N : cfg2.N = 64 := N_2

/-- The point's two coordinates as block numbers. -/
def ptI2 (t : Fin cfg2.N) : Fin 8 := ⟨t.val / 8, by have : t.val < 64 := lt_of_lt_of_eq t.isLt gc2_N; omega⟩
def ptJ2 (t : Fin cfg2.N) : Fin 8 := ⟨t.val % 8, Nat.mod_lt _ (by decide)⟩

variable (V : (c : Dev nD) → (b : Ref sig .tc) → Buf (Elt Ideal) ((c : Thread nD τ).loc b))

/-! ## The input blocks as rectangles of their arrays -/

theorem iblk2_0_apply (c : Dev nD) (t : Fin cfg2.N) (y : S1024x1024.Idx) (i : S8192x8192.Idx)
    (h0 : (i 0).val = win2_0.index t (0 : Fin 2) * 1024 + 1 * (y 0).val) (h1 : (i 1).val = win2_0.index t (1 : Fin 2) * 1024 + 1 * (y 1).val) :
    (iblk2 V c 0 t : Vec Ideal S1024x1024 .f32) y = (V c (Pipeline.arrRef spec2 0) : S8192x8192.Idx → EReal) i := by
  show V c (Pipeline.arrRef spec2 0) (((cfg2.win 0).blk t).view.emb y) = V c (Pipeline.arrRef spec2 0) i
  refine congrArg _ (funext fun a => Fin.ext ?_)
  match a with
  | ⟨0, _⟩ => exact h0.symm
  | ⟨1, _⟩ => exact h1.symm

theorem iblk2_1_apply (c : Dev nD) (t : Fin cfg2.N) (y : S1024x128.Idx) (i : S8192x128.Idx)
    (h0 : (i 0).val = win2_1.index t (0 : Fin 2) * 1024 + 1 * (y 0).val) (h1 : (i 1).val = win2_1.index t (1 : Fin 2) * 128 + 1 * (y 1).val) :
    (iblk2 V c 1 t : Vec Ideal S1024x128 .f32) y = (V c (Pipeline.arrRef spec2 1) : S8192x128.Idx → EReal) i := by
  show V c (Pipeline.arrRef spec2 1) (((cfg2.win 1).blk t).view.emb y) = V c (Pipeline.arrRef spec2 1) i
  refine congrArg _ (funext fun a => Fin.ext ?_)
  match a with
  | ⟨0, _⟩ => exact h0.symm
  | ⟨1, _⟩ => exact h1.symm

theorem iblk2_2_apply (c : Dev nD) (t : Fin cfg2.N) (y : S1024x128.Idx) (i : S8192x128.Idx)
    (h0 : (i 0).val = win2_2.index t (0 : Fin 2) * 1024 + 1 * (y 0).val) (h1 : (i 1).val = win2_2.index t (1 : Fin 2) * 128 + 1 * (y 1).val) :
    (iblk2 V c 2 t : Vec Ideal S1024x128 .f32) y = (V c (Pipeline.arrRef spec2 2) : S8192x128.Idx → EReal) i := by
  show V c (Pipeline.arrRef spec2 2) (((cfg2.win 2).blk t).view.emb y) = V c (Pipeline.arrRef spec2 2) i
  refine congrArg _ (funext fun a => Fin.ext ?_)
  match a with
  | ⟨0, _⟩ => exact h0.symm
  | ⟨1, _⟩ => exact h1.symm

/-- At point t the product the first band receives, at a row r of the band, is block sum t mod 8 of row r. -/
theorem ptP2 (c : Dev nD) (t : Fin cfg2.N) (x0 : Vec Ideal S1024x1024 .f32) (x1 : Vec Ideal S1024x128 .f32)
    (hx0 : x0 = iblk2 V c 0 t) (hx1 : x1 = iblk2 V c 1 t) (r : Fin 8192) (q : Fin 128) (h : r.val / 1024 = t.val / 8) :
    ∑ k : Fin 1024, x0 (ix2 (bandRow r) k) * x1 (ix2 k q)
      = blockP (V c (Pipeline.arrRef spec2 0)) (V c (Pipeline.arrRef spec2 1)) r q (ptJ2 t) := by
  subst hx0 hx1
  obtain ⟨-, -, -, -, e00, e01, e10, e11, -⟩ := gc2_facts t
  unfold blockP
  refine Finset.sum_congr rfl fun k _ => congrArg₂ (· * ·) ?_ ?_
  · refine iblk2_0_apply V c t (ix2 (bandRow r) k) (ix2 r (blkIx (ptJ2 t) k)) ?_ ?_
    · show r.val = win2_0.index t (0 : Fin 2) * 1024 + 1 * (r.val % 1024)
      rw [e00]; omega
    · show (ptJ2 t).val * 1024 + k.val = win2_0.index t (1 : Fin 2) * 1024 + 1 * k.val
      rw [e01]; show t.val % 8 * 1024 + k.val = _; omega
  · refine iblk2_1_apply V c t (ix2 k q) (ix2 (blkIx (ptJ2 t) k) q) ?_ ?_
    · show (ptJ2 t).val * 1024 + k.val = win2_1.index t (0 : Fin 2) * 1024 + 1 * k.val
      rw [e10]; show t.val % 8 * 1024 + k.val = _; omega
    · show q.val = win2_1.index t (1 : Fin 2) * 128 + 1 * q.val
      rw [e11]; omega

/-- At point t the product the second band receives, at a row s of the band, is block sum t / 8 of column s. -/
theorem ptC2 (c : Dev nD) (t : Fin cfg2.N) (x0 : Vec Ideal S1024x1024 .f32) (x2 : Vec Ideal S1024x128 .f32)
    (hx0 : x0 = iblk2 V c 0 t) (hx2 : x2 = iblk2 V c 2 t) (s : Fin 8192) (q : Fin 128) (h : s.val / 1024 = t.val % 8) :
    ∑ k : Fin 1024, x0 (ix2 k (bandRow s)) * x2 (ix2 k q)
      = blockC (V c (Pipeline.arrRef spec2 0)) (V c (Pipeline.arrRef spec2 2)) s q (ptI2 t) := by
  subst hx0 hx2
  obtain ⟨-, -, -, -, e00, e01, -, -, e20, e21, -⟩ := gc2_facts t
  unfold blockC
  refine Finset.sum_congr rfl fun k _ => congrArg₂ (· * ·) ?_ ?_
  · refine iblk2_0_apply V c t (ix2 k (bandRow s)) (ix2 (blkIx (ptI2 t) k) s) ?_ ?_
    · show (ptI2 t).val * 1024 + k.val = win2_0.index t (0 : Fin 2) * 1024 + 1 * k.val
      rw [e00]; show t.val / 8 * 1024 + k.val = _; omega
    · show s.val = win2_0.index t (1 : Fin 2) * 1024 + 1 * (s.val % 1024)
      rw [e01]; omega
  · refine iblk2_2_apply V c t (ix2 k q) (ix2 (blkIx (ptI2 t) k) q) ?_ ?_
    · show (ptI2 t).val * 1024 + k.val = win2_2.index t (0 : Fin 2) * 1024 + 1 * k.val
      rw [e20]; show t.val / 8 * 1024 + k.val = _; omega
    · show q.val = win2_2.index t (1 : Fin 2) * 128 + 1 * q.val
      rw [e21]; omega

/-- The band's contribution with the block sum named. -/
theorem ptP2_ite (c : Dev nD) (t : Fin cfg2.N) (x0 : Vec Ideal S1024x1024 .f32) (x1 : Vec Ideal S1024x128 .f32)
    (hx0 : x0 = iblk2 V c 0 t) (hx1 : x1 = iblk2 V c 1 t) (r : Fin 8192) (q : Fin 128) :
    (if r.val / 1024 = t.val / 8 then ∑ k : Fin 1024, x0 (ix2 (bandRow r) k) * x1 (ix2 k q) else 0)
      = if r.val / 1024 = t.val / 8 then blockP (V c (Pipeline.arrRef spec2 0)) (V c (Pipeline.arrRef spec2 1)) r q (ptJ2 t) else 0 := by
  by_cases h : r.val / 1024 = t.val / 8
  · rw [if_pos h, if_pos h, ptP2 V c t x0 x1 hx0 hx1 r q h]
  · rw [if_neg h, if_neg h]
theorem ptC2_ite (c : Dev nD) (t : Fin cfg2.N) (x0 : Vec Ideal S1024x1024 .f32) (x2 : Vec Ideal S1024x128 .f32)
    (hx0 : x0 = iblk2 V c 0 t) (hx2 : x2 = iblk2 V c 2 t) (s : Fin 8192) (q : Fin 128) :
    (if s.val / 1024 = t.val % 8 then ∑ k : Fin 1024, x0 (ix2 k (bandRow s)) * x2 (ix2 k q) else 0)
      = if s.val / 1024 = t.val % 8 then blockC (V c (Pipeline.arrRef spec2 0)) (V c (Pipeline.arrRef spec2 2)) s q (ptI2 t) else 0 := by
  by_cases h : s.val / 1024 = t.val % 8
  · rw [if_pos h, if_pos h, ptC2 V c t x0 x2 hx0 hx2 s q h]
  · rw [if_neg h, if_neg h]

-- the accumulation is used below only through its three case equations; it is never unfolded
attribute [local irreducible] outsAt2

/-! ## One point, at a symbolic point of the grid -/

set_option maxHeartbeats 1000000 in
theorem stepA2_fst (c : Dev nD) (t : Fin cfg2.N) (h0 : t.val = 0) (r : Fin 8192) (q : Fin 128) :
    (outsAt2 (F := Ideal) V c t.val t.isLt).1 (ix2 r q)
      = if r.val / 1024 = 0 then blockP (V c (Pipeline.arrRef spec2 0)) (V c (Pipeline.arrRef spec2 1)) r q 0 else 0 := by
  have e8 : t.val / 8 = 0 := by rw [h0]
  have eJ : ptJ2 t = 0 := Fin.ext (by show t.val % 8 = 0; rw [h0])
  rw [outsAt2_A V c t h0]
  refine (outA2_fst c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (t.val / 8) (gc2_off1 t) _ _ r q).trans ?_
  by_cases h : r.val / 1024 = 0
  · rw [if_pos (h.trans e8.symm), if_pos h, zero_add, ptP2 V c t (iblk2 V c 0 t) (iblk2 V c 1 t) rfl rfl r q (h.trans e8.symm), eJ]
  · rw [if_neg (fun h' => h (h'.trans e8)), if_neg h]

set_option maxHeartbeats 1000000 in
theorem stepA2_snd (c : Dev nD) (t : Fin cfg2.N) (h0 : t.val = 0) (s : Fin 8192) (q : Fin 128) :
    (outsAt2 (F := Ideal) V c t.val t.isLt).2 (ix2 s q)
      = if s.val / 1024 = 0 then blockC (V c (Pipeline.arrRef spec2 0)) (V c (Pipeline.arrRef spec2 2)) s q 0 else 0 := by
  have e8 : t.val % 8 = 0 := by rw [h0]
  have eI : ptI2 t = 0 := Fin.ext (by show t.val / 8 = 0; rw [h0])
  rw [outsAt2_A V c t h0]
  refine (outA2_snd c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (t.val % 8) (gc2_off2 t) _ _ s q).trans ?_
  by_cases h : s.val / 1024 = 0
  · rw [if_pos (h.trans e8.symm), if_pos h, zero_add, ptC2 V c t (iblk2 V c 0 t) (iblk2 V c 2 t) rfl rfl s q (h.trans e8.symm), eI]
  · rw [if_neg (fun h' => h (h'.trans e8)), if_neg h]

set_option maxHeartbeats 1000000 in
theorem stepB2_fst (c : Dev nD) (t : Fin cfg2.N) (h0 : t.val ≠ 0) (h1 : t.val ≠ 63) (r : Fin 8192) (q : Fin 128) :
    (outsAt2 (F := Ideal) V c t.val t.isLt).1 (ix2 r q)
      = (outsAt2 (F := Ideal) V c (t.val - 1) (Nat.lt_of_le_of_lt (Nat.sub_le _ _) t.isLt)).1 (ix2 r q) + (if r.val / 1024 = t.val / 8 then blockP (V c (Pipeline.arrRef spec2 0)) (V c (Pipeline.arrRef spec2 1)) r q (ptJ2 t) else 0) := by
  rw [outsAt2_B V c t h0 h1]
  refine (outB2_fst c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (t.val / 8) (gc2_off1 t) _ _ _ _ r q).trans ?_
  rw [ptP2_ite V c t (iblk2 V c 0 t) (iblk2 V c 1 t) rfl rfl r q]

set_option maxHeartbeats 1000000 in
theorem stepB2_snd (c : Dev nD) (t : Fin cfg2.N) (h0 : t.val ≠ 0) (h1 : t.val ≠ 63) (s : Fin 8192) (q : Fin 128) :
    (outsAt2 (F := Ideal) V c t.val t.isLt).2 (ix2 s q)
      = (outsAt2 (F := Ideal) V c (t.val - 1) (Nat.lt_of_le_of_lt (Nat.sub_le _ _) t.isLt)).2 (ix2 s q) + (if s.val / 1024 = t.val % 8 then blockC (V c (Pipeline.arrRef spec2 0)) (V c (Pipeline.arrRef spec2 2)) s q (ptI2 t) else 0) := by
  rw [outsAt2_B V c t h0 h1]
  refine (outB2_snd c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (t.val % 8) (gc2_off2 t) _ _ _ _ s q).trans ?_
  rw [ptC2_ite V c t (iblk2 V c 0 t) (iblk2 V c 2 t) rfl rfl s q]

set_option maxHeartbeats 1000000 in
theorem stepC2_fst (c : Dev nD) (t : Fin cfg2.N) (h0 : t.val ≠ 0) (h1 : t.val = 63) (r : Fin 8192) (q : Fin 128) :
    (outsAt2 (F := Ideal) V c t.val t.isLt).1 (ix2 r q)
      = Cert.Spec.leaky ((outsAt2 (F := Ideal) V c (t.val - 1) (Nat.lt_of_le_of_lt (Nat.sub_le _ _) t.isLt)).1 (ix2 r q) + (if r.val / 1024 = t.val / 8 then blockP (V c (Pipeline.arrRef spec2 0)) (V c (Pipeline.arrRef spec2 1)) r q (ptJ2 t) else 0)) := by
  rw [outsAt2_C V c t h0 h1]
  refine (outC2_fst c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (t.val / 8) (gc2_off1 t) _ _ _ _ r q).trans ?_
  rw [ptP2_ite V c t (iblk2 V c 0 t) (iblk2 V c 1 t) rfl rfl r q]

set_option maxHeartbeats 1000000 in
theorem stepC2_snd (c : Dev nD) (t : Fin cfg2.N) (h0 : t.val ≠ 0) (h1 : t.val = 63) (s : Fin 8192) (q : Fin 128) :
    (outsAt2 (F := Ideal) V c t.val t.isLt).2 (ix2 s q)
      = Cert.Spec.leaky ((outsAt2 (F := Ideal) V c (t.val - 1) (Nat.lt_of_le_of_lt (Nat.sub_le _ _) t.isLt)).2 (ix2 s q) + (if s.val / 1024 = t.val % 8 then blockC (V c (Pipeline.arrRef spec2 0)) (V c (Pipeline.arrRef spec2 2)) s q (ptI2 t) else 0)) := by
  rw [outsAt2_C V c t h0 h1]
  refine (outC2_snd c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (t.val % 8) (gc2_off2 t) _ _ _ _ s q).trans ?_
  rw [ptC2_ite V c t (iblk2 V c 0 t) (iblk2 V c 2 t) rfl rfl s q]

/-! ## The accumulation, by induction on the point -/

/-- After point n < 63 the accumulators hold the block sums of the points visited so far. -/
theorem acc2_inv (c : Dev nD) : ∀ (n : ℕ) (hn : n < cfg2.N), n < 63 → ∀ (r : Fin 8192) (q : Fin 128),
    (outsAt2 (F := Ideal) V c n hn).1 (ix2 r q)
        = (∑ j' : Fin 8, if r.val / 1024 * 8 + j'.val ≤ n then blockP (V c (Pipeline.arrRef spec2 0)) (V c (Pipeline.arrRef spec2 1)) r q j' else 0)
    ∧ (outsAt2 (F := Ideal) V c n hn).2 (ix2 r q)
        = (∑ i' : Fin 8, if i'.val * 8 + r.val / 1024 ≤ n then blockC (V c (Pipeline.arrRef spec2 0)) (V c (Pipeline.arrRef spec2 2)) r q i' else 0)
  | 0, hn, _, r, q => by
    constructor
    · exact (stepA2_fst V c ⟨0, hn⟩ rfl r q).trans (pre_zero _ _).symm
    · exact (stepA2_snd V c ⟨0, hn⟩ rfl r q).trans (cur_zero _ _).symm
  | n + 1, hn, h63, r, q => by
    have hN : n + 1 < 64 := lt_of_lt_of_eq hn gc2_N
    have ih := acc2_inv c n (Nat.lt_of_succ_lt hn) (by omega) r q
    constructor
    · refine (stepB2_fst V c ⟨n + 1, hn⟩ (Nat.succ_ne_zero n) (by show n + 1 ≠ 63; omega) r q).trans ?_
      exact (congrArg₂ (· + ·) ih.1 rfl).trans
        (pre_step _ (r.val / 1024) n ((n + 1) / 8) (ptJ2 ⟨n + 1, hn⟩) (by show n + 1 = (n + 1) / 8 * 8 + (n + 1) % 8; omega)).symm
    · refine (stepB2_snd V c ⟨n + 1, hn⟩ (Nat.succ_ne_zero n) (by show n + 1 ≠ 63; omega) r q).trans ?_
      exact (congrArg₂ (· + ·) ih.2 rfl).trans
        (cur_step _ (r.val / 1024) n ((n + 1) % 8) (ptI2 ⟨n + 1, hn⟩) (by have := r.isLt; omega) (by omega)
          (by show n + 1 = (n + 1) / 8 * 8 + (n + 1) % 8; omega)).symm

/-- After the last point: the rectified products. (Stated at a symbolic point t with t = 63.) -/
theorem acc2_last (c : Dev nD) (t : Fin cfg2.N) (h63 : t.val = 63) :
    (outsAt2 (F := Ideal) V c t.val t.isLt).1 = Cert.Spec.gcPre (V c (Pipeline.arrRef spec2 0)) (V c (Pipeline.arrRef spec2 1))
    ∧ (outsAt2 (F := Ideal) V c t.val t.isLt).2 = Cert.Spec.gcCur (V c (Pipeline.arrRef spec2 0)) (V c (Pipeline.arrRef spec2 2)) := by
  have hlt : t.val - 1 < cfg2.N := Nat.lt_of_le_of_lt (Nat.sub_le _ _) t.isLt
  have e1 : t.val - 1 + 1 = t.val / 8 * 8 + t.val % 8 := by omega
  have e63 : t.val - 1 + 1 = 63 := by omega
  constructor
  · funext y
    obtain ⟨r, q, rfl⟩ : ∃ (r : Fin 8192) (q : Fin 128), y = ix2 r q := ⟨y 0, y 1, eq_ix2 y⟩
    have hb : r.val / 1024 < 8 := by have := r.isLt; omega
    have ih := (acc2_inv V c (t.val - 1) hlt (by omega) r q).1
    have hstep := pre_step (blockP (V c (Pipeline.arrRef spec2 0)) (V c (Pipeline.arrRef spec2 1)) r q) (r.val / 1024) (t.val - 1) (t.val / 8) (ptJ2 t) e1
    rw [e63] at hstep
    have hfull := (pre_full (blockP (V c (Pipeline.arrRef spec2 0)) (V c (Pipeline.arrRef spec2 1)) r q) (r.val / 1024) hb).trans (blockP_total (V c (Pipeline.arrRef spec2 0)) (V c (Pipeline.arrRef spec2 1)) r q)
    refine (stepC2_fst V c t (by omega) h63 r q).trans ?_
    show Cert.Spec.leaky _ = Cert.Spec.leaky _
    exact congrArg Cert.Spec.leaky (((congrArg₂ (· + ·) ih rfl).trans hstep.symm).trans hfull)
  · funext y
    obtain ⟨s, q, rfl⟩ : ∃ (s : Fin 8192) (q : Fin 128), y = ix2 s q := ⟨y 0, y 1, eq_ix2 y⟩
    have hb : s.val / 1024 < 8 := by have := s.isLt; omega
    have ih := (acc2_inv V c (t.val - 1) hlt (by omega) s q).2
    have hstep := cur_step (blockC (V c (Pipeline.arrRef spec2 0)) (V c (Pipeline.arrRef spec2 2)) s q) (s.val / 1024) (t.val - 1) (t.val % 8) (ptI2 t) hb (by omega) e1
    rw [e63] at hstep
    have hfull := (cur_full (blockC (V c (Pipeline.arrRef spec2 0)) (V c (Pipeline.arrRef spec2 2)) s q) (s.val / 1024) hb).trans (blockC_total (V c (Pipeline.arrRef spec2 0)) (V c (Pipeline.arrRef spec2 2)) s q)
    refine (stepC2_snd V c t (by omega) h63 s q).trans ?_
    show Cert.Spec.leaky _ = Cert.Spec.leaky _
    exact congrArg Cert.Spec.leaky (((congrArg₂ (· + ·) ih rfl).trans hstep.symm).trans hfull)

/-! ## The arrays after the region -/

/-- An accumulator's block is its whole array: the block's index of (r, q) is (r, q). -/
theorem gc2_emb3 (t : Fin cfg2.N) (r : Fin 8192) (q : Fin 128) : ((cfg2.win 3).blk t).view.emb (ix2 r q) = ix2 r q := by
  obtain ⟨-, -, -, -, -, -, -, -, -, -, e30, e31, -⟩ := gc2_facts t
  refine funext fun a => Fin.ext ?_
  match a with
  | ⟨0, _⟩ => show win2_3.index t (0 : Fin 2) * 8192 + 1 * r.val = r.val; rw [e30]; omega
  | ⟨1, _⟩ => show win2_3.index t (1 : Fin 2) * 128 + 1 * q.val = q.val; rw [e31]; omega
theorem gc2_emb4 (t : Fin cfg2.N) (r : Fin 8192) (q : Fin 128) : ((cfg2.win 4).blk t).view.emb (ix2 r q) = ix2 r q := by
  obtain ⟨-, -, -, -, -, -, -, -, -, -, -, -, e40, e41⟩ := gc2_facts t
  refine funext fun a => Fin.ext ?_
  match a with
  | ⟨0, _⟩ => show win2_4.index t (0 : Fin 2) * 8192 + 1 * r.val = r.val; rw [e40]; omega
  | ⟨1, _⟩ => show win2_4.index t (1 : Fin 2) * 128 + 1 * q.val = q.val; rw [e41]; omega

/-- What the one write-back (at the last point) writes is the rectified product, whole. -/
theorem gc2_flushed3 (c : Dev nD) (t : Fin cfg2.N) (ht : (cfg2.win 3).flush t = true) :
    (dat2 V c).flushed 3 t = ((cfg2.win 3).blk t).view.read (Elt Ideal)
      (Cert.Spec.gcPre (V c (Pipeline.arrRef spec2 0)) (V c (Pipeline.arrRef spec2 1))) := by
  have hN : t.val < 64 := lt_of_lt_of_eq t.isLt gc2_N
  have h63 : t.val = 63 := by have := (flush2_3 t).mp ht; omega
  show (cfg2.win 3).cut (grid2.coords t) ((dat2 V c).after 3 t) = _
  rw [after2_3]
  funext j
  obtain ⟨r, q, rfl⟩ : ∃ (r : Fin 8192) (q : Fin 128), j = ix2 r q := ⟨j 0, j 1, eq_ix2 j⟩
  show (outsAt2 V c t.val t.isLt).1 (ix2 r q)
    = Cert.Spec.gcPre (V c (Pipeline.arrRef spec2 0)) (V c (Pipeline.arrRef spec2 1)) (((cfg2.win 3).blk t).view.emb (ix2 r q))
  rw [gc2_emb3 t r q]
  exact congrFun (acc2_last V c t h63).1 (ix2 r q)

theorem gc2_flushed4 (c : Dev nD) (t : Fin cfg2.N) (ht : (cfg2.win 4).flush t = true) :
    (dat2 V c).flushed 4 t = ((cfg2.win 4).blk t).view.read (Elt Ideal)
      (Cert.Spec.gcCur (V c (Pipeline.arrRef spec2 0)) (V c (Pipeline.arrRef spec2 2))) := by
  have hN : t.val < 64 := lt_of_lt_of_eq t.isLt gc2_N
  have h63 : t.val = 63 := by have := (flush2_4 t).mp ht; omega
  show (cfg2.win 4).cut (grid2.coords t) ((dat2 V c).after 4 t) = _
  rw [after2_4]
  funext j
  obtain ⟨r, q, rfl⟩ : ∃ (r : Fin 8192) (q : Fin 128), j = ix2 r q := ⟨j 0, j 1, eq_ix2 j⟩
  show (outsAt2 V c t.val t.isLt).2 (ix2 r q)
    = Cert.Spec.gcCur (V c (Pipeline.arrRef spec2 0)) (V c (Pipeline.arrRef spec2 2)) (((cfg2.win 4).blk t).view.emb (ix2 r q))
  rw [gc2_emb4 t r q]
  exact congrFun (acc2_last V c t h63).2 (ix2 r q)

theorem gc2_mem3 (t : Fin cfg2.N) (i : S8192x128.Idx) :
    i ∈ ((cfg2.win 3).blk t).view.set ↔ ∀ a : Fin 2, win2_3.index t a * S8192x128.size a ≤ (i a).val ∧ (i a).val < win2_3.index t a * S8192x128.size a + S8192x128.size a := by
  show i ∈ ((View.whole (Pipeline.arrRef spec2 3)).slice (win2_3.rect t)).set ↔ _
  rw [View.set_slice_whole, Rect.mem_set_unit]
  exact Iff.rfl
theorem gc2_mem4 (t : Fin cfg2.N) (i : S8192x128.Idx) :
    i ∈ ((cfg2.win 4).blk t).view.set ↔ ∀ a : Fin 2, win2_4.index t a * S8192x128.size a ≤ (i a).val ∧ (i a).val < win2_4.index t a * S8192x128.size a + S8192x128.size a := by
  show i ∈ ((View.whole (Pipeline.arrRef spec2 4)).slice (win2_4.rect t)).set ↔ _
  rw [View.set_slice_whole, Rect.mem_set_unit]
  exact Iff.rfl

/-- The last point's block is the whole array. -/
theorem gc2_cover3 (i : S8192x128.Idx) : ∃ t : Fin cfg2.N, (cfg2.win 3).flush t = true ∧ i ∈ ((cfg2.win 3).blk t).view.set := by
  have h63 : 63 < cfg2.N := by rw [gc2_N]; decide
  refine ⟨⟨63, h63⟩, (flush2_3 _).mpr (by show (63 : ℕ) % 64 = 63; decide), ?_⟩
  obtain ⟨-, -, -, -, -, -, -, -, -, -, e30, e31, -⟩ := gc2_facts ⟨63, h63⟩
  rw [gc2_mem3]
  intro a
  match a with
  | ⟨0, _⟩ => show win2_3.index ⟨63, h63⟩ (0 : Fin 2) * 8192 ≤ (i 0).val ∧ (i 0).val < win2_3.index ⟨63, h63⟩ (0 : Fin 2) * 8192 + 8192
              have hi : (i 0).val < 8192 := (i 0).isLt; rw [e30]; omega
  | ⟨1, _⟩ => show win2_3.index ⟨63, h63⟩ (1 : Fin 2) * 128 ≤ (i 1).val ∧ (i 1).val < win2_3.index ⟨63, h63⟩ (1 : Fin 2) * 128 + 128
              have hi : (i 1).val < 128 := (i 1).isLt; rw [e31]; omega
theorem gc2_cover4 (i : S8192x128.Idx) : ∃ t : Fin cfg2.N, (cfg2.win 4).flush t = true ∧ i ∈ ((cfg2.win 4).blk t).view.set := by
  have h63 : 63 < cfg2.N := by rw [gc2_N]; decide
  refine ⟨⟨63, h63⟩, (flush2_4 _).mpr (by show (63 : ℕ) % 64 = 63; decide), ?_⟩
  obtain ⟨-, -, -, -, -, -, -, -, -, -, -, -, e40, e41⟩ := gc2_facts ⟨63, h63⟩
  rw [gc2_mem4]
  intro a
  match a with
  | ⟨0, _⟩ => show win2_4.index ⟨63, h63⟩ (0 : Fin 2) * 8192 ≤ (i 0).val ∧ (i 0).val < win2_4.index ⟨63, h63⟩ (0 : Fin 2) * 8192 + 8192
              have hi : (i 0).val < 8192 := (i 0).isLt; rw [e40]; omega
  | ⟨1, _⟩ => show win2_4.index ⟨63, h63⟩ (1 : Fin 2) * 128 ≤ (i 1).val ∧ (i 1).val < win2_4.index ⟨63, h63⟩ (1 : Fin 2) * 128 + 128
              have hi : (i 1).val < 128 := (i 1).isLt; rw [e41]; omega

/-- THE FIRST OUTPUT ARRAY AFTER REGION 2: leaky (adj * cw). -/
theorem arrAt_gc2_3 (c : Dev nD) : (dat2 (F := Ideal) V c).arrAt 3 cfg2.N
    = Cert.Spec.gcPre (V c (Pipeline.arrRef spec2 0)) (V c (Pipeline.arrRef spec2 1)) :=
  (dat2 V c).arrAt_eq_of_cover 3 _ (fun t ht => gc2_flushed3 V c t ht) gc2_cover3

/-- THE SECOND OUTPUT ARRAY AFTER REGION 2: leaky (adj^T * pw). -/
theorem arrAt_gc2_4 (c : Dev nD) : (dat2 (F := Ideal) V c).arrAt 4 cfg2.N
    = Cert.Spec.gcCur (V c (Pipeline.arrRef spec2 0)) (V c (Pipeline.arrRef spec2 2)) :=
  (dat2 V c).arrAt_eq_of_cover 4 _ (fun t ht => gc2_flushed4 V c t ht) gc2_cover4

end Cert.KernelIdeal.Hand

end
-- ==== Proof.GcValue.lean ====
/-
  The two graph-convolution regions over the extended reals: after each, its first output array is
  leaky (adj * cw) and its second leaky (adj^T * pw), of the three arrays as the region finds them
  (arrAt_gc0_3, arrAt_gc0_4 for the first call; arrAt_gc2_3, arrAt_gc2_4 for the second).
-/
import proofs.«154085_j15066745274644_1_alg».proof.Proof.GcValue0
import proofs.«154085_j15066745274644_1_alg».proof.Proof.GcValue2
-- ==== Proof.KernelValue.lean ====
import proofs.«154085_j15066745274644_1_alg».proof.Proof.Spec
import proofs.«154085_j15066745274644_1_alg».proof.Proof.LibRowBlockDot
import proofs.«154085_j15066745274644_1_alg».proof.Proof.KI.Run
import proofs.«154085_j15066745274644_1_alg».proof.Proof.CosValue
import proofs.«154085_j15066745274644_1_alg».proof.Proof.GcValue
import Idealize.ShloMosaic.Lib.Pipeline.Value
import Idealize.ShloMosaic.Lib.ValueIdx
import Idealize.ShloMosaic.Lib.IdealHost
import Idealize.ShloMosaic.Lib.StableHlo.Run

/-! # The program's result over the extended reals is the shared specification

The program runs, on each core: two projections of the node features by the first weight; the graph-convolution
region; the row norms of its two outputs (the second set as a row); the cosine region; two projections by the
second weight; the graph-convolution region with the first similarity as its adjacency; the norms again; the
cosine region. Each host stretch is read once as a function of the buffers it reads (a projection is the matrix
product; a norm chain at row `r` is the norm of row `r`), each region's output arrays are the specification's
functions of its input arrays, and the buffer contents at the segment boundaries are walked from the launch
memory to the result, one named array at a time. -/

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.RowBlockDot

/-! ## The host operations as functions -/

/-- A feature array times a weight on the host contracts the features' second axis with the weight's first. -/
theorem hostDot_plain : PlainDot (M := 8192) (K := 128) (N := 128) dot_S8192x128_S128x128_S8192x128_1_0_0_1_n_n where
  hr := rfl
  hs := rfl
  l0 := fun j q => rfl
  l1 := fun j q => DotDims.lhsIdx_val_of_single (d := dot_S8192x128_S128x128_S8192x128_1_0_0_1_n_n) (cl := 1) rfl j q
  r0 := fun j q => DotDims.rhsIdx_val_of_single (d := dot_S8192x128_S128x128_S8192x128_1_0_0_1_n_n) (cr := 0) rfl j q
  r1 := fun j q => rfl

/-- The host's projection of a feature array by a weight. -/
def hostDot (X : FVec Ideal S8192x128 .f32) (W : FVec Ideal S128x128 .f32) : FVec Ideal S8192x128 .f32 :=
  Host.dotGeneral (φ₁ := .f32) (φ₂ := .f32) dot_S8192x128_S128x128_S8192x128_1_0_0_1_n_n none X W

/-- It is the matrix product, index by index. -/
theorem hostDot_eq_mm (X : FVec Ideal S8192x128 .f32) (W : FVec Ideal S128x128 .f32) : hostDot X W = Cert.Spec.mm X W := by
  funext i
  unfold hostDot Cert.Spec.mm
  exact (Ideal.dotGeneral_apply _ _ _ X W i).trans (sum_contr_eq _ hostDot_plain X W i)

/-- The host's row norms as a column: squares, summed over the features from the zero word, set as a column,
    square root. -/
def normCol (X : FVec Ideal S8192x128 .f32) : FVec Ideal S8192x1 .f32 :=
  Host.sqrt (broadcastInDim S8192x1 ![0] bcast_S8192_S8192x1_0
    (Host.reduceAdd (mulf X X) (constant (F := Ideal) S_ .f32 0x00000000#32) reducesTo_S8192x128_S8192_d1 h_S_))

theorem reduces_feat : S8192x128.Reduces [1] S8192 := by decide

/-- Row `r` with feature `k` put back on the summed axis is the index `(r, k)`. -/
theorem lift_feat (r : Fin 8192) (k : Fin 128) : reduces_feat.lift (ix1 r) k = ix2 r k := by
  funext c; apply Fin.ext; fin_cases c <;> rfl

/-- The column at row `r` is the norm of row `r`. -/
theorem normCol_apply (X : FVec Ideal S8192x128 .f32) (r : Fin 8192) : normCol X (ix2 r (0 : Fin 1)) = Cert.Spec.nrm X r := by
  unfold normCol Cert.Spec.nrm
  show Ideal.sqrt _ = Ideal.sqrt _
  refine congrArg Ideal.sqrt ?_
  refine (broadcastInDim_apply _ _ _ (ix2 r (0 : Fin 1)) (ix1 r) ?_).trans ?_
  · intro a
    match a with
    | ⟨0, _⟩ => rfl
  · refine (hostReduceAdd_apply _ _ _ _ (ix1 r)).trans ?_
    refine (Ideal.hostReduceAdd_single reducesTo_S8192x128_S8192_d1 reduces_feat _ _ (ix1 r)).trans ?_
    refine congrArg₂ (· + ·) rfl (Finset.sum_congr rfl fun k _ => ?_)
    exact congrArg (fun i => X i * X i) (lift_feat r k)

/-- A column set as a row. -/
def rowOf (Y : FVec Ideal S8192x1 .f32) : FVec Ideal S1x8192 .f32 :=
  transpose S1x8192 [1, 0] Y transposes_S8192x1_S1x8192_1_0

/-- The row at column `s` is the column at row `s`. -/
theorem rowOf_apply (Y : FVec Ideal S8192x1 .f32) (s : Fin 8192) : rowOf Y (ix2 (0 : Fin 1) s) = Y (ix2 s (0 : Fin 1)) := by
  unfold rowOf
  refine transpose_apply _ _ _ (ix2 (0 : Fin 1) s) (ix2 s (0 : Fin 1)) ?_
  intro b
  match b with
  | ⟨0, _⟩ => rfl
  | ⟨1, _⟩ => rfl

/-- With the norms of `P` as the column and the norms of `Q` set as the row, the cosine array is the similarity. -/
theorem cos_of_norms (P Q : FVec Ideal S8192x128 .f32) :
    Cert.Spec.cosArr P Q (normCol P) (rowOf (normCol Q)) = Cert.Spec.cosM P Q :=
  Cert.Spec.cosArr_eq_cosM P Q _ _ (normCol_apply P) (fun s => (rowOf_apply _ s).trans (normCol_apply Q s))

theorem cosArr_congr {p p' q q' : Cert.Spec.Feat} {np np' : Cert.Spec.Col} {nq nq' : Cert.Spec.Row}
    (h1 : p = p') (h2 : q = q') (h3 : np = np') (h4 : nq = nq') : Cert.Spec.cosArr p q np nq = Cert.Spec.cosArr p' q' np' nq' := by
  subst h1 h2 h3 h4; rfl

/-! ## Each host stretch at the buffer it computes, from any contents -/

section Host
variable (Wp : Valuation τ sig (Elt Ideal))

theorem host0_v0 : StableHlo.after hostOps0 Wp (Proc.devRef .tc main_v0) = hostDot (Wp (Proc.devRef .tc main_arg0)) (Wp (Proc.devRef .tc main_arg3)) := by
  after_results; rfl
theorem host0_v1 : StableHlo.after hostOps0 Wp (Proc.devRef .tc main_v1) = hostDot (Wp (Proc.devRef .tc main_arg1)) (Wp (Proc.devRef .tc main_arg3)) := by
  after_results; rfl
theorem host1_v3 : StableHlo.after hostOps1 Wp (Proc.devRef .tc main_v3) = normCol (Wp (Proc.devRef .tc main_v2_0)) := by
  after_results; rfl
theorem host1_1_v4 : StableHlo.after hostOps1_1 Wp (Proc.devRef .tc main_v4) = normCol (Wp (Proc.devRef .tc main_v2_1)) := by
  after_results; rfl
theorem host1_2_v5 : StableHlo.after hostOps1_2 Wp (Proc.devRef .tc main_v5) = rowOf (Wp (Proc.devRef .tc main_v4)) := by
  after_results; rfl
theorem host2_v7 : StableHlo.after hostOps2 Wp (Proc.devRef .tc main_v7) = hostDot (Wp (Proc.devRef .tc main_v2_0)) (Wp (Proc.devRef .tc main_arg4)) := by
  after_results; rfl
theorem host2_v8 : StableHlo.after hostOps2 Wp (Proc.devRef .tc main_v8) = hostDot (Wp (Proc.devRef .tc main_v2_1)) (Wp (Proc.devRef .tc main_arg4)) := by
  after_results; rfl
theorem host3_v10 : StableHlo.after hostOps3 Wp (Proc.devRef .tc main_v10) = normCol (Wp (Proc.devRef .tc main_v9_0)) := by
  after_results; rfl
theorem host3_1_v11 : StableHlo.after hostOps3_1 Wp (Proc.devRef .tc main_v11) = normCol (Wp (Proc.devRef .tc main_v9_1)) := by
  after_results; rfl
theorem host3_2_v12 : StableHlo.after hostOps3_2 Wp (Proc.devRef .tc main_v12) = rowOf (Wp (Proc.devRef .tc main_v11)) := by
  after_results; rfl

end Host

/-! ## The named arrays of the computation -/

section Fold
variable (m : (ℓ : Loc nD τ sig) → Buf (Elt Ideal) ℓ) (ρ : Dev nD → PrngReg) (c : Dev nD)

/-- The five arguments as launched on core `c`. -/
abbrev kvPre : Cert.Spec.Feat := m ((c.tc : Thread nD τ).loc main_arg0)
abbrev kvCur : Cert.Spec.Feat := m ((c.tc : Thread nD τ).loc main_arg1)
abbrev kvAdj : Cert.Spec.Adj := m ((c.tc : Thread nD τ).loc main_arg2)
abbrev kvW1 : Cert.Spec.Wt := m ((c.tc : Thread nD τ).loc main_arg3)
abbrev kvW2 : Cert.Spec.Wt := m ((c.tc : Thread nD τ).loc main_arg4)
/-- The first round's two feature arrays, their similarity, and the second round's two feature arrays. -/
def kvP1 : Cert.Spec.Feat := Cert.Spec.gcPre (kvAdj m c) (Cert.Spec.mm (kvCur m c) (kvW1 m c))
def kvC1 : Cert.Spec.Feat := Cert.Spec.gcCur (kvAdj m c) (Cert.Spec.mm (kvPre m c) (kvW1 m c))
def kvA1 : Cert.Spec.Adj := Cert.Spec.cosM (kvP1 m c) (kvC1 m c)
def kvP2 : Cert.Spec.Feat := Cert.Spec.gcPre (kvA1 m c) (Cert.Spec.mm (kvC1 m c) (kvW2 m c))
def kvC2 : Cert.Spec.Feat := Cert.Spec.gcCur (kvA1 m c) (Cert.Spec.mm (kvP1 m c) (kvW2 m c))

/-! ## The fold, boundary by boundary -/

/-! ### After the first projections -/
theorem W1_v0 : W1 m ρ c (Proc.devRef .tc main_v0) = Cert.Spec.mm (kvPre m c) (kvW1 m c) :=
  (host0_v0 (W0 m ρ c)).trans (hostDot_eq_mm _ _)
theorem W1_v1 : W1 m ρ c (Proc.devRef .tc main_v1) = Cert.Spec.mm (kvCur m c) (kvW1 m c) :=
  (host0_v1 (W0 m ρ c)).trans (hostDot_eq_mm _ _)
theorem W1_arg2 : W1 m ρ c (Proc.devRef .tc main_arg2) = kvAdj m c := W1_of m ρ c main_arg2 (by decide)

/-! ### After the first graph convolution -/
theorem W2_v2_0 : W2 m ρ c (Proc.devRef .tc main_v2_0) = kvP1 m c :=
  (W2_arr m ρ c 3).trans ((arrAt_gc0_3 (V1 m ρ) c).trans (congrArg₂ Cert.Spec.gcPre (W1_arg2 m ρ c) (W1_v1 m ρ c)))
theorem W2_v2_1 : W2 m ρ c (Proc.devRef .tc main_v2_1) = kvC1 m c :=
  (W2_arr m ρ c 4).trans ((arrAt_gc0_4 (V1 m ρ) c).trans (congrArg₂ Cert.Spec.gcCur (W1_arg2 m ρ c) (W1_v0 m ρ c)))
theorem W2_arg4 : W2 m ρ c (Proc.devRef .tc main_arg4) = kvW2 m c :=
  (W2_of_ne m ρ c main_arg4 (by decide)).trans (W1_of m ρ c main_arg4 (by decide))

/-! ### After the first norms -/
theorem W3_v2_1 : W3 m ρ c (Proc.devRef .tc main_v2_1) = kvC1 m c := (W3_of m ρ c main_v2_1 (by decide)).trans (W2_v2_1 m ρ c)
theorem W4_v4 : W4 m ρ c (Proc.devRef .tc main_v4) = normCol (kvC1 m c) :=
  (host1_1_v4 (W3 m ρ c)).trans (congrArg normCol (W3_v2_1 m ρ c))
theorem W5_v2_0 : W5 m ρ c (Proc.devRef .tc main_v2_0) = kvP1 m c :=
  (W5_of m ρ c main_v2_0 (by decide)).trans ((W4_of m ρ c main_v2_0 (by decide)).trans ((W3_of m ρ c main_v2_0 (by decide)).trans (W2_v2_0 m ρ c)))
theorem W5_v2_1 : W5 m ρ c (Proc.devRef .tc main_v2_1) = kvC1 m c :=
  (W5_of m ρ c main_v2_1 (by decide)).trans ((W4_of m ρ c main_v2_1 (by decide)).trans (W3_v2_1 m ρ c))
theorem W5_v3 : W5 m ρ c (Proc.devRef .tc main_v3) = normCol (kvP1 m c) :=
  (W5_of m ρ c main_v3 (by decide)).trans ((W4_of m ρ c main_v3 (by decide)).trans
    ((host1_v3 (W2 m ρ c)).trans (congrArg normCol (W2_v2_0 m ρ c))))
theorem W5_v5 : W5 m ρ c (Proc.devRef .tc main_v5) = rowOf (normCol (kvC1 m c)) :=
  (host1_2_v5 (W4 m ρ c)).trans (congrArg rowOf (W4_v4 m ρ c))
theorem W5_arg4 : W5 m ρ c (Proc.devRef .tc main_arg4) = kvW2 m c :=
  (W5_of m ρ c main_arg4 (by decide)).trans ((W4_of m ρ c main_arg4 (by decide)).trans ((W3_of m ρ c main_arg4 (by decide)).trans (W2_arg4 m ρ c)))

/-! ### After the first similarity -/
theorem W6_v6 : W6 m ρ c (Proc.devRef .tc main_v6) = kvA1 m c :=
  (W6_arr m ρ c 4).trans ((arrAt_cos1 (V5 m ρ) c).trans
    ((cosArr_congr (W5_v2_0 m ρ c) (W5_v2_1 m ρ c) (W5_v3 m ρ c) (W5_v5 m ρ c)).trans (cos_of_norms _ _)))
theorem W6_v2_0 : W6 m ρ c (Proc.devRef .tc main_v2_0) = kvP1 m c := (W6_in m ρ c 0 rfl).trans (W5_v2_0 m ρ c)
theorem W6_v2_1 : W6 m ρ c (Proc.devRef .tc main_v2_1) = kvC1 m c := (W6_in m ρ c 1 rfl).trans (W5_v2_1 m ρ c)
theorem W6_arg4 : W6 m ρ c (Proc.devRef .tc main_arg4) = kvW2 m c := (W6_of_ne m ρ c main_arg4 (by decide)).trans (W5_arg4 m ρ c)

/-! ### After the second projections -/
theorem W7_v7 : W7 m ρ c (Proc.devRef .tc main_v7) = Cert.Spec.mm (kvP1 m c) (kvW2 m c) :=
  (host2_v7 (W6 m ρ c)).trans ((congrArg₂ hostDot (W6_v2_0 m ρ c) (W6_arg4 m ρ c)).trans (hostDot_eq_mm _ _))
theorem W7_v8 : W7 m ρ c (Proc.devRef .tc main_v8) = Cert.Spec.mm (kvC1 m c) (kvW2 m c) :=
  (host2_v8 (W6 m ρ c)).trans ((congrArg₂ hostDot (W6_v2_1 m ρ c) (W6_arg4 m ρ c)).trans (hostDot_eq_mm _ _))
theorem W7_v6 : W7 m ρ c (Proc.devRef .tc main_v6) = kvA1 m c := (W7_of m ρ c main_v6 (by decide)).trans (W6_v6 m ρ c)

/-! ### After the second graph convolution -/
theorem W8_v9_0 : W8 m ρ c (Proc.devRef .tc main_v9_0) = kvP2 m c :=
  (W8_arr m ρ c 3).trans ((arrAt_gc2_3 (V7 m ρ) c).trans (congrArg₂ Cert.Spec.gcPre (W7_v6 m ρ c) (W7_v8 m ρ c)))
theorem W8_v9_1 : W8 m ρ c (Proc.devRef .tc main_v9_1) = kvC2 m c :=
  (W8_arr m ρ c 4).trans ((arrAt_gc2_4 (V7 m ρ) c).trans (congrArg₂ Cert.Spec.gcCur (W7_v6 m ρ c) (W7_v7 m ρ c)))

/-! ### After the second norms -/
theorem W9_v9_1 : W9 m ρ c (Proc.devRef .tc main_v9_1) = kvC2 m c := (W9_of m ρ c main_v9_1 (by decide)).trans (W8_v9_1 m ρ c)
theorem W10_v11 : W10 m ρ c (Proc.devRef .tc main_v11) = normCol (kvC2 m c) :=
  (host3_1_v11 (W9 m ρ c)).trans (congrArg normCol (W9_v9_1 m ρ c))
theorem W11_v9_0 : W11 m ρ c (Proc.devRef .tc main_v9_0) = kvP2 m c :=
  (W11_of m ρ c main_v9_0 (by decide)).trans ((W10_of m ρ c main_v9_0 (by decide)).trans ((W9_of m ρ c main_v9_0 (by decide)).trans (W8_v9_0 m ρ c)))
theorem W11_v9_1 : W11 m ρ c (Proc.devRef .tc main_v9_1) = kvC2 m c :=
  (W11_of m ρ c main_v9_1 (by decide)).trans ((W10_of m ρ c main_v9_1 (by decide)).trans (W9_v9_1 m ρ c))
theorem W11_v10 : W11 m ρ c (Proc.devRef .tc main_v10) = normCol (kvP2 m c) :=
  (W11_of m ρ c main_v10 (by decide)).trans ((W10_of m ρ c main_v10 (by decide)).trans
    ((host3_v10 (W8 m ρ c)).trans (congrArg normCol (W8_v9_0 m ρ c))))
theorem W11_v12 : W11 m ρ c (Proc.devRef .tc main_v12) = rowOf (normCol (kvC2 m c)) :=
  (host3_2_v12 (W10 m ρ c)).trans (congrArg rowOf (W10_v11 m ρ c))

/-! ### The result -/

/-- THE RESULT ARRAY at the end of the run is the specification's function of the five arguments as launched. -/
theorem kernel_result : W12 m ρ c (Proc.devRef .tc main_v13)
    = Cert.Spec.G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (W12_result m ρ c).trans ((arrAt_cos3 (V11 m ρ) c).trans
    ((cosArr_congr (W11_v9_0 m ρ c) (W11_v9_1 m ρ c) (W11_v10 m ρ c) (W11_v12 m ρ c)).trans (cos_of_norms _ _)))

end Fold

end Cert.KernelIdeal.Hand

end
-- ==== Proof.RefSide.lean ====
import proofs.«154085_j15066745274644_1_alg».proof.Proof.RefRunP
import proofs.«154085_j15066745274644_1_alg».proof.Proof.Spec
import proofs.«154085_j15066745274644_1_alg».proof.Proof.LibRowBlockDot
import Idealize.ShloMosaic.Lib.ValueIdx
import Idealize.ShloMosaic.Lib.Pipeline.Value
import Idealize.ShloMosaic.PureOps.Ideal.Laws

/-!
# The reference computes the two-round similarity

The reference program is a straight line of host operations. Its result, as a term of the five argument arrays, is read
here stage by stage at the extended reals: a product of features with a weight is the sum over the contracted index; a
round of the graph convolution is the rectified product with the adjacency or with its transpose; the cosine stage is
the quotient of the row-by-row inner products by the larger of the product of the row norms and the threshold. Each stage
is an equation between functions of arbitrary operands, so the stages rewrite inside the composed term, which thereby
becomes the specification's `G` of the arguments.
-/

noncomputable section

namespace Cert.ReferenceIdeal.RefValue

open Cert.ReferenceIdeal Cert.ReferenceIdeal.Gen Idealize.ShloMosaic Idealize.ShloMosaic.ValueIdx

/-! ## The three contractions of the reference as sums over the contracted index -/

/-- Each of the reference's three contractions is a plain matrix product: the left operand's second axis against the
    right operand's first. -/
theorem plain_mm : RowBlockDot.PlainDot (M := 8192) (K := 128) (N := 128) dot_S8192x128_S128x128_S8192x128_1_0_0_1_n_n :=
  ⟨rfl, rfl, fun _ _ => rfl, fun _ _ => rfl, fun _ _ => rfl, fun _ _ => rfl⟩
theorem plain_gc : RowBlockDot.PlainDot (M := 8192) (K := 8192) (N := 128) dot_S8192x8192_S8192x128_S8192x128_1_0_0_1_n_n :=
  ⟨rfl, rfl, fun _ _ => rfl, fun _ _ => rfl, fun _ _ => rfl, fun _ _ => rfl⟩
theorem plain_cos : RowBlockDot.PlainDot (M := 8192) (K := 128) (N := 8192) dot_S8192x128_S128x8192_S8192x8192_1_0_0_1_n_n :=
  ⟨rfl, rfl, fun _ _ => rfl, fun _ _ => rfl, fun _ _ => rfl, fun _ _ => rfl⟩

/-- Features times a weight. -/
theorem mm_eq (X : FVec Ideal S8192x128 .f32) (W : FVec Ideal S128x128 .f32) :
    Host.dotGeneral dot_S8192x128_S128x128_S8192x128_1_0_0_1_n_n none X W = Cert.Spec.mm X W := by
  funext i
  exact (Ideal.dotGeneral_apply _ none .single X W i).trans (RowBlockDot.sum_contr_eq _ plain_mm X W i)

/-! ## A round of the graph convolution -/

/-- The adjacency times the projected features, rectified. -/
theorem gcPre_eq (A : FVec Ideal S8192x8192 .f32) (Y : FVec Ideal S8192x128 .f32) :
    select (cmpf .oge (Host.dotGeneral dot_S8192x8192_S8192x128_S8192x128_1_0_0_1_n_n none A Y) (broadcastInDim S8192x128 ![] bcast_S_S8192x128 (constant S_ .f32 0x00000000#32)))
      (Host.dotGeneral dot_S8192x8192_S8192x128_S8192x128_1_0_0_1_n_n none A Y)
      (mulf (broadcastInDim S8192x128 ![] bcast_S_S8192x128 (constant S_ .f32 0x3C23D70A#32)) (Host.dotGeneral dot_S8192x8192_S8192x128_S8192x128_1_0_0_1_n_n none A Y))
    = Cert.Spec.gcPre A Y := by
  funext i
  have hd : Host.dotGeneral dot_S8192x8192_S8192x128_S8192x128_1_0_0_1_n_n none A Y i
      = ∑ k : Fin 8192, A (ix2 (i 0) k) * Y (ix2 k (i 1)) :=
    (Ideal.dotGeneral_apply _ none .single A Y i).trans (RowBlockDot.sum_contr_eq _ plain_gc A Y i)
  show Scalar.select (FloatOps.cmpf .oge (Host.dotGeneral dot_S8192x8192_S8192x128_S8192x128_1_0_0_1_n_n none A Y i) (Ideal.ofBits .f32 0x00000000#32))
      (Host.dotGeneral dot_S8192x8192_S8192x128_S8192x128_1_0_0_1_n_n none A Y i)
      (Ideal.ofBits .f32 0x3C23D70A#32 * Host.dotGeneral dot_S8192x8192_S8192x128_S8192x128_1_0_0_1_n_n none A Y i) = _
  rw [hd]; rfl

/-- The transpose of an 8192 x 8192 array read at an index. -/
theorem transpose_sq_apply (A : FVec Ideal S8192x8192 .f32) (p q : Fin 8192) :
    transpose S8192x8192 [1, 0] A transposes_S8192x8192_S8192x8192_1_0 (ix2 p q) = A (ix2 q p) :=
  transpose_apply [1, 0] A transposes_S8192x8192_S8192x8192_1_0 (ix2 p q) (ix2 q p) fun b => match b with
    | ⟨0, _⟩ => rfl
    | ⟨1, _⟩ => rfl

/-- The transposed adjacency times the projected features, rectified. -/
theorem gcCur_eq (A : FVec Ideal S8192x8192 .f32) (Y : FVec Ideal S8192x128 .f32) :
    select (cmpf .oge (Host.dotGeneral dot_S8192x8192_S8192x128_S8192x128_1_0_0_1_n_n none (transpose S8192x8192 [1, 0] A transposes_S8192x8192_S8192x8192_1_0) Y) (broadcastInDim S8192x128 ![] bcast_S_S8192x128 (constant S_ .f32 0x00000000#32)))
      (Host.dotGeneral dot_S8192x8192_S8192x128_S8192x128_1_0_0_1_n_n none (transpose S8192x8192 [1, 0] A transposes_S8192x8192_S8192x8192_1_0) Y)
      (mulf (broadcastInDim S8192x128 ![] bcast_S_S8192x128 (constant S_ .f32 0x3C23D70A#32)) (Host.dotGeneral dot_S8192x8192_S8192x128_S8192x128_1_0_0_1_n_n none (transpose S8192x8192 [1, 0] A transposes_S8192x8192_S8192x8192_1_0) Y))
    = Cert.Spec.gcCur A Y := by
  funext i
  have hd : Host.dotGeneral dot_S8192x8192_S8192x128_S8192x128_1_0_0_1_n_n none (transpose S8192x8192 [1, 0] A transposes_S8192x8192_S8192x8192_1_0) Y i
      = ∑ k : Fin 8192, A (ix2 k (i 0)) * Y (ix2 k (i 1)) :=
    ((Ideal.dotGeneral_apply _ none .single _ Y i).trans (RowBlockDot.sum_contr_eq _ plain_gc _ Y i)).trans
      (Finset.sum_congr rfl fun k _ => congrArg (· * Y (ix2 k (i 1))) (transpose_sq_apply A (i 0) k))
  show Scalar.select (FloatOps.cmpf .oge (Host.dotGeneral dot_S8192x8192_S8192x128_S8192x128_1_0_0_1_n_n none (transpose S8192x8192 [1, 0] A transposes_S8192x8192_S8192x8192_1_0) Y i) (Ideal.ofBits .f32 0x00000000#32))
      (Host.dotGeneral dot_S8192x8192_S8192x128_S8192x128_1_0_0_1_n_n none (transpose S8192x8192 [1, 0] A transposes_S8192x8192_S8192x8192_1_0) Y i)
      (Ideal.ofBits .f32 0x3C23D70A#32 * Host.dotGeneral dot_S8192x8192_S8192x128_S8192x128_1_0_0_1_n_n none (transpose S8192x8192 [1, 0] A transposes_S8192x8192_S8192x8192_1_0) Y i) = _
  rw [hd]; rfl

/-! ## The cosine similarity -/

/-- The norm of a row as the reference takes it: the square root of the row's sum of squares from the zero word. -/
theorem nrm_eq (X : FVec Ideal S8192x128 .f32) (r : Fin 8192) :
    Host.sqrt (Host.reduceAdd (mulf X X) (constant S_ .f32 0x00000000#32) reducesTo_S8192x128_S8192_d1 h_S_) (ix1 r) = Cert.Spec.nrm X r := by
  have hred : S8192x128.Reduces [1] S8192 := by decide
  have e : ∀ k : Fin 128, hred.lift (ix1 r) k = ix2 r k := fun k => funext fun a => Fin.ext (match a with
    | ⟨0, _⟩ => rfl
    | ⟨1, _⟩ => rfl)
  show Ideal.sqrt (Ideal.hostReduceAdd reducesTo_S8192x128_S8192_d1 (mulf X X) (Ideal.ofBits .f32 0x00000000#32) (ix1 r)) = _
  rw [Ideal.hostReduceAdd_single reducesTo_S8192x128_S8192_d1 hred]
  unfold Cert.Spec.nrm
  exact congrArg (fun s => Ideal.sqrt (Ideal.ofBits .f32 0x00000000#32 + s))
    (Finset.sum_congr rfl fun k _ => congrArg (fun j => X j * X j) (e k))

/-- The transpose of a feature array read at an index. -/
theorem transpose_ft_apply (Q : FVec Ideal S8192x128 .f32) (k : Fin 128) (s : Fin 8192) :
    transpose S128x8192 [1, 0] Q transposes_S8192x128_S128x8192_1_0 (ix2 k s) = Q (ix2 s k) :=
  transpose_apply [1, 0] Q transposes_S8192x128_S128x8192_1_0 (ix2 k s) (ix2 s k) fun b => match b with
    | ⟨0, _⟩ => rfl
    | ⟨1, _⟩ => rfl

/-- A vector of 8192 entries spread down the rows of an 8192 x 8192 array: entry (p, q) is the vector's entry p. -/
theorem col_apply (v : FVec Ideal S8192 .f32) (i : S8192x8192.Idx) :
    broadcastInDim S8192x8192 ![0, 1] bcast_S8192x1_S8192x8192_0_1 (broadcastInDim S8192x1 ![0] bcast_S8192_S8192x1_0 v) i = v (ix1 (i 0)) :=
  (broadcastInDim_apply ![0, 1] bcast_S8192x1_S8192x8192_0_1 _ i (ix2 (i 0) (0 : Fin 1)) fun a => match a with
    | ⟨0, _⟩ => rfl
    | ⟨1, _⟩ => rfl).trans
  (broadcastInDim_apply ![0] bcast_S8192_S8192x1_0 v (ix2 (i 0) (0 : Fin 1)) (ix1 (i 0)) fun a => match a with
    | ⟨0, _⟩ => rfl)

/-- The same vector spread along the columns: entry (p, q) is the vector's entry q. -/
theorem row_apply (v : FVec Ideal S8192 .f32) (i : S8192x8192.Idx) :
    broadcastInDim S8192x8192 ![0, 1] bcast_S1x8192_S8192x8192_0_1 (broadcastInDim S1x8192 ![1] bcast_S8192_S1x8192_1 v) i = v (ix1 (i 1)) :=
  (broadcastInDim_apply ![0, 1] bcast_S1x8192_S8192x8192_0_1 _ i (ix2 (0 : Fin 1) (i 1)) fun a => match a with
    | ⟨0, _⟩ => rfl
    | ⟨1, _⟩ => rfl).trans
  (broadcastInDim_apply ![1] bcast_S8192_S1x8192_1 v (ix2 (0 : Fin 1) (i 1)) (ix1 (i 1)) fun a => match a with
    | ⟨0, _⟩ => rfl)

/-- The reference's cosine stage is the similarity of its two operands. -/
theorem cos_eq (P Q : FVec Ideal S8192x128 .f32) :
    Host.divf (Host.dotGeneral dot_S8192x128_S128x8192_S8192x8192_1_0_0_1_n_n none P (transpose S128x8192 [1, 0] Q transposes_S8192x128_S128x8192_1_0))
      (maximumf (mulf
          (broadcastInDim S8192x8192 ![0, 1] bcast_S8192x1_S8192x8192_0_1 (broadcastInDim S8192x1 ![0] bcast_S8192_S8192x1_0 (Host.sqrt (Host.reduceAdd (mulf P P) (constant S_ .f32 0x00000000#32) reducesTo_S8192x128_S8192_d1 h_S_))))
          (broadcastInDim S8192x8192 ![0, 1] bcast_S1x8192_S8192x8192_0_1 (broadcastInDim S1x8192 ![1] bcast_S8192_S1x8192_1 (Host.sqrt (Host.reduceAdd (mulf Q Q) (constant S_ .f32 0x00000000#32) reducesTo_S8192x128_S8192_d1 h_S_)))))
        (broadcastInDim S8192x8192 ![] bcast_S_S8192x8192 (constant S_ .f32 0x322BCC77#32)))
    = Cert.Spec.cosM P Q := by
  funext i
  have hdot : Host.dotGeneral dot_S8192x128_S128x8192_S8192x8192_1_0_0_1_n_n none P (transpose S128x8192 [1, 0] Q transposes_S8192x128_S128x8192_1_0) i
      = ∑ k : Fin 128, P (ix2 (i 0) k) * Q (ix2 (i 1) k) :=
    ((Ideal.dotGeneral_apply _ none .single P _ i).trans (RowBlockDot.sum_contr_eq _ plain_cos P _ i)).trans
      (Finset.sum_congr rfl fun k _ => congrArg (P (ix2 (i 0) k) * ·) (transpose_ft_apply Q k (i 1)))
  have hp := (col_apply (Host.sqrt (Host.reduceAdd (mulf P P) (constant S_ .f32 0x00000000#32) reducesTo_S8192x128_S8192_d1 h_S_)) i).trans (nrm_eq P (i 0))
  have hq := (row_apply (Host.sqrt (Host.reduceAdd (mulf Q Q) (constant S_ .f32 0x00000000#32) reducesTo_S8192x128_S8192_d1 h_S_)) i).trans (nrm_eq Q (i 1))
  unfold Cert.Spec.cosM
  exact congrArg₂ Ideal.div hdot (congrArg (max · (Ideal.ofBits .f32 0x322BCC77#32)) (congrArg₂ (· * ·) hp hq))

/-! ## The stages as the reference prints them, as functions of their operands -/

/-- Features times a weight, as printed. -/
def mmS (X : FVec Ideal S8192x128 .f32) (W : FVec Ideal S128x128 .f32) : FVec Ideal S8192x128 .f32 :=
  Host.dotGeneral dot_S8192x128_S128x128_S8192x128_1_0_0_1_n_n none X W

/-- The adjacency times projected features, rectified, as printed. -/
def gcPreS (A : FVec Ideal S8192x8192 .f32) (Y : FVec Ideal S8192x128 .f32) : FVec Ideal S8192x128 .f32 :=
  select (cmpf .oge (Host.dotGeneral dot_S8192x8192_S8192x128_S8192x128_1_0_0_1_n_n none A Y) (broadcastInDim S8192x128 ![] bcast_S_S8192x128 (constant S_ .f32 0x00000000#32)))
    (Host.dotGeneral dot_S8192x8192_S8192x128_S8192x128_1_0_0_1_n_n none A Y)
    (mulf (broadcastInDim S8192x128 ![] bcast_S_S8192x128 (constant S_ .f32 0x3C23D70A#32)) (Host.dotGeneral dot_S8192x8192_S8192x128_S8192x128_1_0_0_1_n_n none A Y))

/-- The transposed adjacency times projected features, rectified, as printed. -/
def gcCurS (A : FVec Ideal S8192x8192 .f32) (Y : FVec Ideal S8192x128 .f32) : FVec Ideal S8192x128 .f32 :=
  gcPreS (transpose S8192x8192 [1, 0] A transposes_S8192x8192_S8192x8192_1_0) Y

/-- The cosine stage, as printed. -/
def cosS (P Q : FVec Ideal S8192x128 .f32) : FVec Ideal S8192x8192 .f32 :=
  Host.divf (Host.dotGeneral dot_S8192x128_S128x8192_S8192x8192_1_0_0_1_n_n none P (transpose S128x8192 [1, 0] Q transposes_S8192x128_S128x8192_1_0))
    (maximumf (mulf
        (broadcastInDim S8192x8192 ![0, 1] bcast_S8192x1_S8192x8192_0_1 (broadcastInDim S8192x1 ![0] bcast_S8192_S8192x1_0 (Host.sqrt (Host.reduceAdd (mulf P P) (constant S_ .f32 0x00000000#32) reducesTo_S8192x128_S8192_d1 h_S_))))
        (broadcastInDim S8192x8192 ![0, 1] bcast_S1x8192_S8192x8192_0_1 (broadcastInDim S1x8192 ![1] bcast_S8192_S1x8192_1 (Host.sqrt (Host.reduceAdd (mulf Q Q) (constant S_ .f32 0x00000000#32) reducesTo_S8192x128_S8192_d1 h_S_)))))
      (broadcastInDim S8192x8192 ![] bcast_S_S8192x8192 (constant S_ .f32 0x322BCC77#32)))

theorem mmS_eq : mmS = Cert.Spec.mm := funext fun X => funext fun W => mm_eq X W
theorem gcPreS_eq : gcPreS = Cert.Spec.gcPre := funext fun A => funext fun Y => gcPre_eq A Y
theorem gcCurS_eq : gcCurS = Cert.Spec.gcCur := funext fun A => funext fun Y => gcCur_eq A Y
theorem cosS_eq : cosS = Cert.Spec.cosM := funext fun P => funext fun Q => cos_eq P Q

/-- The two-round computation over the printed stages. -/
def GS (pre cur : FVec Ideal S8192x128 .f32) (adj : FVec Ideal S8192x8192 .f32) (W1 W2 : FVec Ideal S128x128 .f32) : FVec Ideal S8192x8192 .f32 :=
  cosS (gcPreS (cosS (gcPreS adj (mmS cur W1)) (gcCurS adj (mmS pre W1))) (mmS (gcCurS adj (mmS pre W1)) W2))
    (gcCurS (cosS (gcPreS adj (mmS cur W1)) (gcCurS adj (mmS pre W1))) (mmS (gcPreS adj (mmS cur W1)) W2))

/-- Over the specification's stages it is `G`. -/
theorem GS_eq : GS = Cert.Spec.G := by
  unfold GS
  rw [mmS_eq, gcPreS_eq, gcCurS_eq, cosS_eq]
  rfl

/-! ## The whole reference -/

set_option maxRecDepth 8192 in
set_option maxHeartbeats 30400000 in
/-- The reference's result, as composed from the arguments, is the printed stages composed: the two terms are the
    same once the stages' names are unfolded. -/
theorem res_eq_GS (m : (ℓ : Loc nD τ sig) → Buf (Elt Ideal) ℓ) (c : Dev nD) :
    ValueP.res_main_v53 m c = GS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- Hence it is `G` of the arguments. -/
theorem res_eq_G (m : (ℓ : Loc nD τ sig) → Buf (Elt Ideal) ℓ) (c : Dev nD) :
    ValueP.res_main_v53 m c = Cert.Spec.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  (res_eq_GS m c).trans (congrFun (congrFun (congrFun (congrFun (congrFun GS_eq _) _) _) _) _)
/-- Every weakly fair execution of the reference terminates, nothing faulting, with the result array at `G` of the
    five argument arrays as launched, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (res_eq_G m c), (h c).2⟩) (ValueP.run m ρ)

end Cert.ReferenceIdeal.RefValue

end
-- ==== Proof.lean ====
/-
  The certificate's claim, assembled.

  Both programs compute, on every core, the similarity after two rounds of graph convolution: the shared
  specification `Cert.Spec.G` of the five argument arrays. The kernel's run ends with every unscoped buffer at the last
  contents of its fold over the twelve segments; the result array there is `G` of the arguments as launched, and
  each argument is as launched. The reference's run ends with its result at the same `G` of its own arguments,
  which agree with the kernel's. So the two frames hold, the idealization rewrote nothing, and the two results are
  one array.
-/
import proofs.«154085_j15066745274644_1_alg».proof.Defs
import proofs.«154085_j15066745274644_1_alg».proof.Proof.Gen.Kernel
import proofs.«154085_j15066745274644_1_alg».proof.Proof.Gen.Kernel.Skeleton
import proofs.«154085_j15066745274644_1_alg».proof.Proof.Gen.Kernel.Launch
import proofs.«154085_j15066745274644_1_alg».proof.Proof.Gen.Kernel.Regions
import proofs.«154085_j15066745274644_1_alg».proof.Proof.Gen.Kernel.Points
import proofs.«154085_j15066745274644_1_alg».proof.Proof.Gen.KernelIdeal
import proofs.«154085_j15066745274644_1_alg».proof.Proof.Gen.KernelIdeal.Skeleton
import proofs.«154085_j15066745274644_1_alg».proof.Proof.Gen.KernelIdeal.Launch
import proofs.«154085_j15066745274644_1_alg».proof.Proof.Gen.KernelIdeal.Regions
import proofs.«154085_j15066745274644_1_alg».proof.Proof.Gen.KernelIdeal.Points
import proofs.«154085_j15066745274644_1_alg».proof.Proof.Gen.ReferenceIdeal
import proofs.«154085_j15066745274644_1_alg».proof.Proof.Gen.Pre_finite_inputs
import proofs.«154085_j15066745274644_1_alg».proof.Proof.Spec
import proofs.«154085_j15066745274644_1_alg».proof.Proof.K.Run
import proofs.«154085_j15066745274644_1_alg».proof.Proof.KI.Run
import proofs.«154085_j15066745274644_1_alg».proof.Proof.KernelValue
import proofs.«154085_j15066745274644_1_alg».proof.Proof.RefSide
import Idealize.ShloMosaic.Adequacy
import Idealize.ShloMosaic.Init

noncomputable section

namespace Cert.Proof

open Idealize.ShloMosaic Idealize.SL.Sem

/-- The kernel's program as printed runs and leaves its arguments as launched. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- And the reference: its run's post carries the arguments unchanged after the result. -/
theorem frame_reference : Cert.frame_ReferenceIdeal := fun m ρ _ =>
  (θ_run Cert.ReferenceIdeal.defs _ _).mono (fun _ h c => (h c).2) (Cert.ReferenceIdeal.RefValue.ref_run m ρ)

/-- The kernel's run over the extended reals: the result array ends at the specification of the arguments as
    launched, and the arguments end as launched. Each is an unscoped buffer, which the run leaves at the last
    contents of the fold. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v13) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
    ⟨(h c _ (Cert.KernelIdeal.Hand.mem_uc Cert.KernelIdeal.main_v13 (by decide))).trans (Cert.KernelIdeal.Hand.kernel_result m ρ c),
     (h c _ (Cert.KernelIdeal.Hand.mem_uc Cert.KernelIdeal.main_arg0 (by decide))).trans (Cert.KernelIdeal.Hand.W12_main_arg0 m ρ c),
     (h c _ (Cert.KernelIdeal.Hand.mem_uc Cert.KernelIdeal.main_arg1 (by decide))).trans (Cert.KernelIdeal.Hand.W12_main_arg1 m ρ c),
     (h c _ (Cert.KernelIdeal.Hand.mem_uc Cert.KernelIdeal.main_arg2 (by decide))).trans (Cert.KernelIdeal.Hand.W12_main_arg2 m ρ c),
     (h c _ (Cert.KernelIdeal.Hand.mem_uc Cert.KernelIdeal.main_arg3 (by decide))).trans (Cert.KernelIdeal.Hand.W12_main_arg3 m ρ c),
     (h c _ (Cert.KernelIdeal.Hand.mem_uc Cert.KernelIdeal.main_arg4 (by decide))).trans (Cert.KernelIdeal.Hand.W12_main_arg4 m ρ c)⟩)
    (Cert.KernelIdeal.Hand.run_all m ρ)

/-- The specification at equal arguments. -/
theorem G_congr {a a' b b' : Cert.Spec.Feat} {d d' : Cert.Spec.Adj} {w w' v v' : Cert.Spec.Wt}
    (h0 : a = a') (h1 : b = b') (h2 : d = d') (h3 : w = w') (h4 : v = v') : Cert.Spec.G a b d w v = Cert.Spec.G a' b' d' w' v' := by
  subst h0 h1 h2 h3 h4; rfl

/-- From memories that agree on the arguments the two programs end with one result array, the specification of
    the kernel's arguments, and with their arguments unchanged. -/
theorem algebraic : Cert.algebraic_KernelIdeal_ReferenceIdeal := fun m ρ m' ρ' _ hagree =>
  ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
   kernel_run m ρ,
   (θ_run Cert.ReferenceIdeal.defs _ _).mono (fun _ h c =>
      ⟨(h c).1.trans (G_congr (hagree c).1 (hagree c).2.1 (hagree c).2.2.1 (hagree c).2.2.2.1 (hagree c).2.2.2.2), (h c).2⟩)
     (Cert.ReferenceIdeal.RefValue.ref_run m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
